-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x20 : Shape := ⟨2, ![64, 20]⟩
abbrev S20 : Shape := ⟨1, ![20]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg7 : FVec F S20 .f32) (main_v33 : IVec S_ 1) : IVec S_ 1 :=
  let main_v34 : FVec F S20 .f32 := Host.absf main_arg7
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x20 .f32) (main_arg7 : FVec F S20 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x20 .f32 := Host.absf main_arg6
  let main_cst_10 : FVec F S_ .f32 := constant S_ .f32 0x7F800000#32
  let main_v30 : FVec F S64x20 .f32 := broadcastInDim S64x20 ![] bcast_S_S64x20 main_cst_10
  let main_v31 : IVec S64x20 1 := cmpf .olt main_v29 main_v30
  let main_c_11 : IVec S_ 1 := constantI S_ 1 1#1
  let main_v32 : IVec S_ 1 := (fun x v => Host.reduce IntOp.andi x v reducesTo_S64x20_S_d0_1 h_S_) main_v31 main_c_11
  let main_v33 : IVec S_ 1 := andi main_v28 main_v32
  fn_part2 (F := F) main_arg7 main_v33

def fn {F : FTy → Type} [FloatOps F] (main_arg0 : FVec F S50000x256 .f32) (main_arg1 : FVec F S800000 .f32) (main_arg2 : FVec F S256x128 .f32) (main_arg3 : FVec F S128 .f32) (main_arg4 : FVec F S128x64 .f32) (main_arg5 : FVec F S64 .f32) (main_arg6 : FVec F S64x20 .f32) (main_arg7 : FVec F S20 .f32) (main_arg8 : IVec S800000 32) (main_arg9 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x20 : Shape := ⟨2, ![64, 20]⟩
abbrev S20 : Shape := ⟨1, ![20]⟩
abbrev S50000x128 : Shape := ⟨2, ![50000, 128]⟩
abbrev S2000x256 : Shape := ⟨2, ![2000, 256]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S50000x20 : Shape := ⟨2, ![50000, 20]⟩
abbrev S2000x20 : Shape := ⟨2, ![2000, 20]⟩
abbrev S1x20 : Shape := ⟨2, ![1, 20]⟩

abbrev nBuf : Space → Nat
  | .hbm => 81
  | .vmem => 51
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x20, .f32⟩
  | .hbm, ⟨7, _⟩ => ⟨S20, .f32⟩
  | .hbm, ⟨8, _⟩ => ⟨S800000, .i32⟩
  | .hbm, ⟨9, _⟩ => ⟨S800000, .i32⟩
  | .hbm, ⟨10, _⟩ => ⟨S50000x128, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S50000x128, .f32⟩
  | .hbm, ⟨39, _⟩ => ⟨S50000x64, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S50000x64, .f32⟩
  | .hbm, ⟨68, _⟩ => ⟨S50000x20, .f32⟩
  | .hbm, ⟨69, _⟩ => ⟨S1x20, .f32⟩
  | .hbm, ⟨70, _⟩ => ⟨S1x20, .f32⟩
  | .hbm, ⟨71, _⟩ => ⟨S1x20, .f32⟩
  | .hbm, ⟨72, _⟩ => ⟨S_, .f32⟩
  | .hbm, ⟨73, _⟩ => ⟨S1x20, .f32⟩
  | .hbm, ⟨74, _⟩ => ⟨S1x20, .f32⟩
  | .hbm, ⟨75, _⟩ => ⟨S_, .f32⟩
  | .hbm, ⟨76, _⟩ => ⟨S1x20, .f32⟩
  | .hbm, ⟨77, _⟩ => ⟨S1x20, .f32⟩
  | .hbm, ⟨78, _⟩ => ⟨S1x20, .f32⟩
  | .hbm, ⟨79, _⟩ => ⟨S1x20, .f32⟩
  | .hbm, ⟨80, _⟩ => ⟨S50000x20, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S2000x64, .f32⟩
  | .local _ .vmem, ⟨28, _⟩ => ⟨S2000x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x20, .f32⟩
  | .local _ .vmem, ⟨37, _⟩ => ⟨S2000x20, .f32⟩
  | .local _ .vmem, ⟨38, _⟩ => ⟨S2000x20, .f32⟩
  | .local _ .vmem, ⟨39, _⟩ => ⟨S2000x20, .f32⟩
  | .local _ .vmem, ⟨40, _⟩ => ⟨S2000x20, .f32⟩
  | .local _ .vmem, ⟨41, _⟩ => ⟨S1x20, .f32⟩
  | .local _ .vmem, ⟨42, _⟩ => ⟨S1x20, .f32⟩
  | .local _ .vmem, ⟨43, _⟩ => ⟨S1x20, .f32⟩
  | .local _ .vmem, ⟨44, _⟩ => ⟨S2000x20, .f32⟩
  | .local _ .vmem, ⟨45, _⟩ => ⟨S2000x20, .f32⟩
  | .local _ .vmem, ⟨46, _⟩ => ⟨S1x20, .f32⟩
  | .local _ .vmem, ⟨47, _⟩ => ⟨S1x20, .f32⟩
  | .local _ .vmem, ⟨48, _⟩ => ⟨S1x20, .f32⟩
  | .local _ .vmem, ⟨49, _⟩ => ⟨S2000x20, .f32⟩
  | .local _ .vmem, ⟨50, _⟩ => ⟨S2000x20, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg4_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg4_0 : Ref sig .tc := ⟨.vmem, 49, rfl⟩
abbrev cc8_stg4_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem4_0 : DmaSem sig := 49
abbrev cc8_sem4_1 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x20 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x20 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x20 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x20 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x20 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x20 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x20 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x20 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x20 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x20 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x20 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  shapeCasts_S1x64_S1x64 : S1x64.ShapeCasts S1x64
  broadcasts_S1x64_S2000x64 : S1x64.Broadcasts S2000x64
  reduces_S2000x64_S64 : S2000x64.Reduces [0] S64
  bcast_S_S1x64 : S_.BroadcastsInDim S1x64 (![] : Fin 0 → Fin S1x64.rank)
  inb_S64x20_S64x20_0_0 : ∀ a, (![0, 0] : Fin 2 → Nat) a + S64x20.size a ≤ S64x20.size a
  h_S64x20 : 0 < S64x20.numel
  inb_S2000x20_S2000x20_0_0 : ∀ a, (![0, 0] : Fin 2 → Nat) a + S2000x20.size a ≤ S2000x20.size a
  h_S2000x20 : 0 < S2000x20.numel
  shapeCasts_S20_S1x20 : S20.ShapeCasts S1x20
  inb_S1x20_S1x20_0_0 : ∀ a, (![0, 0] : Fin 2 → Nat) a + S1x20.size a ≤ S1x20.size a
  h_S1x20 : 0 < S1x20.numel
  shapeCasts_S2000x20_S2000x20 : S2000x20.ShapeCasts S2000x20
  shapeCasts_S1x20_S1x20 : S1x20.ShapeCasts S1x20
  broadcasts_S1x20_S2000x20 : S1x20.Broadcasts S2000x20
  reduces_S2000x20_S20 : S2000x20.Reduces [0] S20
  bcast_S_S1x20 : S_.BroadcastsInDim S1x20 (![] : Fin 0 → Fin S1x20.rank)
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x20_S2000x20_1_0_0_1_n_n_wf : DotDims.WF S2000x64 S64x20 S2000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x20.size a ≤ S64x20.size a
  hwx6_1 : ∀ i : grid6.Coords, EltTy.bits .f32 = 32 ∨ (Rect.block (s := S64x20) S64x20.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x20.size a ≤ S50000x20.size a
  hwx6_2 : ∀ i : grid6.Coords, EltTy.bits .f32 = 32 ∨ (Rect.block (s := S50000x20) S2000x20.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x20.size a ≤ S50000x20.size a
  hwx7_0 : ∀ i : grid7.Coords, EltTy.bits .f32 = 32 ∨ (Rect.block (s := S50000x20) S2000x20.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x20.size a ≤ S1x20.size a
  hwx7_1 : ∀ i : grid7.Coords, EltTy.bits .f32 = 32 ∨ (Rect.block (s := S1x20) S1x20.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x20.size a ≤ S1x20.size a
  hwx7_2 : ∀ i : grid7.Coords, EltTy.bits .f32 = 32 ∨ (Rect.block (s := S1x20) S1x20.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x20.size a ≤ S1x20.size a
  hwx7_3 : ∀ i : grid7.Coords, EltTy.bits .f32 = 32 ∨ (Rect.block (s := S1x20) S1x20.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x20.size a ≤ S50000x20.size a
  hwx8_0 : ∀ i : grid8.Coords, EltTy.bits .f32 = 32 ∨ (Rect.block (s := S50000x20) S2000x20.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x20.size a ≤ S1x20.size a
  hwx8_1 : ∀ i : grid8.Coords, EltTy.bits .f32 = 32 ∨ (Rect.block (s := S1x20) S1x20.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x20.size a ≤ S1x20.size a
  hwx8_2 : ∀ i : grid8.Coords, EltTy.bits .f32 = 32 ∨ (Rect.block (s := S1x20) S1x20.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x20.size a ≤ S1x20.size a
  hwx8_3 : ∀ i : grid8.Coords, EltTy.bits .f32 = 32 ∨ (Rect.block (s := S1x20) S1x20.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x20.size a ≤ S50000x20.size a
  hwx8_4 : ∀ i : grid8.Coords, EltTy.bits .f32 = 32 ∨ (Rect.block (s := S50000x20) S2000x20.size (cc8_transform_4 i) (hinb8_4 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x20_S2000x20_1_0_0_1_n_n : DotDims S2000x64 S64x20 S2000x20 where
  lhsContracting := [1]
  rhsContracting := [0]
  lhsNonContracting := [0]
  rhsNonContracting := [1]
  lhsBatch := []
  rhsBatch := []
  wf := dot_S2000x64_S64x20_S2000x20_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v22) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v36) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v40) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v45) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x20.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v46) S2000x20.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v46) S2000x20.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v47) S1x20.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v48_0) S1x20.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v48_1) S1x20.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v46) S2000x20.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v47) S1x20.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v50) S1x20.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v54) S1x20.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v55) S2000x20.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x20 : Shape := ⟨2, ![64, 20]⟩
abbrev S20 : Shape := ⟨1, ![20]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x20 : Shape := ⟨2, ![50000, 20]⟩
abbrev S1x20 : Shape := ⟨2, ![1, 20]⟩

abbrev nBuf : Space → Nat
  | .hbm => 184
  | .vmem => 0
  | .smem => 0
  | _ => 0

abbrev hbmTy0_0 (i : Nat) : BufTy := match i % 128 with
  | 0 => ⟨S50000x256, .f32⟩
  | 1 => ⟨S800000, .f32⟩
  | 2 => ⟨S256x128, .f32⟩
  | 3 => ⟨S128, .f32⟩
  | 4 => ⟨S128x64, .f32⟩
  | 5 => ⟨S64, .f32⟩
  | 6 => ⟨S64x20, .f32⟩
  | 7 => ⟨S20, .f32⟩
  | 8 => ⟨S800000, .i32⟩
  | 9 => ⟨S800000, .i32⟩
  | 10 => ⟨S50000x128, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S_, .f32⟩
  | 70 => ⟨S50000x128, .f32⟩
  | 71 => ⟨S50000x128, .i1⟩
  | 72 => ⟨S_, .f32⟩
  | 73 => ⟨S50000x128, .f32⟩
  | 74 => ⟨S50000x128, .f32⟩
  | 75 => ⟨S50000x128, .f32⟩
  | 76 => ⟨S50000x64, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S_, .f32⟩
  | _ => ⟨S50000x256, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S_, .f32⟩
  | 7 => ⟨S_, .f32⟩
  | 8 => ⟨S50000x64, .f32⟩
  | 9 => ⟨S50000x64, .i1⟩
  | 10 => ⟨S_, .f32⟩
  | 11 => ⟨S50000x64, .f32⟩
  | 12 => ⟨S50000x64, .f32⟩
  | 13 => ⟨S50000x64, .f32⟩
  | 14 => ⟨S50000x20, .f32⟩
  | 15 => ⟨S1x20, .f32⟩
  | 16 => ⟨S50000x20, .f32⟩
  | 17 => ⟨S50000x20, .f32⟩
  | 18 => ⟨S_, .f32⟩
  | 19 => ⟨S20, .f32⟩
  | 20 => ⟨S_, .f32⟩
  | 21 => ⟨S20, .f32⟩
  | 22 => ⟨S20, .f32⟩
  | 23 => ⟨S_, .i32⟩
  | 24 => ⟨S_, .f32⟩
  | 25 => ⟨S20, .f32⟩
  | 26 => ⟨S1x20, .f32⟩
  | 27 => ⟨S_, .f32⟩
  | 28 => ⟨S1x20, .f32⟩
  | 29 => ⟨S1x20, .f32⟩
  | 30 => ⟨S50000x20, .f32⟩
  | 31 => ⟨S50000x20, .f32⟩
  | 32 => ⟨S50000x20, .f32⟩
  | 33 => ⟨S_, .f32⟩
  | 34 => ⟨S_, .f32⟩
  | 35 => ⟨S_, .f32⟩
  | 36 => ⟨S_, .f32⟩
  | 37 => ⟨S20, .f32⟩
  | 38 => ⟨S20, .f32⟩
  | 39 => ⟨S20, .f32⟩
  | 40 => ⟨S_, .f32⟩
  | 41 => ⟨S_, .i1⟩
  | 42 => ⟨S_, .f32⟩
  | 43 => ⟨S_, .f32⟩
  | 44 => ⟨S20, .f32⟩
  | 45 => ⟨S20, .f32⟩
  | 46 => ⟨S1x20, .f32⟩
  | 47 => ⟨S50000x20, .f32⟩
  | 48 => ⟨S50000x20, .f32⟩
  | 49 => ⟨S_, .f32⟩
  | 50 => ⟨S20, .f32⟩
  | 51 => ⟨S20, .f32⟩
  | 52 => ⟨S20, .f32⟩
  | 53 => ⟨S1x20, .f32⟩
  | 54 => ⟨S50000x20, .f32⟩
  | 55 => ⟨S50000x20, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_5 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_6 : Ref sig .tc := ⟨.hbm, 78, rfl⟩
abbrev main_v33 : Ref sig .tc := ⟨.hbm, 79, rfl⟩
abbrev main_v34 : Ref sig .tc := ⟨.hbm, 80, rfl⟩
abbrev main_c_7 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_8 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_9 : Ref sig .tc := ⟨.hbm, 96, rfl⟩
abbrev main_v48 : Ref sig .tc := ⟨.hbm, 97, rfl⟩
abbrev main_cst_10 : Ref sig .tc := ⟨.hbm, 98, rfl⟩
abbrev main_v49 : Ref sig .tc := ⟨.hbm, 99, rfl⟩
abbrev main_v50 : Ref sig .tc := ⟨.hbm, 100, rfl⟩
abbrev main_c_11 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_12 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_13 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_14 : Ref sig .tc := ⟨.hbm, 146, rfl⟩
abbrev main_v66 : Ref sig .tc := ⟨.hbm, 147, rfl⟩
abbrev main_cst_15 : Ref sig .tc := ⟨.hbm, 148, rfl⟩
abbrev main_v67 : Ref sig .tc := ⟨.hbm, 149, rfl⟩
abbrev main_v68 : Ref sig .tc := ⟨.hbm, 150, rfl⟩
abbrev main_c_16 : Ref sig .tc := ⟨.hbm, 151, rfl⟩
abbrev main_call4_cst : Ref sig .tc := ⟨.hbm, 152, rfl⟩
abbrev main_call4_v0 : Ref sig .tc := ⟨.hbm, 153, rfl⟩
abbrev main_call4_v1 : Ref sig .tc := ⟨.hbm, 154, rfl⟩
abbrev main_call4_cst_0 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_v6 : Ref sig .tc := ⟨.hbm, 160, rfl⟩
abbrev main_call4_v7 : Ref sig .tc := ⟨.hbm, 161, rfl⟩
abbrev main_call4_cst_1 : Ref sig .tc := ⟨.hbm, 162, rfl⟩
abbrev main_call4_v8 : Ref sig .tc := ⟨.hbm, 163, rfl⟩
abbrev main_call4_cst_2 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_call4_cst_3 : Ref sig .tc := ⟨.hbm, 168, rfl⟩
abbrev main_call4_v12 : Ref sig .tc := ⟨.hbm, 169, rfl⟩
abbrev main_call4_cst_4 : Ref sig .tc := ⟨.hbm, 170, rfl⟩
abbrev main_call4_call0_v0 : Ref sig .tc := ⟨.hbm, 171, rfl⟩
abbrev main_call4_call0_v1 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_cst_17 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  reducesTo_S50000x20_S20_d0 : S50000x20.ReducesTo [0] S20
  bcast_S_S20 : S_.BroadcastsInDim S20 (![] : Fin 0 → Fin S20.rank)
  bcast_S_S1x20 : S_.BroadcastsInDim S1x20 (![] : Fin 0 → Fin S1x20.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x20_S50000x20_1_0_0_1_n_n_wf : DotDims.WF S50000x64 S64x20 S50000x20 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x20_S50000x20_1_0_0_1_n_n : DotDims S50000x64 S64x20 S50000x20 where
  lhsContracting := [1]
  rhsContracting := [0]
  lhsNonContracting := [0]
  rhsNonContracting := [1]
  lhsBatch := []
  rhsBatch := []
  wf := dot_S50000x64_S64x20_S50000x20_1_0_0_1_n_n_wf

class Facts : Prop extends Facts₀ where

variable [Facts]
-- ==== Proof.KernelRun.lean ====
/-
  The kernel program's run, with its result named.

  Every weakly fair execution of the nine-region program from a memory with zero counters terminates without a fault;
  afterwards the result buffer holds what the last boundary's contents give it (the fold of the nine regions' write-backs
  and the host operations between them from the launch memory), and the ten argument arrays are as launched.  This is the
  frame theorem's launch over the same fifteen segments, with the last thread state read at one more buffer.
-/
import proofs.«123476_j28346784153910_1_alg».proof.Proof.KernelIdealFrameP

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v55) = W15 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v55 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Gen

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibSageMath.lean ====
/- The pure mathematics of a two-layer bidirectional mean-aggregating graph encoder with batch
   normalisation, a rectifier and a final maximum over rows, over the extended reals: which values stay
   real, why dividing by `max c 1` is multiplying by its reciprocal, why the dense layer may be regrouped,
   and why a maximum over all rows is the running maximum of the maxima of consecutive blocks of rows. -/
import Idealize.ShloMosaic.PureOps.Ideal

noncomputable section

namespace SageMath

open Idealize.ShloMosaic

open scoped BigOperators

/-! ### A. Realness -/

/-- An extended real is REAL when it is the image of a real number (neither infinity). -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by a nonzero real is real: the division is the product with the real `1 / c`. -/
theorem IsReal.div_coe {x : EReal} (hx : IsReal x) {c : ℝ} (hc : c ≠ 0) :
    IsReal (Ideal.div x (c : EReal)) := by
  rw [Ideal.div_coe hc]
  exact hx.mul (IsReal.coe _)

/-- A real is not `-∞`. -/
theorem IsReal.ne_bot {x : EReal} (hx : IsReal x) : x ≠ ⊥ := by
  obtain ⟨a, rfl⟩ := hx
  exact EReal.coe_ne_bot a

/-- A real is not `+∞`. -/
theorem IsReal.ne_top {x : EReal} (hx : IsReal x) : x ≠ ⊤ := by
  obtain ⟨a, rfl⟩ := hx
  exact EReal.coe_ne_top a

/-! ### B. The reciprocal -/

/-- `max c 1` is at least one, so it is not zero. -/
theorem max_one_ne_zero (c : EReal) : max c 1 ≠ 0 :=
  (lt_of_lt_of_le zero_lt_one (le_max_right c 1)).ne'

/-- Off zero, dividing is multiplying by the reciprocal `1 / c`: both are the product with `c⁻¹`. -/
theorem div_eq_mul_recip (s c : EReal) (hc : c ≠ 0) : Ideal.div s c = s * Ideal.div 1 c := by
  rw [Ideal.div, Ideal.div, if_neg hc, if_neg hc, one_mul]

/-- Dividing by `max c 1` is multiplying by its reciprocal, whatever `s` and `c` are. -/
theorem div_max_one (s c : EReal) : Ideal.div s (max c 1) = s * Ideal.div 1 (max c 1) :=
  div_eq_mul_recip s (max c 1) (max_one_ne_zero c)

/-- The reciprocal of `max c 1` is real when `c` is: `max c 1` is a real that is at least one. -/
theorem isReal_recip_max_one {c : EReal} (hc : IsReal c) : IsReal (Ideal.div 1 (max c 1)) := by
  obtain ⟨r, rfl⟩ := hc
  have h1 : Max.max (r : EReal) 1 = ((Max.max r 1 : ℝ) : EReal) := by
    rw [← EReal.coe_one]; exact (EReal.coe_strictMono.monotone.map_max).symm
  have hne : (Max.max r 1 : ℝ) ≠ 0 := (lt_of_lt_of_le zero_lt_one (le_max_right r 1)).ne'
  rw [h1]
  exact isReal_one.div_coe hne

/-! ### C. The dense layer regrouped -/

/-- For real `x`, `u`, `v` the product distributes over the sum (it need not at the infinities). -/
theorem mul_add_of_isReal {x u v : EReal} (hx : IsReal x) (hu : IsReal u) (hv : IsReal v) :
    x * (u + v) = x * u + x * v := by
  obtain ⟨a, rfl⟩ := hx
  obtain ⟨b, rfl⟩ := hu
  obtain ⟨c, rfl⟩ := hv
  rw [← EReal.coe_add, ← EReal.coe_mul, ← EReal.coe_mul, ← EReal.coe_mul, ← EReal.coe_add, mul_add]

/-- A contraction of a real row against the sum of two real columns is the sum of the two
    contractions. -/
theorem sum_mul_add {κ : Type} [Fintype κ] (x wf wb : κ → EReal) (hx : ∀ k, IsReal (x k))
    (hwf : ∀ k, IsReal (wf k)) (hwb : ∀ k, IsReal (wb k)) :
    ∑ k, x k * (wf k + wb k) = ∑ k, x k * wf k + ∑ k, x k * wb k := by
  rw [← Finset.sum_add_distrib]
  exact Finset.sum_congr rfl fun k _ => mul_add_of_isReal (hx k) (hwf k) (hwb k)

/-- The dense layer regrouped: the two aggregate terms `a`, `b` and the two biases `bf`, `bb` are
    arbitrary extended reals, only moved around by commutativity and associativity of the sum; the one
    contraction against the summed columns splits into the two contractions because its entries are real. -/
theorem layer_regroup {κ : Type} [Fintype κ] (a b bf bb : EReal) (x wf wb : κ → EReal)
    (hx : ∀ k, IsReal (x k)) (hwf : ∀ k, IsReal (wf k)) (hwb : ∀ k, IsReal (wb k)) :
    ((a + b) + ∑ k, x k * (wf k + wb k)) + (bf + bb)
      = ((a + bf) + ∑ k, x k * wf k) + ((b + bb) + ∑ k, x k * wb k) := by
  rw [sum_mul_add x wf wb hx hwf hwb]
  abel

/-- One output entry of the dense layer is real when the aggregates, the biases, the row and the
    column are. -/
theorem layer_isReal {κ : Type} [Fintype κ] {a b bf bb : EReal} (ha : IsReal a) (hb : IsReal b)
    (hbf : IsReal bf) (hbb : IsReal bb) (x w : κ → EReal) (hx : ∀ k, IsReal (x k))
    (hw : ∀ k, IsReal (w k)) : IsReal (((a + b) + ∑ k, x k * w k) + (bf + bb)) :=
  ((ha.add hb).add (IsReal.sum _ _ fun k _ => (hx k).mul (hw k))).add (hbf.add hbb)

/-! ### E. The float literals, as the extended reals their patterns denote -/

/-- The pattern of `1.0` denotes `1`. -/
theorem ofBits_one : Ideal.ofBits .f32 0x3F800000#32 = 1 := by
  simp [Ideal.ofBits, Ideal.ieee, -EReal.coe_mul]; norm_num

/-- The pattern of `50000.0` (the row count) denotes the real `50000`. -/
theorem ofBits_50000 : Ideal.ofBits .f32 0x47435000#32 = ((50000 : ℝ) : EReal) := by
  simp [Ideal.ofBits, Ideal.ieee, -EReal.coe_mul]; norm_num

/-- The pattern of the variance offset (about `1e-5`) denotes the real `10995116 · 2⁻⁴⁰`. -/
theorem ofBits_eps : Ideal.ofBits .f32 0x3727C5AC#32 = ((10995116 * (2 : ℝ) ^ (-40 : ℤ) : ℝ) : EReal) := by
  simp [Ideal.ofBits, Ideal.ieee, -EReal.coe_mul]

/-- The variance offset is real. -/
theorem ofBits_eps_isReal : IsReal (Ideal.ofBits .f32 0x3727C5AC#32) := by
  rw [ofBits_eps]; exact IsReal.coe _

/-- The variance offset is positive. -/
theorem ofBits_eps_pos : 0 < Ideal.ofBits .f32 0x3727C5AC#32 := by
  rw [ofBits_eps]
  have h : (0 : ℝ) < 10995116 * (2 : ℝ) ^ (-40 : ℤ) := by positivity
  exact_mod_cast h

/-- The pattern of `-inf` denotes `-∞`. -/
theorem ofBits_neg_inf : Ideal.ofBits .f32 0xFF800000#32 = ⊥ := by
  simp [Ideal.ofBits, Ideal.ieee]

/-! ### D. Batch normalisation followed by the rectifier stays real -/

/-- The reciprocal square root of a positive real is real. -/
theorem isReal_rsqrt {v : EReal} (hv : IsReal v) (hpos : 0 < v) : IsReal (Ideal.rsqrt v) := by
  obtain ⟨r, rfl⟩ := hv
  have hr : 0 < r := by exact_mod_cast hpos
  rw [Ideal.rsqrt_coe, if_neg (not_lt.mpr hr.le), if_neg hr.ne']
  exact IsReal.coe _

/-- The square of a real is nonnegative. -/
theorem mul_self_nonneg_of_isReal {d : EReal} (hd : IsReal d) : 0 ≤ d * d := by
  obtain ⟨a, rfl⟩ := hd
  rw [← EReal.coe_mul]
  exact_mod_cast mul_self_nonneg a

/-- A finite sum of squares of reals is nonnegative. -/
theorem sum_mul_self_nonneg {ι : Type} [Fintype ι] (d : ι → EReal) (hd : ∀ i, IsReal (d i)) :
    0 ≤ ∑ i, d i * d i :=
  Finset.sum_nonneg fun i _ => mul_self_nonneg_of_isReal (hd i)

/-- A nonnegative real divided by a positive real is nonnegative. -/
theorem div_coe_nonneg {x : EReal} (hx : IsReal x) (h0 : 0 ≤ x) {N : ℝ} (hN : 0 < N) :
    0 ≤ Ideal.div x (N : EReal) := by
  obtain ⟨a, rfl⟩ := hx
  have ha : 0 ≤ a := by exact_mod_cast h0
  rw [Ideal.div_coe hN.ne', ← EReal.coe_mul]
  have h : 0 ≤ a * (1 / N) := mul_nonneg ha (by positivity)
  exact_mod_cast h

/-- A nonnegative real plus a positive real is positive. -/
theorem add_pos_of_isReal {v e : EReal} (hv : IsReal v) (h0 : 0 ≤ v) (he : IsReal e) (hepos : 0 < e) :
    0 < v + e := by
  obtain ⟨a, rfl⟩ := hv
  obtain ⟨b, rfl⟩ := he
  have ha : 0 ≤ a := by exact_mod_cast h0
  have hb : 0 < b := by exact_mod_cast hepos
  rw [← EReal.coe_add]
  have h : 0 < a + b := add_pos_of_nonneg_of_pos ha hb
  exact_mod_cast h

/-- Normalising real entries around ANY real centre `μ` stays real: each deviation is real, the sum of
    their squares is a nonnegative real, so the mean square is a nonnegative real, the mean square plus a
    positive real offset is a positive real, its reciprocal square root is real, and scaling, shifting and
    taking the greater with a real keep it real. -/
theorem normalise_isReal {ι : Type} [Fintype ι] (h : ι → EReal) (hh : ∀ i, IsReal (h i)) {μ : EReal}
    (hμ : IsReal μ) {N : ℝ} (hN : 0 < N) {g b e z : EReal} (hg : IsReal g) (hb : IsReal b)
    (he : IsReal e) (hepos : 0 < e) (hz : IsReal z) (n : ι) :
    IsReal (max ((((h n - μ) * Ideal.rsqrt
      (Ideal.div (0 + ∑ i, (h i - μ) * (h i - μ)) (N : EReal) + e)) * g) + b) z) := by
  have hd : ∀ i, IsReal (h i - μ) := fun i => (hh i).sub hμ
  have hS : IsReal (0 + ∑ i, (h i - μ) * (h i - μ)) :=
    isReal_zero.add (IsReal.sum _ _ fun i _ => (hd i).mul (hd i))
  have hS0 : 0 ≤ 0 + ∑ i, (h i - μ) * (h i - μ) := by
    rw [zero_add]
    exact sum_mul_self_nonneg (fun i => h i - μ) hd
  have hv : IsReal (Ideal.div (0 + ∑ i, (h i - μ) * (h i - μ)) (N : EReal)) := hS.div_coe hN.ne'
  have hv0 : 0 ≤ Ideal.div (0 + ∑ i, (h i - μ) * (h i - μ)) (N : EReal) := div_coe_nonneg hS hS0 hN
  have hr := isReal_rsqrt (hv.add he) (add_pos_of_isReal hv hv0 he hepos)
  exact ((((hd n).mul hr).mul hg).add hb).max hz

/-- Batch normalisation followed by the rectifier, on real entries with real scale, shift, offset
    (positive) and floor: the mean `(0 + Σ h) / N` is real, so this is the normalisation around a real
    centre. -/
theorem bn_relu_isReal {ι : Type} [Fintype ι] (h : ι → EReal) (hh : ∀ i, IsReal (h i)) {N : ℝ}
    (hN : 0 < N) {g b e z : EReal} (hg : IsReal g) (hb : IsReal b) (he : IsReal e) (hepos : 0 < e)
    (hz : IsReal z) (n : ι) :
    IsReal (max ((((h n - Ideal.div (0 + ∑ i, h i) (N : EReal)) * Ideal.rsqrt
      (Ideal.div (0 + ∑ i, (h i - Ideal.div (0 + ∑ j, h j) (N : EReal))
        * (h i - Ideal.div (0 + ∑ j, h j) (N : EReal))) (N : EReal) + e)) * g) + b) z) :=
  normalise_isReal h hh ((isReal_zero.add (IsReal.sum _ _ fun i _ => hh i)).div_coe hN.ne') hN hg hb he
    hepos hz n

end SageMath

end
-- ==== Proof.Spec.lean ====
/-
  The vocabulary of the certificate, at the ideal values: a graph-convolution network layer after its sparse
  aggregation is "add a bias to every row, normalise every column by its batch statistics, rectify".

  A matrix is a function of an index (r, c) into the extended reals.  For a matrix h with R rows:
    * the column sum     colSum h c = 0 + Σ_r h(r, c)           (from the zero literal, as both programs start it),
    * the column mean    mean h c   = colSum h c / n            (n the literal 50000),
    * the variance as the mean of the squares minus the squared mean (varSq), and as the mean of the squared
      deviations from the mean (varDev),
    * the normalised matrix (h(r, c) - μ c) · rsqrt(v c + ε),
    * the leaky rectifier  y ↦ y if y ≥ 0 else 0.01 · y, through the comparison and selection the programs print.
  The literals stay the bit patterns the programs print; their real values are read where a law needs them.
-/
import Idealize.ShloMosaic.PureOps.Ideal
import Idealize.ShloMosaic.Lib.ValueIdx
import proofs.«123476_j28346784153910_1_alg».proof.Proof.LibPlainDot
import proofs.«123476_j28346784153910_1_alg».proof.Proof.LibSageMath

noncomputable section

namespace Cert.Gcn

open Idealize.ShloMosaic Idealize.ShloMosaic.ValueIdx
open scoped BigOperators

variable {R C : Nat}

/-- A matrix of R rows and C columns over the extended reals. -/
abbrev Mat (R C : Nat) := (⟨2, ![R, C]⟩ : Shape).Idx → EReal

/-- The column of an index, as a number below C. -/
abbrev col (i : (⟨2, ![R, C]⟩ : Shape).Idx) : Fin C := ⟨(i 1).val, (i 1).isLt⟩
/-- The row of an index, as a number below R. -/
abbrev row (i : (⟨2, ![R, C]⟩ : Shape).Idx) : Fin R := ⟨(i 0).val, (i 0).isLt⟩

theorem ix2_row_col (i : (⟨2, ![R, C]⟩ : Shape).Idx) : ix2 (row i) (col i) = i := by
  funext a; match a with
  | ⟨0, _⟩ => rfl
  | ⟨1, _⟩ => rfl

theorem col_ix2 (r : Fin R) (c : Fin C) : col (ix2 r c) = c := rfl
theorem row_ix2 (r : Fin R) (c : Fin C) : row (ix2 r c) = r := rfl

/-- The literal 0.0. -/
def zero : EReal := Ideal.ofBits .f32 0x00000000#32
/-- The literal 50000.0, the number of rows. -/
def cnt : EReal := Ideal.ofBits .f32 0x47435000#32
/-- The variance offset, the literal nearest 1e-5. -/
def eps : EReal := Ideal.ofBits .f32 0x3727C5AC#32
/-- The rectifier's slope, the literal nearest 0.01. -/
def slope : EReal := Ideal.ofBits .f32 0x3C23D70A#32

/-- A bias added to every row. -/
def addBias (s : Mat R C) (b : Fin C → EReal) : Mat R C := fun i => s i + b (col i)

/-- The sum of a column, started from the zero literal. -/
def colSum (h : Mat R C) (c : Fin C) : EReal := zero + ∑ r : Fin R, h (ix2 r c)
/-- The sum of the squares of a column, started from the zero literal. -/
def sqSum (h : Mat R C) (c : Fin C) : EReal := zero + ∑ r : Fin R, h (ix2 r c) * h (ix2 r c)
/-- The mean of a column. -/
def mean (h : Mat R C) (c : Fin C) : EReal := Ideal.div (colSum h c) cnt
/-- The variance of a column as the mean of its squares minus its squared mean. -/
def varSq (h : Mat R C) (c : Fin C) : EReal := Ideal.div (sqSum h c) cnt - mean h c * mean h c
/-- The sum of a column's squared deviations from its mean, started from the zero literal. -/
def devSum (h : Mat R C) (c : Fin C) : EReal :=
  zero + ∑ r : Fin R, (h (ix2 r c) - mean h c) * (h (ix2 r c) - mean h c)
/-- The variance of a column as the mean of its squared deviations. -/
def varDev (h : Mat R C) (c : Fin C) : EReal := Ideal.div (devSum h c) cnt

/-- Every column shifted by μ and scaled by the reciprocal square root of v + ε. -/
def normalize (h : Mat R C) (μ v : Fin C → EReal) : Mat R C :=
  fun i => (h i - μ (col i)) * Ideal.rsqrt (v (col i) + eps)

/-- The leaky rectifier on one value: the value where it compares at least the zero literal, the slope times it elsewhere. -/
def leakyAt (y : EReal) : EReal := Scalar.select (FloatOps.cmpf (F := Ideal) (φ := .f32) .oge y zero) y (slope * y)
/-- The leaky rectifier entry by entry. -/
def leaky (y : Mat R C) : Mat R C := fun i => leakyAt (y i)

/-- Batch normalisation with the variance as mean of squares minus squared mean. -/
def bnSq (h : Mat R C) : Mat R C := normalize h (mean h) (varSq h)
/-- Batch normalisation with the variance as mean of squared deviations. -/
def bnDev (h : Mat R C) : Mat R C := normalize h (mean h) (varDev h)

end Cert.Gcn

end
-- ==== Proof.KNet.lean ====
/-
  The kernel program's network in the certificate's vocabulary.

  A layer of the kernel program: the matrix product of the features with the layer's weight, the sparse aggregation
  along the edges, the bias (a vector reshaped to a row), batch normalisation with the variance as the mean of the
  squares minus the squared mean, the leaky rectifier; the last layer has no aggregation and no rectifier.  The two
  statistics the kernel divides by the row count on the host: the mean is the column sum over 50000, the variance the
  sum of squares over 50000 minus the squared mean — read at a column they are the vocabulary's mean and varSq.
-/
import proofs.«123476_j28346784153910_1_alg».proof.Proof.Gen.KernelIdeal
import proofs.«123476_j28346784153910_1_alg».proof.Proof.Spec
import Idealize.ShloMosaic.PureOps.Ideal

noncomputable section

namespace Cert.KernelIdeal.KNet

open Idealize.ShloMosaic Idealize.ShloMosaic.ValueIdx Cert.KernelIdeal Cert.KernelIdeal.Facts₀ Cert.Gcn

variable [Cert.KernelIdeal.Facts]

/-- The sparse aggregation of a [50000, 128] feature matrix, as the kernel program's host operations compute it: every
    edge's weight times its source row, added into its destination row of a zero matrix. -/
def spmm128 (feat : FVec Ideal S50000x128 .f32) (w : FVec Ideal S800000 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- The sparse aggregation of a [50000, 64] feature matrix, as the kernel program's host operations compute it: every
    edge's weight times its source row, added into its destination row of a zero matrix. -/
def spmm64 (feat : FVec Ideal S50000x64 .f32) (w : FVec Ideal S800000 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (broadcastInDim S800000x64 ![0, 1] bcast_S800000x1_S800000x64_0_1 (broadcastInDim S800000x1 ![0] bcast_S800000_S800000x1_0 w))
      (Host.gather gather_S50000x64_S800000x1_S800000x64_1_0_n_n_0_1_164 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A bias vector as the row the kernel stages. -/
def biasRow128 (b : FVec Ideal S128 .f32) : Fin 128 → EReal := fun k => (shapeCast S1x128 b shapeCasts_S128_S1x128 : FVec Ideal S1x128 .f32) (ix2 0 k)
def biasRow64 (b : FVec Ideal S64 .f32) : Fin 64 → EReal := fun k => (shapeCast S1x64 b shapeCasts_S64_S1x64 : FVec Ideal S1x64 .f32) (ix2 0 k)
def biasRow20 (b : FVec Ideal S20 .f32) : Fin 20 → EReal := fun k => (shapeCast S1x20 b shapeCasts_S20_S1x20 : FVec Ideal S1x20 .f32) (ix2 0 k)

/-- Layer 1: 256 features to 128. -/
def layer128 (x : FVec Ideal S50000x256 .f32) (W : FVec Ideal S256x128 .f32) (b : FVec Ideal S128 .f32)
    (w : FVec Ideal S800000 .f32) (src dst : IVec S800000 32) : FVec Ideal S50000x128 .f32 :=
  leaky (bnSq (addBias (spmm128 (Cert.Lib.PlainDot.mm x W) w src dst) (biasRow128 b)))
/-- Layer 2: 128 features to 64. -/
def layer64 (x : FVec Ideal S50000x128 .f32) (W : FVec Ideal S128x64 .f32) (b : FVec Ideal S64 .f32)
    (w : FVec Ideal S800000 .f32) (src dst : IVec S800000 32) : FVec Ideal S50000x64 .f32 :=
  leaky (bnSq (addBias (spmm64 (Cert.Lib.PlainDot.mm x W) w src dst) (biasRow64 b)))
/-- The last layer: 64 features to 20, normalised, not rectified. -/
def layer20 (x : FVec Ideal S50000x64 .f32) (W : FVec Ideal S64x20 .f32) (b : FVec Ideal S20 .f32) : FVec Ideal S50000x20 .f32 :=
  bnSq (addBias (Cert.Lib.PlainDot.mm x W) (biasRow20 b))

/-- The kernel program's result of the ten argument arrays. -/
def out (x : FVec Ideal S50000x256 .f32) (w : FVec Ideal S800000 .f32) (W1 : FVec Ideal S256x128 .f32) (b1 : FVec Ideal S128 .f32)
    (W2 : FVec Ideal S128x64 .f32) (b2 : FVec Ideal S64 .f32) (Wl : FVec Ideal S64x20 .f32) (bl : FVec Ideal S20 .f32)
    (src dst : IVec S800000 32) : FVec Ideal S50000x20 .f32 :=
  layer20 (layer64 (layer128 x W1 b1 w src dst) W2 b2 w src dst) Wl bl

/-- The host's mean and variance rows, read at a column, are the vocabulary's: normalising with them is the
    batch normalisation with the variance as mean of squares minus squared mean. -/
theorem normalize_stats {R C : Nat} (hb : Mat R C) (S Q μ v : (⟨2, ![1, C]⟩ : Shape).Idx → EReal)
    (hS : S = fun j => colSum hb (col j)) (hQ : Q = fun j => sqSum hb (col j))
    (hμ : ∀ k : Fin C, μ (ix2 0 k) = Ideal.div (S (ix2 0 k)) cnt)
    (hv : ∀ k : Fin C, v (ix2 0 k) = Ideal.div (Q (ix2 0 k)) cnt - μ (ix2 0 k) * μ (ix2 0 k)) :
    Cert.Gcn.normalize hb (fun k => μ (ix2 0 k)) (fun k => v (ix2 0 k)) = bnSq hb := by
  subst hS hQ
  funext i
  unfold bnSq Cert.Gcn.normalize mean varSq
  simp only [hμ, hv]
  rfl

end Cert.KernelIdeal.KNet

end
-- ==== Proof.RegMatmul0.lean ====
/-
  The first matrix product of the network, read off the kernel's proof data as one array.

  The region multiplies the [50000, 256] array its window 0 stages by the [256, 128] array its window 1 stages.
  Its grid has 25 points.  Point t stages rows 2000 t … 2000 t + 1999 of the left array and the whole right
  array (block index 0 on both axes at every point), and stores into block t of the [50000, 128] result, at entry
  (r, c) of the block, the sum over k of left (2000 t + r, k) · right (k, c): rounding both operands to bf16 is
  the identity at the ideal values, and the accumulator is the zero splat.  That number is entry (2000 t + r, c) of
  the product of the two whole arrays, so every point writes back its own block of that product; the 25 blocks
  cover all 50000 rows (row r lies in block r / 2000), hence the result array ends holding the product, whatever
  the contents of the buffers when the region is entered.
-/
import proofs.«123476_j28346784153910_1_alg».proof.Proof.KernelIdealFrameP
import proofs.«123476_j28346784153910_1_alg».proof.Proof.LibPlainDot
import Idealize.ShloMosaic.Lib.Pipeline.Value

noncomputable section

namespace Cert.KernelIdeal.RegValue

open Cert.KernelIdeal Cert.KernelIdeal.Gen Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

/-- The zero offsets of a whole-buffer access, as the constant function. -/
theorem mm0_zeros : (![0, 0] : Fin 2 → Nat) = fun _ => 0 := funext fun a => by fin_cases a <;> rfl

/-- The body's contraction is the plain one: rows by the shared axis, times the shared axis by columns. -/
theorem mm0_dims : dot_S2000x256_S256x128_S2000x128_1_0_0_1_n_n = DotDims.plain 2000 256 128 := rfl

/-- The block indices over the grid: at point t the left operand's and the result's blocks are the t-th along the
    rows and the only one along the columns; the right operand's block is the only one on both axes. -/
theorem mm0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores, at an index: rounding the operands to bf16 changes nothing at the ideal values and the
    accumulator is the zero splat, so the entry is the sum over the shared axis of the products. -/
theorem mm0_pay (x0 : Vec Ideal S2000x256 .f32) (x1 : Vec Ideal S256x128 .f32) (j : S2000x128.Idx) :
    k0_pay1 x0 x1 j = mm (R := 2000) (K := 256) (C := 128) x0 x1 j := by
  unfold k0_pay1
  exact matmul_zero_apply _ mm0_dims none _ _ j

/-- The left operand's block at point t is rows 2000 t … 2000 t + 1999 of its array. -/
theorem mm0_left (c : Dev nD) (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c (Pipeline.arrRef spec0 0) : S50000x256.Idx → EReal) i := by
  obtain ⟨e0, e1, -⟩ := mm0_idx t
  unfold iblk0
  rw [View.read_apply]
  show (V c (Pipeline.arrRef spec0 0) : S50000x256.Idx → EReal) _ = _
  refine congrArg (V c (Pipeline.arrRef spec0 0) : S50000x256.Idx → EReal) ?_
  funext a; apply Fin.ext
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- The right operand's block at every point is its whole array. -/
theorem mm0_right (c : Dev nD) (t : Fin cfg0.N) (y : S256x128.Idx) (i : S256x128.Idx)
    (h0 : (i 0).val = (y 0).val) (h1 : (i 1).val = (y 1).val) :
    (iblk0 V c 1 t : Vec Ideal S256x128 .f32) y = (V c (Pipeline.arrRef spec0 1) : S256x128.Idx → EReal) i := by
  obtain ⟨-, -, e2, e3, -⟩ := mm0_idx t
  unfold iblk0
  rw [View.read_apply]
  show (V c (Pipeline.arrRef spec0 1) : S256x128.Idx → EReal) _ = _
  refine congrArg (V c (Pipeline.arrRef spec0 1) : S256x128.Idx → EReal) ?_
  funext a; apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- What point t writes back is block t of the product of the two whole arrays: entry (r, c) of the stored tile is
    the sum over k of left (2000 t + r, k) · right (k, c). -/
theorem mm0_flushed (c : Dev nD) (t : Fin cfg0.N) :
    (dat0 (F := Ideal) V c).flushed 2 t
      = ((cfg0.win 2).blk t).view.read (Elt Ideal)
          (mm (R := 50000) (K := 256) (C := 128) (V c (Pipeline.arrRef spec0 0)) (V c (Pipeline.arrRef spec0 1))) := by
  show (cfg0.win 2).cut (grid0.coords t) ((dat0 V c).after 2 t) = _
  rw [after0_2]
  unfold out0_2
  rw [View.canon_unit_zero mm0_zeros]
  simp only [View.ld_unit_zero (S := S2000x256) mm0_zeros, View.ld_unit_zero (S := S256x128) mm0_zeros]
  obtain ⟨-, -, -, -, e4, e5⟩ := mm0_idx t
  funext j
  show k0_pay1 (iblk0 V c 0 t) (iblk0 V c 1 t) j
    = mm (R := 50000) (K := 256) (C := 128) (V c (Pipeline.arrRef spec0 0)) (V c (Pipeline.arrRef spec0 1))
        (((cfg0.win 2).blk t).view.emb j)
  refine (mm0_pay (iblk0 V c 0 t) (iblk0 V c 1 t) j).trans ?_
  have h0 : ((((cfg0.win 2).blk t).view.emb j : S50000x128.Idx) 0).val = t.val * 2000 + (j 0).val := by
    show win0_2.index t (0 : Fin 2) * 2000 + 1 * (j 0).val = _; omega
  have h1 : ((((cfg0.win 2).blk t).view.emb j : S50000x128.Idx) 1).val = (j 1).val := by
    show win0_2.index t (1 : Fin 2) * 128 + 1 * (j 1).val = _; omega
  unfold mm
  refine Finset.sum_congr rfl fun k _ => ?_
  exact congrArg₂ (· * ·)
    (mm0_left V c t (rowIdx j k) (rowIdx (((cfg0.win 2).blk t).view.emb j : S50000x128.Idx) k) h0 rfl)
    (mm0_right V c t (colIdx j k) (colIdx (((cfg0.win 2).blk t).view.emb j : S50000x128.Idx) k) rfl h1)

/-- An index of the result array is in point t's block iff, on each axis, it lies in the block's range. -/
theorem mm0_mem (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the result array is in some point's block: row r lies in block r / 2000. -/
theorem mm0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  obtain ⟨-, -, -, -, e4, e5⟩ := mm0_idx ⟨(i 0).val / 2000, by rw [hN]; omega⟩
  rw [mm0_mem]
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- After the region the result array holds the product of the region's two input arrays. -/
theorem final0 (V : (c : Dev nD) → (b : Ref sig .tc) → Buf (Elt Ideal) ((c : Thread nD τ).loc b)) (c : Dev nD) :
    (Gen.dat0 (F := Ideal) V c).arrAt 2 cfg0.N
      = Cert.Lib.PlainDot.mm (V c (Pipeline.arrRef spec0 0)) (V c (Pipeline.arrRef spec0 1)) :=
  (dat0 (F := Ideal) V c).arrAt_eq_of_cover 2 _ (fun t _ => mm0_flushed V c t) mm0_cover

end Cert.KernelIdeal.RegValue

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.RegStatsTiles.lean ====
/-
  The 50000 rows of a matrix as 25 consecutive tiles of 2000 rows, and its column sums regrouped tile by tile.

  Row r of tile s is row 2000 · s + r.  For a matrix h with 50000 rows, the sum of column k over all rows is the sum over
  the 25 tiles of the tile's own column sum, and likewise for the sum of squares: on the extended reals addition is
  commutative and associative, so the regrouping needs no finiteness.  A tile's sum is stated for every natural
  number s (zero past the last tile) so that a running total after n + 1 tiles is a sum over the numbers below n + 1.
-/
import proofs.«123476_j28346784153910_1_alg».proof.Proof.Spec
import proofs.«123476_j28346784153910_1_alg».proof.Proof.LibBlockSum

noncomputable section

namespace Cert.KernelIdeal.RegValue

open Idealize.ShloMosaic Idealize.ShloMosaic.ValueIdx Cert.Gcn
open scoped BigOperators

variable {C : Nat}

/-- Row r of tile s, among the 50000 rows. -/
def tileRow (s : Fin 25) (r : Fin 2000) : Fin 50000 :=
  ⟨s.val * 2000 + r.val, by have := s.isLt; have := r.isLt; omega⟩

theorem tileRow_val (s : Fin 25) (r : Fin 2000) : (tileRow s r).val = s.val * 2000 + r.val := rfl

/-- A sum over the 50000 rows is the sum over the tiles of the sums over each tile's rows. -/
theorem sum_tiles (f : Fin 50000 → EReal) :
    ∑ i : Fin 50000, f i = ∑ s : Fin 25, ∑ r : Fin 2000, f (tileRow s r) :=
  Cert.Lib.BlockSum.sum_blocks 25 2000 f

/-- The sum of column k of h over the rows of tile s; zero past the last tile. -/
def tileSum (h : Mat 50000 C) (s : ℕ) (k : Fin C) : EReal :=
  if hs : s < 25 then ∑ r : Fin 2000, h (ix2 (tileRow ⟨s, hs⟩ r) k) else 0

/-- The sum of the squares of column k of h over the rows of tile s; zero past the last tile. -/
def tileSq (h : Mat 50000 C) (s : ℕ) (k : Fin C) : EReal :=
  if hs : s < 25 then ∑ r : Fin 2000, h (ix2 (tileRow ⟨s, hs⟩ r) k) * h (ix2 (tileRow ⟨s, hs⟩ r) k) else 0

theorem tileSum_of_lt (h : Mat 50000 C) (s : ℕ) (hs : s < 25) (k : Fin C) :
    tileSum h s k = ∑ r : Fin 2000, h (ix2 (tileRow ⟨s, hs⟩ r) k) := dif_pos hs

theorem tileSq_of_lt (h : Mat 50000 C) (s : ℕ) (hs : s < 25) (k : Fin C) :
    tileSq h s k = ∑ r : Fin 2000, h (ix2 (tileRow ⟨s, hs⟩ r) k) * h (ix2 (tileRow ⟨s, hs⟩ r) k) := dif_pos hs

/-- The zero literal plus the 25 tile sums of column k is the column's sum. -/
theorem colSum_eq_tiles (h : Mat 50000 C) (k : Fin C) :
    zero + ∑ s ∈ Finset.range 25, tileSum h s k = colSum h k := by
  unfold colSum
  rw [sum_tiles (fun i => h (ix2 i k)), Finset.sum_range]
  refine congrArg (zero + ·) (Finset.sum_congr rfl fun s _ => ?_)
  unfold tileSum
  rw [dif_pos s.isLt]

/-- The zero literal plus the 25 tile sums of squares of column k is the column's sum of squares. -/
theorem sqSum_eq_tiles (h : Mat 50000 C) (k : Fin C) :
    zero + ∑ s ∈ Finset.range 25, tileSq h s k = sqSum h k := by
  unfold sqSum
  rw [sum_tiles (fun i => h (ix2 i k) * h (ix2 i k)), Finset.sum_range]
  refine congrArg (zero + ·) (Finset.sum_congr rfl fun s _ => ?_)
  unfold tileSq
  rw [dif_pos s.isLt]

end Cert.KernelIdeal.RegValue

end
-- ==== Proof.RegStats1Pay.lean ====
/-
  The arithmetic of the column-statistics body at width 128, read entry by entry on the extended reals.

  The body holds a tile x of 2000 rows and 128 columns, a bias row b and two running rows acc (one per output).
  With xb(r, k) = x(r, k) + b(k):
    * the first output's row becomes   acc(k) + Σ_{r < 2000} xb(r, k),
    * the second output's row becomes  acc(k) + Σ_{r < 2000} xb(r, k) · xb(r, k),
    * and the row both outputs are reset to at the first tile is the zero literal in every column.
  The sum over the tile's rows is the lane reduction over axis 0, read as a finite sum over the row coordinate; the
  casts between a row of 128 and a 1 × 128 block only rename the index.
-/
import proofs.«123476_j28346784153910_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegValue

open Idealize.ShloMosaic Idealize.ShloMosaic.ValueIdx
open Cert.KernelIdeal
open scoped BigOperators

/-- The lane reduction over the 2000 rows of a tile, at column k: the sum of the column's 2000 entries. -/
theorem rowSum128 (src : FVec Ideal S2000x128 .f32) (h : S2000x128.Reduces [0] S128) (hφ : FKind.Formats .f32)
    (hacc : (0x00000000#32 : BitVec 32) = 0x00000000#32) (k : Fin 128) :
    multiReduction (F := Ideal) .add [0] S128 src 0x00000000#32 h hφ hacc (ix1 k) = ∑ r : Fin 2000, src (ix2 r k) :=
  (Ideal.multiReduction_add_single src 0x00000000#32 h hφ hacc (ix1 k)).trans
    (Finset.sum_congr rfl fun r _ => congrArg src (funext fun a => Fin.ext (by
      match a with
      | ⟨0, _⟩ => rfl
      | ⟨1, _⟩ => rfl)))

/-- The tile with the bias row added to every row, at (r, k). -/
theorem biased128_apply (x : Vec Ideal S2000x128 .f32) (b : Vec Ideal S1x128 .f32) (r : Fin 2000) (k : Fin 128) :
    Gen.k1_pay3 x b (ix2 r k) = x (ix2 r k) + b (ix2 (0 : Fin 1) k) := by
  unfold Gen.k1_pay3
  show shapeCast S2000x128 x _ (ix2 r k) + broadcastTo S2000x128 (shapeCast S1x128 b _) _ (ix2 r k) = _
  rw [shapeCast_self, shapeCast_self]
  exact congrArg (x (ix2 r k) + ·) (broadcastTo_1b_ab_apply b _ r k)

/-- The first output's new row at column k: the running row plus the tile's column sum of x + b. -/
theorem sumRow128_apply (x : Vec Ideal S2000x128 .f32) (b acc : Vec Ideal S1x128 .f32) (k : Fin 128) :
    Gen.k1_pay4 x b acc (ix2 (0 : Fin 1) k)
      = acc (ix2 (0 : Fin 1) k) + ∑ r : Fin 2000, (x (ix2 r k) + b (ix2 (0 : Fin 1) k)) := by
  unfold Gen.k1_pay4
  show shapeCast S1x128 acc _ (ix2 (0 : Fin 1) k) + shapeCast S1x128 (multiReduction (F := Ideal) .add [0] S128 (Gen.k1_pay3 x b) 0x00000000#32 _ _ _) _ (ix2 (0 : Fin 1) k) = _
  rw [shapeCast_self]
  refine congrArg (acc (ix2 (0 : Fin 1) k) + ·) ?_
  refine (shapeCast_a_1a_apply _ _ (0 : Fin 1) k).trans ?_
  refine (rowSum128 _ _ _ _ k).trans ?_
  exact Finset.sum_congr rfl fun r _ => biased128_apply x b r k

/-- The second output's new row at column k: the running row plus the tile's column sum of (x + b)². -/
theorem sqRow128_apply (x : Vec Ideal S2000x128 .f32) (b acc : Vec Ideal S1x128 .f32) (k : Fin 128) :
    Gen.k1_pay5 x b acc (ix2 (0 : Fin 1) k)
      = acc (ix2 (0 : Fin 1) k)
        + ∑ r : Fin 2000, (x (ix2 r k) + b (ix2 (0 : Fin 1) k)) * (x (ix2 r k) + b (ix2 (0 : Fin 1) k)) := by
  unfold Gen.k1_pay5
  show shapeCast S1x128 acc _ (ix2 (0 : Fin 1) k) + shapeCast S1x128 (multiReduction (F := Ideal) .add [0] S128 (mulf (Gen.k1_pay3 x b) (Gen.k1_pay3 x b)) 0x00000000#32 _ _ _) _ (ix2 (0 : Fin 1) k) = _
  rw [shapeCast_self]
  refine congrArg (acc (ix2 (0 : Fin 1) k) + ·) ?_
  refine (shapeCast_a_1a_apply _ _ (0 : Fin 1) k).trans ?_
  refine (rowSum128 _ _ _ _ k).trans ?_
  refine Finset.sum_congr rfl fun r _ => ?_
  show Gen.k1_pay3 x b (ix2 r k) * Gen.k1_pay3 x b (ix2 r k) = _
  rw [biased128_apply]

/-- The row the first output is reset to: the zero literal in every column. -/
theorem zeroRowA128_apply (j : S1x128.Idx) : (Gen.k1_pay1 (F := Ideal)) j = Ideal.ofBits .f32 0x00000000#32 := rfl

/-- The row the second output is reset to: the zero literal in every column. -/
theorem zeroRowB128_apply (j : S1x128.Idx) : (Gen.k1_pay2 (F := Ideal)) j = Ideal.ofBits .f32 0x00000000#32 := rfl

end Cert.KernelIdeal.RegValue

end
-- ==== Proof.RegStats1.lean ====
/-
  The column statistics of x + b at width 128, as whole arrays after the region.

  The region walks the 50000 rows of x in 25 tiles of 2000 rows.  Its two outputs are single rows of 128 entries that
  stay in place over the whole walk and are written back once, after the last tile.  At the first tile both rows are
  set to the zero literal; at every tile the first row gains the tile's column sums of x + b and the second the tile's
  column sums of (x + b)².  So after tile n the first row holds, in column k,
      zero + Σ_{s ≤ n} Σ_{r < 2000} (x(2000 s + r, k) + b(k)),
  and after the last tile this is the zero literal plus the sum of column k of x + b over all 50000 rows; likewise
  for the squares.  The one block written back is the whole 1 × 128 array, so the arrays end holding exactly these
  rows: the column sums and the column sums of squares of x + b.
-/
import proofs.«123476_j28346784153910_1_alg».proof.Proof.KernelIdealFrameP
import proofs.«123476_j28346784153910_1_alg».proof.Proof.RegStatsTiles
import proofs.«123476_j28346784153910_1_alg».proof.Proof.RegStats1Pay
import Idealize.ShloMosaic.Lib.Pipeline.Value
import Idealize.ShloMosaic.Lib.Tactic

noncomputable section

namespace Cert.KernelIdeal.RegValue

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

/-- The zero offset of a whole-block access, as the constant function. -/
theorem zeroOff1 : (![0, 0] : Fin 2 → Nat) = fun _ => 0 := funext fun a => by fin_cases a <;> rfl

/-! ## What one tile leaves in the two rows -/

section Pieces

variable {F : FTy → Type} [FloatOps F]

/-- At a later tile the first row becomes the running row plus the tile's column sums. -/
theorem laterSum1 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : ¬cond1_0 i)
    (x : Vec F S2000x128 .f32) (b s q : Vec F S1x128 .f32) :
    out1_B_2 c i a1 h1 a2 h2 a3 h3 a4 h4 hc x b s q = k1_pay4 x b s := by
  unfold out1_B_2
  rw [View.read_writes_eq_canon _ _ _ (cover1_B_2 c i a1 h1 a2 h2 a3 h3 a4 h4 hc x b s q)]
  unfold kernelRun1_B
  dsimp only
  sl_unfold_words
  rw [View.canon_unit_zero zeroOff1]
  simp only [View.readAt_eq_ld, h1.read_unread, h2.read_unread, h3.read_unread, View.ld_unit_zero (S := S2000x128) zeroOff1,
    View.ld_unit_zero (S := S1x128) zeroOff1]

/-- At a later tile the second row becomes the running row plus the tile's column sums of squares. -/
theorem laterSq1 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : ¬cond1_0 i)
    (x : Vec F S2000x128 .f32) (b s q : Vec F S1x128 .f32) :
    out1_B_3 c i a1 h1 a2 h2 a3 h3 a4 h4 hc x b s q = k1_pay5 x b q := by
  unfold out1_B_3
  rw [View.read_writes_eq_canon _ _ _ (cover1_B_3 c i a1 h1 a2 h2 a3 h3 a4 h4 hc x b s q)]
  unfold kernelRun1_B
  dsimp only
  sl_unfold_words
  rw [View.canon_unit_zero zeroOff1]
  simp only [View.readAt_eq_ld, h1.read_unread, h2.read_unread, h4.read_unread, View.ld_unit_zero (S := S2000x128) zeroOff1,
    View.ld_unit_zero (S := S1x128) zeroOff1]

/-- At the first tile the first row becomes the zero row plus the tile's column sums. -/
theorem firstSum1 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : cond1_0 i)
    (x : Vec F S2000x128 .f32) (b : Vec F S1x128 .f32) :
    out1_A_2 c i a1 h1 a2 h2 a3 h3 a4 h4 hc x b = k1_pay4 x b k1_pay1 := by
  unfold out1_A_2
  rw [View.read_writes_eq_canon _ _ _ (cover1_A_2 c i a1 h1 a2 h2 a3 h3 a4 h4 hc x b)]
  unfold kernelRun1_A
  dsimp only
  sl_unfold_words
  rw [View.canon_cons_unit_zero (S := S1x128) zeroOff1, View.readCov_unit_zero (S := S1x128) _ zeroOff1]
  simp only [View.readAt_eq_ld, h1.read_unread, h2.read_unread, View.ld_unit_zero (S := S2000x128) zeroOff1,
    View.ld_unit_zero (S := S1x128) zeroOff1]

/-- At the first tile the second row becomes the zero row plus the tile's column sums of squares. -/
theorem firstSq1 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : cond1_0 i)
    (x : Vec F S2000x128 .f32) (b : Vec F S1x128 .f32) :
    out1_A_3 c i a1 h1 a2 h2 a3 h3 a4 h4 hc x b = k1_pay5 x b k1_pay2 := by
  unfold out1_A_3
  rw [View.read_writes_eq_canon _ _ _ (cover1_A_3 c i a1 h1 a2 h2 a3 h3 a4 h4 hc x b)]
  unfold kernelRun1_A
  dsimp only
  sl_unfold_words
  rw [View.canon_cons_unit_zero (S := S1x128) zeroOff1, View.readCov_unit_zero (S := S1x128) _ zeroOff1]
  simp only [View.readAt_eq_ld, h1.read_unread, h2.read_unread, View.ld_unit_zero (S := S2000x128) zeroOff1,
    View.ld_unit_zero (S := S1x128) zeroOff1]

end Pieces

/-! ## The two rows after each tile, as the body's arithmetic of the tile and the rows before -/

/-- After the first tile. -/
theorem rowsFirst1 (V : (c : Dev nD) → (b : Ref sig .tc) → Buf (Elt Ideal) ((c : Thread nD τ).loc b)) (c : Dev nD) (h : 0 < cfg1.N) :
    outsAt1 (F := Ideal) V c 0 h
      = (k1_pay4 (iblk1 V c 0 ⟨0, h⟩) (iblk1 V c 1 ⟨0, h⟩) (k1_pay1 (F := Ideal)),
         k1_pay5 (iblk1 V c 0 ⟨0, h⟩) (iblk1 V c 1 ⟨0, h⟩) (k1_pay2 (F := Ideal))) := by
  rw [outsAt1_A V c ⟨0, h⟩ rfl, firstSum1, firstSq1]

/-- After a later tile, from the rows after the tile before. -/
theorem rowsNext1 (V : (c : Dev nD) → (b : Ref sig .tc) → Buf (Elt Ideal) ((c : Thread nD τ).loc b)) (c : Dev nD) (n : ℕ) (h : n + 1 < cfg1.N) :
    outsAt1 (F := Ideal) V c (n + 1) h
      = (k1_pay4 (iblk1 V c 0 ⟨n + 1, h⟩) (iblk1 V c 1 ⟨n + 1, h⟩) (outsAt1 V c n (Nat.lt_of_succ_lt h)).1,
         k1_pay5 (iblk1 V c 0 ⟨n + 1, h⟩) (iblk1 V c 1 ⟨n + 1, h⟩) (outsAt1 V c n (Nat.lt_of_succ_lt h)).2) := by
  have hN : cfg1.N = 25 := N_1
  have hB : ¬(⟨n + 1, h⟩ : Fin cfg1.N).val % 25 = 0 := by dsimp only; omega
  rw [outsAt1_B V c ⟨n + 1, h⟩ hB, laterSum1, laterSq1]
  rfl

/-! ## The tiles and the bias row as the region reads them -/

/-- The printed index maps over the grid: tile t of x is row block t; the bias row and each output have the one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- x + b as the region finds them: its first input array with its second input's one row added to every row. -/
abbrev biased1 (V : (c : Dev nD) → (b : Ref sig .tc) → Buf (Elt Ideal) ((c : Thread nD τ).loc b)) (c : Dev nD) : Mat 50000 128 :=
  addBias (V c (Pipeline.arrRef spec1 0)) (fun k => V c (Pipeline.arrRef spec1 1) (ix2 (0 : Fin 1) k))

/-- Entry (r, k) of tile t of x is entry (2000 t + r, k) of x. -/
theorem tileX1 (V : (c : Dev nD) → (b : Ref sig .tc) → Buf (Elt Ideal) ((c : Thread nD τ).loc b)) (c : Dev nD) (t : Fin cfg1.N) (ht : t.val < 25) (r : Fin 2000) (k : Fin 128) :
    (iblk1 V c 0 t : Vec Ideal S2000x128 .f32) (ix2 r k)
      = (V c (Pipeline.arrRef spec1 0) : Mat 50000 128) (ix2 (tileRow ⟨t.val, ht⟩ r) k) := by
  obtain ⟨e0, e1, -⟩ := blockIdx1 t
  unfold iblk1
  rw [View.read_apply]
  refine congrArg (V c (Pipeline.arrRef spec1 0)) (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * k.val = k.val; rw [e1]; omega

/-- Entry k of the bias row as a tile's body reads it is entry k of the bias array. -/
theorem rowB1 (V : (c : Dev nD) → (b : Ref sig .tc) → Buf (Elt Ideal) ((c : Thread nD τ).loc b)) (c : Dev nD) (t : Fin cfg1.N) (k : Fin 128) :
    (iblk1 V c 1 t : Vec Ideal S1x128 .f32) (ix2 (0 : Fin 1) k) = V c (Pipeline.arrRef spec1 1) (ix2 (0 : Fin 1) k) := by
  obtain ⟨-, -, e0, e1, -⟩ := blockIdx1 t
  unfold iblk1
  rw [View.read_apply]
  refine congrArg (V c (Pipeline.arrRef spec1 1)) (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-- Tile t of x, as the body at point t reads it. -/
abbrev tileOf1 (V : (c : Dev nD) → (b : Ref sig .tc) → Buf (Elt Ideal) ((c : Thread nD τ).loc b)) (c : Dev nD) (t : Fin cfg1.N) : Vec Ideal S2000x128 .f32 := iblk1 V c 0 t
/-- The bias row, as the body at point t reads it. -/
abbrev biasOf1 (V : (c : Dev nD) → (b : Ref sig .tc) → Buf (Elt Ideal) ((c : Thread nD τ).loc b)) (c : Dev nD) (t : Fin cfg1.N) : Vec Ideal S1x128 .f32 := iblk1 V c 1 t

/-- The column sums of x + b a tile's body forms are that tile's share of the column sums of x + b. -/
theorem tileShare1 (V : (c : Dev nD) → (b : Ref sig .tc) → Buf (Elt Ideal) ((c : Thread nD τ).loc b)) (c : Dev nD) (t : Fin cfg1.N) (ht : t.val < 25) (k : Fin 128) :
    ∑ r : Fin 2000, (tileOf1 V c t (ix2 r k) + biasOf1 V c t (ix2 (0 : Fin 1) k))
      = tileSum (biased1 V c) t.val k := by
  rw [tileSum_of_lt _ _ ht]
  exact Finset.sum_congr rfl fun r _ => congrArg₂ (· + ·) (tileX1 V c t ht r k) (rowB1 V c t k)

/-- Likewise for the squares. -/
theorem tileShareSq1 (V : (c : Dev nD) → (b : Ref sig .tc) → Buf (Elt Ideal) ((c : Thread nD τ).loc b)) (c : Dev nD) (t : Fin cfg1.N) (ht : t.val < 25) (k : Fin 128) :
    ∑ r : Fin 2000, (tileOf1 V c t (ix2 r k) + biasOf1 V c t (ix2 (0 : Fin 1) k))
        * (tileOf1 V c t (ix2 r k) + biasOf1 V c t (ix2 (0 : Fin 1) k))
      = tileSq (biased1 V c) t.val k := by
  rw [tileSq_of_lt _ _ ht]
  refine Finset.sum_congr rfl fun r _ => ?_
  have e : tileOf1 V c t (ix2 r k) + biasOf1 V c t (ix2 (0 : Fin 1) k) = biased1 V c (ix2 (tileRow ⟨t.val, ht⟩ r) k) :=
    congrArg₂ (· + ·) (tileX1 V c t ht r k) (rowB1 V c t k)
  exact congrArg₂ (· * ·) e e

/-! ## The running rows -/

/-- After tile n the first row holds the zero literal plus the first n + 1 tiles' column sums of x + b, and the second
    the zero literal plus their column sums of squares. -/
theorem running1 (V : (c : Dev nD) → (b : Ref sig .tc) → Buf (Elt Ideal) ((c : Thread nD τ).loc b)) (c : Dev nD) : ∀ (n : ℕ) (h : n < cfg1.N) (k : Fin 128),
    (outsAt1 (F := Ideal) V c n h).1 (ix2 (0 : Fin 1) k) = zero + ∑ s ∈ Finset.range (n + 1), tileSum (biased1 V c) s k
    ∧ (outsAt1 (F := Ideal) V c n h).2 (ix2 (0 : Fin 1) k) = zero + ∑ s ∈ Finset.range (n + 1), tileSq (biased1 V c) s k
  | 0, h, k => by
    have hN : cfg1.N = 25 := N_1
    have h0 : (⟨0, h⟩ : Fin cfg1.N).val < 25 := by dsimp only; omega
    rw [rowsFirst1 V c h]
    dsimp only
    refine ⟨(sumRow128_apply (iblk1 V c 0 ⟨0, h⟩) (iblk1 V c 1 ⟨0, h⟩) (k1_pay1 (F := Ideal)) k).trans ?_,
      (sqRow128_apply (iblk1 V c 0 ⟨0, h⟩) (iblk1 V c 1 ⟨0, h⟩) (k1_pay2 (F := Ideal)) k).trans ?_⟩
    · rw [Finset.sum_range_one]
      exact congrArg₂ (· + ·) (zeroRowA128_apply _) (tileShare1 V c ⟨0, h⟩ h0 k)
    · rw [Finset.sum_range_one]
      exact congrArg₂ (· + ·) (zeroRowB128_apply _) (tileShareSq1 V c ⟨0, h⟩ h0 k)
  | n + 1, h, k => by
    have hN : cfg1.N = 25 := N_1
    have h1 : (⟨n + 1, h⟩ : Fin cfg1.N).val < 25 := by dsimp only; omega
    obtain ⟨ih1, ih2⟩ := running1 V c n (Nat.lt_of_succ_lt h) k
    rw [rowsNext1 V c n h]
    dsimp only
    refine ⟨(sumRow128_apply (iblk1 V c 0 ⟨n + 1, h⟩) (iblk1 V c 1 ⟨n + 1, h⟩) (outsAt1 V c n (Nat.lt_of_succ_lt h)).1 k).trans ?_,
      (sqRow128_apply (iblk1 V c 0 ⟨n + 1, h⟩) (iblk1 V c 1 ⟨n + 1, h⟩) (outsAt1 V c n (Nat.lt_of_succ_lt h)).2 k).trans ?_⟩
    · rw [ih1, Finset.sum_range_succ _ (n + 1), ← add_assoc]
      exact congrArg (_ + ·) (tileShare1 V c ⟨n + 1, h⟩ h1 k)
    · rw [ih2, Finset.sum_range_succ _ (n + 1), ← add_assoc]
      exact congrArg (_ + ·) (tileShareSq1 V c ⟨n + 1, h⟩ h1 k)

/-- After the last tile the first row is the row of column sums of x + b. -/
theorem lastSum1 (V : (c : Dev nD) → (b : Ref sig .tc) → Buf (Elt Ideal) ((c : Thread nD τ).loc b)) (c : Dev nD) (t : Fin cfg1.N) (h24 : t.val = 24) :
    (outsAt1 (F := Ideal) V c t.val t.isLt).1 = fun j : S1x128.Idx => colSum (biased1 V c) (col j) := by
  funext j
  obtain ⟨u, k, rfl⟩ : ∃ (u : Fin 1) (k : Fin 128), j = ix2 u k := ⟨j 0, j 1, eq_ix2 j⟩
  obtain rfl : u = 0 := Subsingleton.elim _ _
  rw [(running1 V c t.val t.isLt k).1, h24]
  exact colSum_eq_tiles (biased1 V c) k

/-- After the last tile the second row is the row of column sums of squares of x + b. -/
theorem lastSq1 (V : (c : Dev nD) → (b : Ref sig .tc) → Buf (Elt Ideal) ((c : Thread nD τ).loc b)) (c : Dev nD) (t : Fin cfg1.N) (h24 : t.val = 24) :
    (outsAt1 (F := Ideal) V c t.val t.isLt).2 = fun j : S1x128.Idx => sqSum (biased1 V c) (col j) := by
  funext j
  obtain ⟨u, k, rfl⟩ : ∃ (u : Fin 1) (k : Fin 128), j = ix2 u k := ⟨j 0, j 1, eq_ix2 j⟩
  obtain rfl : u = 0 := Subsingleton.elim _ _
  rw [(running1 V c t.val t.isLt k).2, h24]
  exact sqSum_eq_tiles (biased1 V c) k

/-! ## The arrays after the region -/

/-- The one write-back of the first output, after the last tile, writes the row of column sums: its block at zero
    offsets is the whole 1 × 128 array. -/
theorem flushedSum1 (V : (c : Dev nD) → (b : Ref sig .tc) → Buf (Elt Ideal) ((c : Thread nD τ).loc b)) (c : Dev nD) (t : Fin cfg1.N) (hf : (cfg1.win 2).flush t = true) :
    (dat1 (F := Ideal) V c).flushed 2 t
      = ((cfg1.win 2).blk t).view.read (Elt Ideal) (fun j : S1x128.Idx => colSum (biased1 V c) (col j)) := by
  have hN : cfg1.N = 25 := N_1
  have h24 : t.val = 24 := by have := (flush1_2 t).mp hf; have := t.isLt; omega
  obtain ⟨-, -, -, -, e0, e1, -⟩ := blockIdx1 t
  show (cfg1.win 2).cut (grid1.coords t) ((dat1 V c).after 2 t) = _
  rw [after1_2, lastSum1 V c t h24]
  have hz' : (fun a => win1_2.index t a * main_v15_0.ty.shape.size a) = fun _ => 0 := funext fun a => by
    match a with
    | ⟨0, _⟩ => show win1_2.index t (0 : Fin 2) * 1 = 0; rw [e0]
    | ⟨1, _⟩ => show win1_2.index t (1 : Fin 2) * 128 = 0; rw [e1]
  exact (Memref.read_access_unit_zero (Elt Ideal) main_v15_0 hz' (fun a => by rw [congrFun hz' a]; simp) _).symm

/-- The one write-back of the second output writes the row of column sums of squares. -/
theorem flushedSq1 (V : (c : Dev nD) → (b : Ref sig .tc) → Buf (Elt Ideal) ((c : Thread nD τ).loc b)) (c : Dev nD) (t : Fin cfg1.N) (hf : (cfg1.win 3).flush t = true) :
    (dat1 (F := Ideal) V c).flushed 3 t
      = ((cfg1.win 3).blk t).view.read (Elt Ideal) (fun j : S1x128.Idx => sqSum (biased1 V c) (col j)) := by
  have hN : cfg1.N = 25 := N_1
  have h24 : t.val = 24 := by have := (flush1_3 t).mp hf; have := t.isLt; omega
  obtain ⟨-, -, -, -, -, -, e0, e1⟩ := blockIdx1 t
  show (cfg1.win 3).cut (grid1.coords t) ((dat1 V c).after 3 t) = _
  rw [after1_3, lastSq1 V c t h24]
  have hz' : (fun a => win1_3.index t a * main_v15_1.ty.shape.size a) = fun _ => 0 := funext fun a => by
    match a with
    | ⟨0, _⟩ => show win1_3.index t (0 : Fin 2) * 1 = 0; rw [e0]
    | ⟨1, _⟩ => show win1_3.index t (1 : Fin 2) * 128 = 0; rw [e1]
  exact (Memref.read_access_unit_zero (Elt Ideal) main_v15_1 hz' (fun a => by rw [congrFun hz' a]; simp) _).symm

/-- The last tile's point. -/
abbrev lastPoint1 : Fin cfg1.N := ⟨24, by rw [show cfg1.N = 25 from N_1]; decide⟩

/-- The first output's array after the region: in column k, the sum of column k of x + b from the zero literal. -/
theorem final1_sum (V : (c : Dev nD) → (b : Ref sig .tc) → Buf (Elt Ideal) ((c : Thread nD τ).loc b)) (c : Dev nD) :
    (Gen.dat1 (F := Ideal) V c).arrAt 2 cfg1.N = fun j => Cert.Gcn.colSum (Cert.Gcn.addBias (V c (Pipeline.arrRef spec1 0)) (fun k => V c (Pipeline.arrRef spec1 1) (ValueIdx.ix2 0 k))) (Cert.Gcn.col j) :=
  (dat1 (F := Ideal) V c).arrAt_eq_of_cover 2 _ (flushedSum1 V c) fun i =>
    ⟨lastPoint1, (flush1_2 lastPoint1).mpr rfl, by
      obtain ⟨-, -, -, -, e0, e1, -⟩ := blockIdx1 lastPoint1
      show i ∈ ((View.whole main_v15_0).slice (win1_2.rect lastPoint1)).set
      rw [View.set_slice_whole, Rect.mem_set_unit]
      intro a
      have h0 : (i 0 : Nat) < 1 := (i 0).isLt
      have h1 : (i 1 : Nat) < 128 := (i 1).isLt
      match a with
      | ⟨0, _⟩ => show win1_2.index lastPoint1 (0 : Fin 2) * 1 ≤ (i 0 : Nat) ∧ (i 0 : Nat) < win1_2.index lastPoint1 (0 : Fin 2) * 1 + 1
                  rw [e0]; omega
      | ⟨1, _⟩ => show win1_2.index lastPoint1 (1 : Fin 2) * 128 ≤ (i 1 : Nat) ∧ (i 1 : Nat) < win1_2.index lastPoint1 (1 : Fin 2) * 128 + 128
                  rw [e1]; omega⟩

/-- The second output's array after the region: in column k, the sum of squares of column k of x + b from the zero literal. -/
theorem final1_sq (V : (c : Dev nD) → (b : Ref sig .tc) → Buf (Elt Ideal) ((c : Thread nD τ).loc b)) (c : Dev nD) :
    (Gen.dat1 (F := Ideal) V c).arrAt 3 cfg1.N = fun j => Cert.Gcn.sqSum (Cert.Gcn.addBias (V c (Pipeline.arrRef spec1 0)) (fun k => V c (Pipeline.arrRef spec1 1) (ValueIdx.ix2 0 k))) (Cert.Gcn.col j) :=
  (dat1 (F := Ideal) V c).arrAt_eq_of_cover 3 _ (flushedSq1 V c) fun i =>
    ⟨lastPoint1, (flush1_3 lastPoint1).mpr rfl, by
      obtain ⟨-, -, -, -, -, -, e0, e1⟩ := blockIdx1 lastPoint1
      show i ∈ ((View.whole main_v15_1).slice (win1_3.rect lastPoint1)).set
      rw [View.set_slice_whole, Rect.mem_set_unit]
      intro a
      have h0 : (i 0 : Nat) < 1 := (i 0).isLt
      have h1 : (i 1 : Nat) < 128 := (i 1).isLt
      match a with
      | ⟨0, _⟩ => show win1_3.index lastPoint1 (0 : Fin 2) * 1 ≤ (i 0 : Nat) ∧ (i 0 : Nat) < win1_3.index lastPoint1 (0 : Fin 2) * 1 + 1
                  rw [e0]; omega
      | ⟨1, _⟩ => show win1_3.index lastPoint1 (1 : Fin 2) * 128 ≤ (i 1 : Nat) ∧ (i 1 : Nat) < win1_3.index lastPoint1 (1 : Fin 2) * 128 + 128
                  rw [e1]; omega⟩

end Cert.KernelIdeal.RegValue

end
-- ==== Proof.RegNorm2.lean ====
/-
  The normalise region of the first layer (50000 rows, 128 columns), read as one function of the arrays it is entered with.

  The region walks 25 grid points.  Point t holds rows 2000 t, ..., 2000 t + 1999 of the input x (window 0) and of the
  output (window 4), and the whole one-row arrays b (window 1), mu (window 2) and v (window 3), whose block index is 0 at
  every point.  At (r, k) of its tile the body stores
        leakyAt ((x(r, k) + b(k) - mu(k)) * rsqrt (v(k) + eps)) :
  each of its operations acts entry by entry, a one-row array broadcast over the tile is read at the entry's column, and a
  shape cast to the same shape changes nothing.  The tile of the output written back at point t sits where the tile of x
  was read, and the 25 tiles fill the 50000 rows; so after the region the output array is
        leaky (normalize (addBias x b) mu v).
-/
import proofs.«123476_j28346784153910_1_alg».proof.Proof.KernelIdealFrameP
import proofs.«123476_j28346784153910_1_alg».proof.Proof.Spec
import Idealize.ShloMosaic.Lib.Pipeline.Value
import Idealize.ShloMosaic.Lib.ValueIdx
import Idealize.ShloMosaic.Lib.ValueLayout

noncomputable section

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)

/-- Both offsets of an access to a whole tile are zero. -/
theorem zeroOffsets2 : (![0, 0] : Fin 2 → Nat) = fun _ => 0 := funext fun a => by fin_cases a <;> rfl

/-- What the region leaves in its output array, as a function of the arrays it is entered with: the input x with the
    bias row b added to every row, every column shifted by the row mu and scaled by rsqrt (v + eps), then rectified. -/
abbrev normOut2 (X : S50000x128.Idx → EReal) (B M W : S1x128.Idx → EReal) : S50000x128.Idx → EReal :=
  Cert.Gcn.leaky (Cert.Gcn.normalize (Cert.Gcn.addBias X (fun k => B (ix2 0 k))) (fun k => M (ix2 0 k)) (fun k => W (ix2 0 k)))

/-- The body's stored value at row r and column k of its tile: every operation is entry by entry, a broadcast one-row
    array is read at column k, the casts to the same shape are the identity. -/
theorem pay2_apply (x : Vec Ideal S2000x128 .f32) (b v μ : Vec Ideal S1x128 .f32) (r : Fin 2000) (k : Fin 128) :
    Gen.k2_pay1 x b v μ (ix2 r k)
      = Cert.Gcn.leakyAt ((x (ix2 r k) + b (ix2 (0 : Fin 1) k) - μ (ix2 (0 : Fin 1) k))
          * Ideal.rsqrt (v (ix2 (0 : Fin 1) k) + Cert.Gcn.eps)) := by
  have eb : broadcastTo S2000x128 (shapeCast S1x128 b shapeCasts_S1x128_S1x128) broadcasts_S1x128_S2000x128 (ix2 r k)
      = b (ix2 (0 : Fin 1) k) := by
    rw [shapeCast_self]; exact broadcastTo_1b_ab_apply b _ r k
  have eμ : broadcastTo S2000x128 (shapeCast S1x128 μ shapeCasts_S1x128_S1x128) broadcasts_S1x128_S2000x128 (ix2 r k)
      = μ (ix2 (0 : Fin 1) k) := by
    rw [shapeCast_self]; exact broadcastTo_1b_ab_apply μ _ r k
  have ev : broadcastTo S2000x128 (rsqrt (addf (shapeCast S1x128 v shapeCasts_S1x128_S1x128)
        (broadcast S1x128 (Scalar.ofBits (F := Ideal) .f32 0x3727C5AC#32)))) broadcasts_S1x128_S2000x128 (ix2 r k)
      = Ideal.rsqrt (v (ix2 (0 : Fin 1) k) + Cert.Gcn.eps) := by
    rw [shapeCast_self]; exact broadcastTo_1b_ab_apply _ _ r k
  have ex : shapeCast S2000x128 x shapeCasts_S2000x128_S2000x128 (ix2 r k) = x (ix2 r k) := by
    rw [shapeCast_self]
  unfold Gen.k2_pay1
  show Cert.Gcn.leakyAt ((shapeCast S2000x128 x shapeCasts_S2000x128_S2000x128 (ix2 r k)
      + broadcastTo S2000x128 (shapeCast S1x128 b shapeCasts_S1x128_S1x128) broadcasts_S1x128_S2000x128 (ix2 r k)
      - broadcastTo S2000x128 (shapeCast S1x128 μ shapeCasts_S1x128_S1x128) broadcasts_S1x128_S2000x128 (ix2 r k))
      * broadcastTo S2000x128 (rsqrt (addf (shapeCast S1x128 v shapeCasts_S1x128_S1x128)
        (broadcast S1x128 (Scalar.ofBits (F := Ideal) .f32 0x3727C5AC#32)))) broadcasts_S1x128_S2000x128 (ix2 r k)) = _
  rw [ex, eb, eμ, ev]

/-- The stored value at an entry j of the tile is the region's function at the entry i of the array the tile's entry
    sits at, when the tile of x read there is the array's entry i, the three rows are the whole one-row arrays, and i has
    j's column. -/
theorem tile2_eq (x : Vec Ideal S2000x128 .f32) (b μ v : Vec Ideal S1x128 .f32)
    (X : S50000x128.Idx → EReal) (B M W : S1x128.Idx → EReal) (j : S2000x128.Idx) (i : S50000x128.Idx)
    (hx : x j = X i) (hb : b = B) (hμ : μ = M) (hv : v = W) (hcol : (i 1).val = (j 1).val) :
    Gen.k2_pay1 x b v μ j = normOut2 X B M W i := by
  subst hb hμ hv
  obtain ⟨r, k, rfl⟩ : ∃ (r : Fin 2000) (k : Fin 128), j = ix2 r k := ⟨j 0, j 1, eq_ix2 j⟩
  have hk : Cert.Gcn.col i = k := Fin.ext hcol
  rw [pay2_apply, hx]
  show _ = Cert.Gcn.leakyAt ((X i + b (ix2 0 (Cert.Gcn.col i)) - μ (ix2 0 (Cert.Gcn.col i)))
      * Ideal.rsqrt (v (ix2 0 (Cert.Gcn.col i)) + Cert.Gcn.eps))
  rw [hk]

/-- The printed index maps over the 25 points: the tiles of x and of the output move together along the rows, at block
    t for point t, and stay at column block 0; the three one-row arrays stay at block (0, 0). -/
theorem idx_facts2 : ∀ t : Fin cfg2.N,
    win2_0.index t (0 : Fin 2) = win2_4.index t (0 : Fin 2) ∧ win2_0.index t (1 : Fin 2) = 0
    ∧ win2_4.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 24 :=
  (by decide +kernel : ∀ t : Fin grid2.N, _)

/-- Every row block is some point's. -/
theorem idx_onto2 : ∀ q : Fin 25, ∃ t : Fin cfg2.N, win2_4.index t = ![q.val, 0] :=
  (by decide +kernel : ∀ q : Fin 25, ∃ t : Fin grid2.N, win2_4.index t = ![q.val, 0])

variable (V : (c : Dev nD) → (b : Ref sig .tc) → Buf (Elt Ideal) ((c : Thread nD τ).loc b))

/-- What point t writes back is tile t of the region's function of the entry arrays. -/
theorem flushed2_eq (c : Dev nD) (t : Fin cfg2.N) :
    (Gen.dat2 (F := Ideal) V c).flushed 4 t = ((cfg2.win 4).blk t).view.read (Elt Ideal)
      (normOut2 (V c (Pipeline.arrRef spec2 0)) (V c (Pipeline.arrRef spec2 1)) (V c (Pipeline.arrRef spec2 2)) (V c (Pipeline.arrRef spec2 3))) := by
  show (cfg2.win 4).cut (grid2.coords t) ((Gen.dat2 (F := Ideal) V c).after 4 t) = _
  rw [Gen.after2_4]
  unfold Gen.out2_4
  rw [View.canon_unit_zero zeroOffsets2]
  simp only [View.ld_unit_zero (S := S2000x128) zeroOffsets2, View.ld_unit_zero (S := S1x128) zeroOffsets2]
  obtain ⟨e0, e1, e2, e3, e4, e5, e6, e7, e8, e9⟩ := idx_facts2 t
  funext j
  refine tile2_eq (Gen.iblk2 V c 0 t) (Gen.iblk2 V c 1 t) (Gen.iblk2 V c 2 t) (Gen.iblk2 V c 3 t)
    (V c (Pipeline.arrRef spec2 0)) (V c (Pipeline.arrRef spec2 1)) (V c (Pipeline.arrRef spec2 2)) (V c (Pipeline.arrRef spec2 3))
    j (((cfg2.win 4).blk t).view.emb j) ?_ ?_ ?_ ?_ ?_
  · show V c (Pipeline.arrRef spec2 0) (((cfg2.win 0).blk t).view.emb j) = V c (Pipeline.arrRef spec2 0) (((cfg2.win 4).blk t).view.emb j)
    refine congrArg _ (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * (j 1).val = win2_4.index t (1 : Fin 2) * 128 + 1 * (j 1).val; omega
  · funext y
    show V c (Pipeline.arrRef spec2 1) (((cfg2.win 1).blk t).view.emb y) = V c (Pipeline.arrRef spec2 1) y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  · funext y
    show V c (Pipeline.arrRef spec2 2) (((cfg2.win 2).blk t).view.emb y) = V c (Pipeline.arrRef spec2 2) y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · funext y
    show V c (Pipeline.arrRef spec2 3) (((cfg2.win 3).blk t).view.emb y) = V c (Pipeline.arrRef spec2 3) y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · show win2_4.index t (1 : Fin 2) * 128 + 1 * (j 1).val = (j 1).val; omega

/-- An entry of the output array is in point t's tile iff each coordinate is in the tile's range on its axis. -/
theorem mem_blk2 (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v22).slice (win2_4.rect t)).set ↔ _
  rw [View.set_slice_whole, Rect.mem_set_unit]
  exact Iff.rfl

/-- Every entry of the output array is in the tile of the point its row block names: row r is in block r / 2000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto2 ⟨(i 0).val / 2000, by omega⟩
  have q0 : win2_4.index t (0 : Fin 2) = (i 0).val / 2000 := congrFun ht 0
  have q1 : win2_4.index t (1 : Fin 2) = 0 := congrFun ht 1
  refine ⟨t, Gen.flush2_4 t, ?_⟩
  rw [mem_blk2]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- The output array after the region: the entry arrays' x with the bias row added, normalised by the rows mu and v,
    rectified. -/
theorem final2 (c : Dev nD) :
    (Gen.dat2 (F := Ideal) V c).arrAt 4 cfg2.N
      = Cert.Gcn.leaky (Cert.Gcn.normalize (Cert.Gcn.addBias (V c (Pipeline.arrRef spec2 0))
          (fun k => V c (Pipeline.arrRef spec2 1) (ValueIdx.ix2 0 k)))
          (fun k => V c (Pipeline.arrRef spec2 2) (ValueIdx.ix2 0 k))
          (fun k => V c (Pipeline.arrRef spec2 3) (ValueIdx.ix2 0 k))) :=
  (Gen.dat2 (F := Ideal) V c).arrAt_eq_of_cover 4 _ (fun t _ => flushed2_eq V c t) cover2

end Cert.KernelIdeal.RegValue

end
-- ==== Proof.ChainL1.lean ====
/-
  The kernel program's first layer, read off the boundary contents.

  After the first matrix-product region the product buffer holds x·W1; the host stretch aggregates it along the edges
  and reshapes the bias; the statistics region leaves the column sums and the column sums of squares of the biased
  aggregate; the next host stretch divides them by the row count into the mean and the variance (mean of squares
  minus squared mean); the normalise region leaves the rectified batch normalisation.  Buffers a segment does not
  write are carried unchanged, the arguments back to the launch memory.
-/
import proofs.«123476_j28346784153910_1_alg».proof.Proof.KernelIdealFrameP
import proofs.«123476_j28346784153910_1_alg».proof.Proof.KNet
import proofs.«123476_j28346784153910_1_alg».proof.Proof.RegMatmul0
import proofs.«123476_j28346784153910_1_alg».proof.Proof.RegStats1
import proofs.«123476_j28346784153910_1_alg».proof.Proof.RegNorm2
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg) (c : Dev nD)

/-- A host stretch leaves a buffer it does not write as it found it. -/
local macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Region 0: the product -/

theorem W1_v0 : W1 m ρ c (Proc.devRef .tc main_v0)
    = Cert.Lib.PlainDot.mm (m ((c : Thread nD τ).loc main_arg0)) (m ((c : Thread nD τ).loc main_arg2)) :=
  (W1_arr m ρ c 2).trans (RegValue.final0 (V0 m ρ) c)

theorem W1_arg1 : W1 m ρ c (Proc.devRef .tc main_arg1) = m ((c : Thread nD τ).loc main_arg1) := W1_of_ne m ρ c main_arg1 (by decide)
theorem W1_arg3 : W1 m ρ c (Proc.devRef .tc main_arg3) = m ((c : Thread nD τ).loc main_arg3) := W1_of_ne m ρ c main_arg3 (by decide)
theorem W1_arg8 : W1 m ρ c (Proc.devRef .tc main_arg8) = m ((c : Thread nD τ).loc main_arg8) := W1_of_ne m ρ c main_arg8 (by decide)
theorem W1_arg9 : W1 m ρ c (Proc.devRef .tc main_arg9) = m ((c : Thread nD τ).loc main_arg9) := W1_of_ne m ρ c main_arg9 (by decide)

/-! ## The first host stretch: the aggregation and the bias row -/

set_option maxHeartbeats 4000000 in
theorem W2_v13_of (X : Valuation τ sig (Elt Ideal)) : StableHlo.after hostOps1 X (Proc.devRef .tc main_v13)
    = KNet.spmm128 (X (Proc.devRef .tc main_v0)) (X (Proc.devRef .tc main_arg1))
        (X (Proc.devRef .tc main_arg8)) (X (Proc.devRef .tc main_arg9)) := by
  after_results_simp
  rfl

theorem W2_v13 : W2 m ρ c (Proc.devRef .tc main_v13)
    = KNet.spmm128 (W1 m ρ c (Proc.devRef .tc main_v0)) (m ((c : Thread nD τ).loc main_arg1))
        (m ((c : Thread nD τ).loc main_arg8)) (m ((c : Thread nD τ).loc main_arg9)) := by
  refine (W2_v13_of (W1 m ρ c)).trans ?_
  rw [W1_arg1, W1_arg8, W1_arg9]

set_option maxHeartbeats 4000000 in
theorem W2_v14_of (X : Valuation τ sig (Elt Ideal)) : StableHlo.after hostOps1 X (Proc.devRef .tc main_v14)
    = (shapeCast S1x128 (X (Proc.devRef .tc main_arg3)) shapeCasts_S128_S1x128 : FVec Ideal S1x128 .f32) := by
  after_results_simp
  rfl

theorem W2_v14 : W2 m ρ c (Proc.devRef .tc main_v14)
    = (shapeCast S1x128 (m ((c : Thread nD τ).loc main_arg3)) shapeCasts_S128_S1x128 : FVec Ideal S1x128 .f32) := by
  refine (W2_v14_of (W1 m ρ c)).trans ?_
  rw [W1_arg3]

/-! ## Region 1: the column statistics -/

/-- The biased aggregate the statistics and the normalisation are taken of. -/
def hb1 : FVec Ideal S50000x128 .f32 :=
  addBias (W2 m ρ c (Proc.devRef .tc main_v13)) (fun k => W2 m ρ c (Proc.devRef .tc main_v14) (ix2 0 k))

theorem W3_v15_0 : W3 m ρ c (Proc.devRef .tc main_v15_0) = fun j => colSum (hb1 m ρ c) (col j) :=
  (W3_arr m ρ c 2).trans (RegValue.final1_sum (V2 m ρ) c)
theorem W3_v15_1 : W3 m ρ c (Proc.devRef .tc main_v15_1) = fun j => sqSum (hb1 m ρ c) (col j) :=
  (W3_arr m ρ c 3).trans (RegValue.final1_sq (V2 m ρ) c)
theorem W3_v13 : W3 m ρ c (Proc.devRef .tc main_v13) = W2 m ρ c (Proc.devRef .tc main_v13) :=
  (W3_arr m ρ c 0).trans (((dat1 (V2 m ρ) c).arrAt_in 0 rfl _).trans (A_eq1 (V2 m ρ) c 0))
theorem W3_v14 : W3 m ρ c (Proc.devRef .tc main_v14) = W2 m ρ c (Proc.devRef .tc main_v14) :=
  (W3_arr m ρ c 1).trans (((dat1 (V2 m ρ) c).arrAt_in 1 rfl _).trans (A_eq1 (V2 m ρ) c 1))

/-! ## The second host stretch: the mean and the variance -/

/-- A one-row matrix read at a column. -/
abbrev rowAt {C : Nat} (x : (⟨2, ![1, C]⟩ : Shape).Idx → EReal) (k : Fin C) : EReal := x (ix2 0 k)

theorem W4_v13 : W4 m ρ c (Proc.devRef .tc main_v13) = W2 m ρ c (Proc.devRef .tc main_v13) :=
  (show StableHlo.after hostOps2 (W3 m ρ c) (Proc.devRef .tc main_v13) = W3 m ρ c (Proc.devRef .tc main_v13) by not_written hostOps2).trans (W3_v13 m ρ c)
theorem W4_v14 : W4 m ρ c (Proc.devRef .tc main_v14) = W2 m ρ c (Proc.devRef .tc main_v14) :=
  (show StableHlo.after hostOps2 (W3 m ρ c) (Proc.devRef .tc main_v14) = W3 m ρ c (Proc.devRef .tc main_v14) by not_written hostOps2).trans (W3_v14 m ρ c)

set_option maxHeartbeats 2000000 in
theorem v17_of (X : Valuation τ sig (Elt Ideal)) (k : Fin 128) :
    rowAt (StableHlo.after hostOps2 X (Proc.devRef .tc main_v17)) k = Ideal.div (rowAt (X (Proc.devRef .tc main_v15_0)) k) cnt := by
  unfold rowAt
  after_results_simp
  rfl
set_option maxHeartbeats 2000000 in
theorem v21_of (X : Valuation τ sig (Elt Ideal)) (k : Fin 128) :
    rowAt (StableHlo.after hostOps2 X (Proc.devRef .tc main_v21)) k
      = Ideal.div (rowAt (X (Proc.devRef .tc main_v15_1)) k) cnt
        - rowAt (StableHlo.after hostOps2 X (Proc.devRef .tc main_v17)) k * rowAt (StableHlo.after hostOps2 X (Proc.devRef .tc main_v17)) k := by
  unfold rowAt
  after_results_simp
  rfl

theorem W4_v17 (k : Fin 128) : rowAt (W4 m ρ c (Proc.devRef .tc main_v17)) k
    = Ideal.div (rowAt (W3 m ρ c (Proc.devRef .tc main_v15_0)) k) cnt := v17_of (W3 m ρ c) k
theorem W4_v21 (k : Fin 128) : rowAt (W4 m ρ c (Proc.devRef .tc main_v21)) k
    = Ideal.div (rowAt (W3 m ρ c (Proc.devRef .tc main_v15_1)) k) cnt
      - rowAt (W4 m ρ c (Proc.devRef .tc main_v17)) k * rowAt (W4 m ρ c (Proc.devRef .tc main_v17)) k := v21_of (W3 m ρ c) k

/-! ## Region 2: the normalisation and the rectifier -/

theorem W5_v22 : W5 m ρ c (Proc.devRef .tc main_v22)
    = KNet.layer128 (m ((c : Thread nD τ).loc main_arg0)) (m ((c : Thread nD τ).loc main_arg2)) (m ((c : Thread nD τ).loc main_arg3))
        (m ((c : Thread nD τ).loc main_arg1)) (m ((c : Thread nD τ).loc main_arg8)) (m ((c : Thread nD τ).loc main_arg9)) := by
  refine (W5_arr m ρ c 4).trans ((RegValue.final2 (V4 m ρ) c).trans ?_)
  show leaky (normalize (addBias (W4 m ρ c (Proc.devRef .tc main_v13)) (fun k => W4 m ρ c (Proc.devRef .tc main_v14) (ix2 0 k)))
      (fun k => W4 m ρ c (Proc.devRef .tc main_v17) (ix2 0 k)) (fun k => W4 m ρ c (Proc.devRef .tc main_v21) (ix2 0 k))) = _
  rw [W4_v13, W4_v14]
  have hn := KNet.normalize_stats (hb1 m ρ c) (W3 m ρ c (Proc.devRef .tc main_v15_0)) (W3 m ρ c (Proc.devRef .tc main_v15_1))
    (W4 m ρ c (Proc.devRef .tc main_v17)) (W4 m ρ c (Proc.devRef .tc main_v21)) (W3_v15_0 m ρ c) (W3_v15_1 m ρ c)
    (W4_v17 m ρ c) (W4_v21 m ρ c)
  unfold hb1 at hn
  rw [hn, W2_v13, W2_v14, W1_v0]
  rfl

end Cert.KernelIdeal.Chain

end
-- ==== Proof.RegMatmul3.lean ====
/-
  The second matrix product of the network, read off the kernel's proof data as one array.

  The region multiplies the [50000, 128] array its window 0 stages by the [128, 64] array its window 1 stages.
  Its grid has 25 points.  Point t stages rows 2000 t … 2000 t + 1999 of the left array and the whole right
  array (block index 0 on both axes at every point), and stores into block t of the [50000, 64] result, at entry
  (r, c) of the block, the sum over k of left (2000 t + r, k) · right (k, c): rounding both operands to bf16 is
  the identity at the ideal values, and the accumulator is the zero splat.  That number is entry (2000 t + r, c) of
  the product of the two whole arrays, so every point writes back its own block of that product; the 25 blocks
  cover all 50000 rows (row r lies in block r / 2000), hence the result array ends holding the product, whatever
  the contents of the buffers when the region is entered.
-/
import proofs.«123476_j28346784153910_1_alg».proof.Proof.KernelIdealFrameP
import proofs.«123476_j28346784153910_1_alg».proof.Proof.LibPlainDot
import Idealize.ShloMosaic.Lib.Pipeline.Value

noncomputable section

namespace Cert.KernelIdeal.RegValue

open Cert.KernelIdeal Cert.KernelIdeal.Gen Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

/-- The zero offsets of a whole-buffer access, as the constant function. -/
theorem mm3_zeros : (![0, 0] : Fin 2 → Nat) = fun _ => 0 := funext fun a => by fin_cases a <;> rfl

/-- The body's contraction is the plain one: rows by the shared axis, times the shared axis by columns. -/
theorem mm3_dims : dot_S2000x128_S128x64_S2000x64_1_0_0_1_n_n = DotDims.plain 2000 128 64 := rfl

/-- The block indices over the grid: at point t the left operand's and the result's blocks are the t-th along the
    rows and the only one along the columns; the right operand's block is the only one on both axes. -/
theorem mm3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the body stores, at an index: the cast of the left block to its own shape is the identity, rounding the
    operands to bf16 changes nothing at the ideal values and the accumulator is the zero splat, so the entry is the
    sum over the shared axis of the products. -/
theorem mm3_pay (x0 : Vec Ideal S2000x128 .f32) (x1 : Vec Ideal S128x64 .f32) (j : S2000x64.Idx) :
    k3_pay1 x0 x1 j = mm (R := 2000) (K := 128) (C := 64) x0 x1 j := by
  unfold k3_pay1
  simp only [shapeCast_self]
  exact matmul_zero_apply _ mm3_dims none _ _ j

/-- The left operand's block at point t is rows 2000 t … 2000 t + 1999 of its array. -/
theorem mm3_left (c : Dev nD) (t : Fin cfg3.N) (y : S2000x128.Idx) (i : S50000x128.Idx)
    (h0 : (i 0).val = t.val * 2000 + (y 0).val) (h1 : (i 1).val = (y 1).val) :
    (iblk3 V c 0 t : Vec Ideal S2000x128 .f32) y = (V c (Pipeline.arrRef spec3 0) : S50000x128.Idx → EReal) i := by
  obtain ⟨e0, e1, -⟩ := mm3_idx t
  unfold iblk3
  rw [View.read_apply]
  show (V c (Pipeline.arrRef spec3 0) : S50000x128.Idx → EReal) _ = _
  refine congrArg (V c (Pipeline.arrRef spec3 0) : S50000x128.Idx → EReal) ?_
  funext a; apply Fin.ext
  match a with
  | ⟨0, _⟩ => show win3_0.index t (0 : Fin 2) * 2000 + 1 * (y 0).val = (i 0).val; omega
  | ⟨1, _⟩ => show win3_0.index t (1 : Fin 2) * 128 + 1 * (y 1).val = (i 1).val; omega

/-- The right operand's block at every point is its whole array. -/
theorem mm3_right (c : Dev nD) (t : Fin cfg3.N) (y : S128x64.Idx) (i : S128x64.Idx)
    (h0 : (i 0).val = (y 0).val) (h1 : (i 1).val = (y 1).val) :
    (iblk3 V c 1 t : Vec Ideal S128x64 .f32) y = (V c (Pipeline.arrRef spec3 1) : S128x64.Idx → EReal) i := by
  obtain ⟨-, -, e2, e3, -⟩ := mm3_idx t
  unfold iblk3
  rw [View.read_apply]
  show (V c (Pipeline.arrRef spec3 1) : S128x64.Idx → EReal) _ = _
  refine congrArg (V c (Pipeline.arrRef spec3 1) : S128x64.Idx → EReal) ?_
  funext a; apply Fin.ext
  match a with
  | ⟨0, _⟩ => show win3_1.index t (0 : Fin 2) * 128 + 1 * (y 0).val = (i 0).val; omega
  | ⟨1, _⟩ => show win3_1.index t (1 : Fin 2) * 64 + 1 * (y 1).val = (i 1).val; omega

/-- What point t writes back is block t of the product of the two whole arrays: entry (r, c) of the stored tile is
    the sum over k of left (2000 t + r, k) · right (k, c). -/
theorem mm3_flushed (c : Dev nD) (t : Fin cfg3.N) :
    (dat3 (F := Ideal) V c).flushed 2 t
      = ((cfg3.win 2).blk t).view.read (Elt Ideal)
          (mm (R := 50000) (K := 128) (C := 64) (V c (Pipeline.arrRef spec3 0)) (V c (Pipeline.arrRef spec3 1))) := by
  show (cfg3.win 2).cut (grid3.coords t) ((dat3 V c).after 2 t) = _
  rw [after3_2]
  unfold out3_2
  rw [View.canon_unit_zero mm3_zeros]
  simp only [View.ld_unit_zero (S := S2000x128) mm3_zeros, View.ld_unit_zero (S := S128x64) mm3_zeros]
  obtain ⟨-, -, -, -, e4, e5⟩ := mm3_idx t
  funext j
  show k3_pay1 (iblk3 V c 0 t) (iblk3 V c 1 t) j
    = mm (R := 50000) (K := 128) (C := 64) (V c (Pipeline.arrRef spec3 0)) (V c (Pipeline.arrRef spec3 1))
        (((cfg3.win 2).blk t).view.emb j)
  refine (mm3_pay (iblk3 V c 0 t) (iblk3 V c 1 t) j).trans ?_
  have h0 : ((((cfg3.win 2).blk t).view.emb j : S50000x64.Idx) 0).val = t.val * 2000 + (j 0).val := by
    show win3_2.index t (0 : Fin 2) * 2000 + 1 * (j 0).val = _; omega
  have h1 : ((((cfg3.win 2).blk t).view.emb j : S50000x64.Idx) 1).val = (j 1).val := by
    show win3_2.index t (1 : Fin 2) * 64 + 1 * (j 1).val = _; omega
  unfold mm
  refine Finset.sum_congr rfl fun k _ => ?_
  exact congrArg₂ (· * ·)
    (mm3_left V c t (rowIdx j k) (rowIdx (((cfg3.win 2).blk t).view.emb j : S50000x64.Idx) k) h0 rfl)
    (mm3_right V c t (colIdx j k) (colIdx (((cfg3.win 2).blk t).view.emb j : S50000x64.Idx) k) rfl h1)

/-- An index of the result array is in point t's block iff, on each axis, it lies in the block's range. -/
theorem mm3_mem (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v23).slice (win3_2.rect t)).set ↔ _
  rw [View.set_slice_whole, Rect.mem_set_unit]
  exact Iff.rfl

/-- Every index of the result array is in some point's block: row r lies in block r / 2000. -/
theorem mm3_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  refine ⟨⟨(i 0).val / 2000, by rw [hN]; omega⟩, flush3_2 _, ?_⟩
  obtain ⟨-, -, -, -, e4, e5⟩ := mm3_idx ⟨(i 0).val / 2000, by rw [hN]; omega⟩
  rw [mm3_mem]
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ (i 0).val ∧ (i 0).val < (i 0).val / 2000 * 2000 + 2000; omega
  | ⟨1, _⟩ => show win3_2.index _ (1 : Fin 2) * 64 ≤ (i 1).val ∧ (i 1).val < win3_2.index _ (1 : Fin 2) * 64 + 64; rw [e5]; omega

/-- After the region the result array holds the product of the region's two input arrays. -/
theorem final3 (V : (c : Dev nD) → (b : Ref sig .tc) → Buf (Elt Ideal) ((c : Thread nD τ).loc b)) (c : Dev nD) :
    (Gen.dat3 (F := Ideal) V c).arrAt 2 cfg3.N
      = Cert.Lib.PlainDot.mm (V c (Pipeline.arrRef spec3 0)) (V c (Pipeline.arrRef spec3 1)) :=
  (dat3 (F := Ideal) V c).arrAt_eq_of_cover 2 _ (fun t _ => mm3_flushed V c t) mm3_cover

end Cert.KernelIdeal.RegValue

end
-- ==== Proof.RegStats4Pay.lean ====
/-
  The arithmetic of the column-statistics body at width 64, read entry by entry on the extended reals.

  The body holds a tile x of 2000 rows and 64 columns, a bias row b and two running rows acc (one per output).
  With xb(r, k) = x(r, k) + b(k):
    * the first output's row becomes   acc(k) + Σ_{r < 2000} xb(r, k),
    * the second output's row becomes  acc(k) + Σ_{r < 2000} xb(r, k) · xb(r, k),
    * and the row both outputs are reset to at the first tile is the zero literal in every column.
  The sum over the tile's rows is the lane reduction over axis 0, read as a finite sum over the row coordinate; the
  casts between a row of 64 and a 1 × 64 block only rename the index.
-/
import proofs.«123476_j28346784153910_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegValue

open Idealize.ShloMosaic Idealize.ShloMosaic.ValueIdx
open Cert.KernelIdeal
open scoped BigOperators

/-- The lane reduction over the 2000 rows of a tile, at column k: the sum of the column's 2000 entries. -/
theorem rowSum64 (src : FVec Ideal S2000x64 .f32) (h : S2000x64.Reduces [0] S64) (hφ : FKind.Formats .f32)
    (hacc : (0x00000000#32 : BitVec 32) = 0x00000000#32) (k : Fin 64) :
    multiReduction (F := Ideal) .add [0] S64 src 0x00000000#32 h hφ hacc (ix1 k) = ∑ r : Fin 2000, src (ix2 r k) :=
  (Ideal.multiReduction_add_single src 0x00000000#32 h hφ hacc (ix1 k)).trans
    (Finset.sum_congr rfl fun r _ => congrArg src (funext fun a => Fin.ext (by
      match a with
      | ⟨0, _⟩ => rfl
      | ⟨1, _⟩ => rfl)))

/-- The tile with the bias row added to every row, at (r, k). -/
theorem biased64_apply (x : Vec Ideal S2000x64 .f32) (b : Vec Ideal S1x64 .f32) (r : Fin 2000) (k : Fin 64) :
    Gen.k4_pay3 x b (ix2 r k) = x (ix2 r k) + b (ix2 (0 : Fin 1) k) := by
  unfold Gen.k4_pay3
  show shapeCast S2000x64 x _ (ix2 r k) + broadcastTo S2000x64 (shapeCast S1x64 b _) _ (ix2 r k) = _
  rw [shapeCast_self, shapeCast_self]
  exact congrArg (x (ix2 r k) + ·) (broadcastTo_1b_ab_apply b _ r k)

/-- The first output's new row at column k: the running row plus the tile's column sum of x + b. -/
theorem sumRow64_apply (x : Vec Ideal S2000x64 .f32) (b acc : Vec Ideal S1x64 .f32) (k : Fin 64) :
    Gen.k4_pay4 x b acc (ix2 (0 : Fin 1) k)
      = acc (ix2 (0 : Fin 1) k) + ∑ r : Fin 2000, (x (ix2 r k) + b (ix2 (0 : Fin 1) k)) := by
  unfold Gen.k4_pay4
  show shapeCast S1x64 acc _ (ix2 (0 : Fin 1) k) + shapeCast S1x64 (multiReduction (F := Ideal) .add [0] S64 (Gen.k4_pay3 x b) 0x00000000#32 _ _ _) _ (ix2 (0 : Fin 1) k) = _
  rw [shapeCast_self]
  refine congrArg (acc (ix2 (0 : Fin 1) k) + ·) ?_
  refine (shapeCast_a_1a_apply _ _ (0 : Fin 1) k).trans ?_
  refine (rowSum64 _ _ _ _ k).trans ?_
  exact Finset.sum_congr rfl fun r _ => biased64_apply x b r k

/-- The second output's new row at column k: the running row plus the tile's column sum of (x + b)². -/
theorem sqRow64_apply (x : Vec Ideal S2000x64 .f32) (b acc : Vec Ideal S1x64 .f32) (k : Fin 64) :
    Gen.k4_pay5 x b acc (ix2 (0 : Fin 1) k)
      = acc (ix2 (0 : Fin 1) k)
        + ∑ r : Fin 2000, (x (ix2 r k) + b (ix2 (0 : Fin 1) k)) * (x (ix2 r k) + b (ix2 (0 : Fin 1) k)) := by
  unfold Gen.k4_pay5
  show shapeCast S1x64 acc _ (ix2 (0 : Fin 1) k) + shapeCast S1x64 (multiReduction (F := Ideal) .add [0] S64 (mulf (Gen.k4_pay3 x b) (Gen.k4_pay3 x b)) 0x00000000#32 _ _ _) _ (ix2 (0 : Fin 1) k) = _
  rw [shapeCast_self]
  refine congrArg (acc (ix2 (0 : Fin 1) k) + ·) ?_
  refine (shapeCast_a_1a_apply _ _ (0 : Fin 1) k).trans ?_
  refine (rowSum64 _ _ _ _ k).trans ?_
  refine Finset.sum_congr rfl fun r _ => ?_
  show Gen.k4_pay3 x b (ix2 r k) * Gen.k4_pay3 x b (ix2 r k) = _
  rw [biased64_apply]

/-- The row the first output is reset to: the zero literal in every column. -/
theorem zeroRowA64_apply (j : S1x64.Idx) : (Gen.k4_pay1 (F := Ideal)) j = Ideal.ofBits .f32 0x00000000#32 := rfl

/-- The row the second output is reset to: the zero literal in every column. -/
theorem zeroRowB64_apply (j : S1x64.Idx) : (Gen.k4_pay2 (F := Ideal)) j = Ideal.ofBits .f32 0x00000000#32 := rfl

end Cert.KernelIdeal.RegValue

end
-- ==== Proof.RegStats4.lean ====
/-
  The column statistics of x + b at width 64, as whole arrays after the region.

  The region walks the 50000 rows of x in 25 tiles of 2000 rows.  Its two outputs are single rows of 64 entries that
  stay in place over the whole walk and are written back once, after the last tile.  At the first tile both rows are
  set to the zero literal; at every tile the first row gains the tile's column sums of x + b and the second the tile's
  column sums of (x + b)².  So after tile n the first row holds, in column k,
      zero + Σ_{s ≤ n} Σ_{r < 2000} (x(2000 s + r, k) + b(k)),
  and after the last tile this is the zero literal plus the sum of column k of x + b over all 50000 rows; likewise
  for the squares.  The one block written back is the whole 1 × 64 array, so the arrays end holding exactly these
  rows: the column sums and the column sums of squares of x + b.
-/
import proofs.«123476_j28346784153910_1_alg».proof.Proof.KernelIdealFrameP
import proofs.«123476_j28346784153910_1_alg».proof.Proof.RegStatsTiles
import proofs.«123476_j28346784153910_1_alg».proof.Proof.RegStats4Pay
import Idealize.ShloMosaic.Lib.Pipeline.Value
import Idealize.ShloMosaic.Lib.Tactic

noncomputable section

namespace Cert.KernelIdeal.RegValue

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

/-- The zero offset of a whole-block access, as the constant function. -/
theorem zeroOff4 : (![0, 0] : Fin 2 → Nat) = fun _ => 0 := funext fun a => by fin_cases a <;> rfl

/-! ## What one tile leaves in the two rows -/

section Pieces

variable {F : FTy → Type} [FloatOps F]

/-- At a later tile the first row becomes the running row plus the tile's column sums. -/
theorem laterSum4 (c : Dev nD) (i : grid4.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc : ¬cond4_0 i)
    (x : Vec F S2000x64 .f32) (b s q : Vec F S1x64 .f32) :
    out4_B_2 c i a1 h1 a2 h2 a3 h3 a4 h4 hc x b s q = k4_pay4 x b s := by
  unfold out4_B_2
  rw [View.read_writes_eq_canon _ _ _ (cover4_B_2 c i a1 h1 a2 h2 a3 h3 a4 h4 hc x b s q)]
  unfold kernelRun4_B
  dsimp only
  sl_unfold_words
  rw [View.canon_unit_zero zeroOff4]
  simp only [View.readAt_eq_ld, h1.read_unread, h2.read_unread, h3.read_unread, View.ld_unit_zero (S := S2000x64) zeroOff4,
    View.ld_unit_zero (S := S1x64) zeroOff4]

/-- At a later tile the second row becomes the running row plus the tile's column sums of squares. -/
theorem laterSq4 (c : Dev nD) (i : grid4.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc : ¬cond4_0 i)
    (x : Vec F S2000x64 .f32) (b s q : Vec F S1x64 .f32) :
    out4_B_3 c i a1 h1 a2 h2 a3 h3 a4 h4 hc x b s q = k4_pay5 x b q := by
  unfold out4_B_3
  rw [View.read_writes_eq_canon _ _ _ (cover4_B_3 c i a1 h1 a2 h2 a3 h3 a4 h4 hc x b s q)]
  unfold kernelRun4_B
  dsimp only
  sl_unfold_words
  rw [View.canon_unit_zero zeroOff4]
  simp only [View.readAt_eq_ld, h1.read_unread, h2.read_unread, h4.read_unread, View.ld_unit_zero (S := S2000x64) zeroOff4,
    View.ld_unit_zero (S := S1x64) zeroOff4]

/-- At the first tile the first row becomes the zero row plus the tile's column sums. -/
theorem firstSum4 (c : Dev nD) (i : grid4.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc : cond4_0 i)
    (x : Vec F S2000x64 .f32) (b : Vec F S1x64 .f32) :
    out4_A_2 c i a1 h1 a2 h2 a3 h3 a4 h4 hc x b = k4_pay4 x b k4_pay1 := by
  unfold out4_A_2
  rw [View.read_writes_eq_canon _ _ _ (cover4_A_2 c i a1 h1 a2 h2 a3 h3 a4 h4 hc x b)]
  unfold kernelRun4_A
  dsimp only
  sl_unfold_words
  rw [View.canon_cons_unit_zero (S := S1x64) zeroOff4, View.readCov_unit_zero (S := S1x64) _ zeroOff4]
  simp only [View.readAt_eq_ld, h1.read_unread, h2.read_unread, View.ld_unit_zero (S := S2000x64) zeroOff4,
    View.ld_unit_zero (S := S1x64) zeroOff4]

/-- At the first tile the second row becomes the zero row plus the tile's column sums of squares. -/
theorem firstSq4 (c : Dev nD) (i : grid4.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc : cond4_0 i)
    (x : Vec F S2000x64 .f32) (b : Vec F S1x64 .f32) :
    out4_A_3 c i a1 h1 a2 h2 a3 h3 a4 h4 hc x b = k4_pay5 x b k4_pay2 := by
  unfold out4_A_3
  rw [View.read_writes_eq_canon _ _ _ (cover4_A_3 c i a1 h1 a2 h2 a3 h3 a4 h4 hc x b)]
  unfold kernelRun4_A
  dsimp only
  sl_unfold_words
  rw [View.canon_cons_unit_zero (S := S1x64) zeroOff4, View.readCov_unit_zero (S := S1x64) _ zeroOff4]
  simp only [View.readAt_eq_ld, h1.read_unread, h2.read_unread, View.ld_unit_zero (S := S2000x64) zeroOff4,
    View.ld_unit_zero (S := S1x64) zeroOff4]

end Pieces

/-! ## The two rows after each tile, as the body's arithmetic of the tile and the rows before -/

/-- After the first tile. -/
theorem rowsFirst4 (V : (c : Dev nD) → (b : Ref sig .tc) → Buf (Elt Ideal) ((c : Thread nD τ).loc b)) (c : Dev nD) (h : 0 < cfg4.N) :
    outsAt4 (F := Ideal) V c 0 h
      = (k4_pay4 (iblk4 V c 0 ⟨0, h⟩) (iblk4 V c 1 ⟨0, h⟩) (k4_pay1 (F := Ideal)),
         k4_pay5 (iblk4 V c 0 ⟨0, h⟩) (iblk4 V c 1 ⟨0, h⟩) (k4_pay2 (F := Ideal))) := by
  rw [outsAt4_A V c ⟨0, h⟩ rfl, firstSum4, firstSq4]

/-- After a later tile, from the rows after the tile before. -/
theorem rowsNext4 (V : (c : Dev nD) → (b : Ref sig .tc) → Buf (Elt Ideal) ((c : Thread nD τ).loc b)) (c : Dev nD) (n : ℕ) (h : n + 1 < cfg4.N) :
    outsAt4 (F := Ideal) V c (n + 1) h
      = (k4_pay4 (iblk4 V c 0 ⟨n + 1, h⟩) (iblk4 V c 1 ⟨n + 1, h⟩) (outsAt4 V c n (Nat.lt_of_succ_lt h)).1,
         k4_pay5 (iblk4 V c 0 ⟨n + 1, h⟩) (iblk4 V c 1 ⟨n + 1, h⟩) (outsAt4 V c n (Nat.lt_of_succ_lt h)).2) := by
  have hN : cfg4.N = 25 := N_4
  have hB : ¬(⟨n + 1, h⟩ : Fin cfg4.N).val % 25 = 0 := by dsimp only; omega
  rw [outsAt4_B V c ⟨n + 1, h⟩ hB, laterSum4, laterSq4]
  rfl

/-! ## The tiles and the bias row as the region reads them -/

/-- The printed index maps over the grid: tile t of x is row block t; the bias row and each output have the one block. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- x + b as the region finds them: its first input array with its second input's one row added to every row. -/
abbrev biased4 (V : (c : Dev nD) → (b : Ref sig .tc) → Buf (Elt Ideal) ((c : Thread nD τ).loc b)) (c : Dev nD) : Mat 50000 64 :=
  addBias (V c (Pipeline.arrRef spec4 0)) (fun k => V c (Pipeline.arrRef spec4 1) (ix2 (0 : Fin 1) k))

/-- Entry (r, k) of tile t of x is entry (2000 t + r, k) of x. -/
theorem tileX4 (V : (c : Dev nD) → (b : Ref sig .tc) → Buf (Elt Ideal) ((c : Thread nD τ).loc b)) (c : Dev nD) (t : Fin cfg4.N) (ht : t.val < 25) (r : Fin 2000) (k : Fin 64) :
    (iblk4 V c 0 t : Vec Ideal S2000x64 .f32) (ix2 r k)
      = (V c (Pipeline.arrRef spec4 0) : Mat 50000 64) (ix2 (tileRow ⟨t.val, ht⟩ r) k) := by
  obtain ⟨e0, e1, -⟩ := blockIdx4 t
  unfold iblk4
  rw [View.read_apply]
  refine congrArg (V c (Pipeline.arrRef spec4 0)) (funext fun a => Fin.ext ?_)
  match a with
  | ⟨0, _⟩ => show win4_0.index t (0 : Fin 2) * 2000 + 1 * r.val = t.val * 2000 + r.val; rw [e0]; omega
  | ⟨1, _⟩ => show win4_0.index t (1 : Fin 2) * 64 + 1 * k.val = k.val; rw [e1]; omega

/-- Entry k of the bias row as a tile's body reads it is entry k of the bias array. -/
theorem rowB4 (V : (c : Dev nD) → (b : Ref sig .tc) → Buf (Elt Ideal) ((c : Thread nD τ).loc b)) (c : Dev nD) (t : Fin cfg4.N) (k : Fin 64) :
    (iblk4 V c 1 t : Vec Ideal S1x64 .f32) (ix2 (0 : Fin 1) k) = V c (Pipeline.arrRef spec4 1) (ix2 (0 : Fin 1) k) := by
  obtain ⟨-, -, e0, e1, -⟩ := blockIdx4 t
  unfold iblk4
  rw [View.read_apply]
  refine congrArg (V c (Pipeline.arrRef spec4 1)) (funext fun a => Fin.ext ?_)
  match a with
  | ⟨0, _⟩ => show win4_1.index t (0 : Fin 2) * 1 + 1 * 0 = 0; rw [e0]
  | ⟨1, _⟩ => show win4_1.index t (1 : Fin 2) * 64 + 1 * k.val = k.val; rw [e1]; omega

/-- Tile t of x, as the body at point t reads it. -/
abbrev tileOf4 (V : (c : Dev nD) → (b : Ref sig .tc) → Buf (Elt Ideal) ((c : Thread nD τ).loc b)) (c : Dev nD) (t : Fin cfg4.N) : Vec Ideal S2000x64 .f32 := iblk4 V c 0 t
/-- The bias row, as the body at point t reads it. -/
abbrev biasOf4 (V : (c : Dev nD) → (b : Ref sig .tc) → Buf (Elt Ideal) ((c : Thread nD τ).loc b)) (c : Dev nD) (t : Fin cfg4.N) : Vec Ideal S1x64 .f32 := iblk4 V c 1 t

/-- The column sums of x + b a tile's body forms are that tile's share of the column sums of x + b. -/
theorem tileShare4 (V : (c : Dev nD) → (b : Ref sig .tc) → Buf (Elt Ideal) ((c : Thread nD τ).loc b)) (c : Dev nD) (t : Fin cfg4.N) (ht : t.val < 25) (k : Fin 64) :
    ∑ r : Fin 2000, (tileOf4 V c t (ix2 r k) + biasOf4 V c t (ix2 (0 : Fin 1) k))
      = tileSum (biased4 V c) t.val k := by
  rw [tileSum_of_lt _ _ ht]
  exact Finset.sum_congr rfl fun r _ => congrArg₂ (· + ·) (tileX4 V c t ht r k) (rowB4 V c t k)

/-- Likewise for the squares. -/
theorem tileShareSq4 (V : (c : Dev nD) → (b : Ref sig .tc) → Buf (Elt Ideal) ((c : Thread nD τ).loc b)) (c : Dev nD) (t : Fin cfg4.N) (ht : t.val < 25) (k : Fin 64) :
    ∑ r : Fin 2000, (tileOf4 V c t (ix2 r k) + biasOf4 V c t (ix2 (0 : Fin 1) k))
        * (tileOf4 V c t (ix2 r k) + biasOf4 V c t (ix2 (0 : Fin 1) k))
      = tileSq (biased4 V c) t.val k := by
  rw [tileSq_of_lt _ _ ht]
  refine Finset.sum_congr rfl fun r _ => ?_
  have e : tileOf4 V c t (ix2 r k) + biasOf4 V c t (ix2 (0 : Fin 1) k) = biased4 V c (ix2 (tileRow ⟨t.val, ht⟩ r) k) :=
    congrArg₂ (· + ·) (tileX4 V c t ht r k) (rowB4 V c t k)
  exact congrArg₂ (· * ·) e e

/-! ## The running rows -/

/-- After tile n the first row holds the zero literal plus the first n + 1 tiles' column sums of x + b, and the second
    the zero literal plus their column sums of squares. -/
theorem running4 (V : (c : Dev nD) → (b : Ref sig .tc) → Buf (Elt Ideal) ((c : Thread nD τ).loc b)) (c : Dev nD) : ∀ (n : ℕ) (h : n < cfg4.N) (k : Fin 64),
    (outsAt4 (F := Ideal) V c n h).1 (ix2 (0 : Fin 1) k) = zero + ∑ s ∈ Finset.range (n + 1), tileSum (biased4 V c) s k
    ∧ (outsAt4 (F := Ideal) V c n h).2 (ix2 (0 : Fin 1) k) = zero + ∑ s ∈ Finset.range (n + 1), tileSq (biased4 V c) s k
  | 0, h, k => by
    have hN : cfg4.N = 25 := N_4
    have h0 : (⟨0, h⟩ : Fin cfg4.N).val < 25 := by dsimp only; omega
    rw [rowsFirst4 V c h]
    dsimp only
    refine ⟨(sumRow64_apply (iblk4 V c 0 ⟨0, h⟩) (iblk4 V c 1 ⟨0, h⟩) (k4_pay1 (F := Ideal)) k).trans ?_,
      (sqRow64_apply (iblk4 V c 0 ⟨0, h⟩) (iblk4 V c 1 ⟨0, h⟩) (k4_pay2 (F := Ideal)) k).trans ?_⟩
    · rw [Finset.sum_range_one]
      exact congrArg₂ (· + ·) (zeroRowA64_apply _) (tileShare4 V c ⟨0, h⟩ h0 k)
    · rw [Finset.sum_range_one]
      exact congrArg₂ (· + ·) (zeroRowB64_apply _) (tileShareSq4 V c ⟨0, h⟩ h0 k)
  | n + 1, h, k => by
    have hN : cfg4.N = 25 := N_4
    have h1 : (⟨n + 1, h⟩ : Fin cfg4.N).val < 25 := by dsimp only; omega
    obtain ⟨ih1, ih2⟩ := running4 V c n (Nat.lt_of_succ_lt h) k
    rw [rowsNext4 V c n h]
    dsimp only
    refine ⟨(sumRow64_apply (iblk4 V c 0 ⟨n + 1, h⟩) (iblk4 V c 1 ⟨n + 1, h⟩) (outsAt4 V c n (Nat.lt_of_succ_lt h)).1 k).trans ?_,
      (sqRow64_apply (iblk4 V c 0 ⟨n + 1, h⟩) (iblk4 V c 1 ⟨n + 1, h⟩) (outsAt4 V c n (Nat.lt_of_succ_lt h)).2 k).trans ?_⟩
    · rw [ih1, Finset.sum_range_succ _ (n + 1), ← add_assoc]
      exact congrArg (_ + ·) (tileShare4 V c ⟨n + 1, h⟩ h1 k)
    · rw [ih2, Finset.sum_range_succ _ (n + 1), ← add_assoc]
      exact congrArg (_ + ·) (tileShareSq4 V c ⟨n + 1, h⟩ h1 k)

/-- After the last tile the first row is the row of column sums of x + b. -/
theorem lastSum4 (V : (c : Dev nD) → (b : Ref sig .tc) → Buf (Elt Ideal) ((c : Thread nD τ).loc b)) (c : Dev nD) (t : Fin cfg4.N) (h24 : t.val = 24) :
    (outsAt4 (F := Ideal) V c t.val t.isLt).1 = fun j : S1x64.Idx => colSum (biased4 V c) (col j) := by
  funext j
  obtain ⟨u, k, rfl⟩ : ∃ (u : Fin 1) (k : Fin 64), j = ix2 u k := ⟨j 0, j 1, eq_ix2 j⟩
  obtain rfl : u = 0 := Subsingleton.elim _ _
  rw [(running4 V c t.val t.isLt k).1, h24]
  exact colSum_eq_tiles (biased4 V c) k

/-- After the last tile the second row is the row of column sums of squares of x + b. -/
theorem lastSq4 (V : (c : Dev nD) → (b : Ref sig .tc) → Buf (Elt Ideal) ((c : Thread nD τ).loc b)) (c : Dev nD) (t : Fin cfg4.N) (h24 : t.val = 24) :
    (outsAt4 (F := Ideal) V c t.val t.isLt).2 = fun j : S1x64.Idx => sqSum (biased4 V c) (col j) := by
  funext j
  obtain ⟨u, k, rfl⟩ : ∃ (u : Fin 1) (k : Fin 64), j = ix2 u k := ⟨j 0, j 1, eq_ix2 j⟩
  obtain rfl : u = 0 := Subsingleton.elim _ _
  rw [(running4 V c t.val t.isLt k).2, h24]
  exact sqSum_eq_tiles (biased4 V c) k

/-! ## The arrays after the region -/

/-- The one write-back of the first output, after the last tile, writes the row of column sums: its block at zero
    offsets is the whole 1 × 64 array. -/
theorem flushedSum4 (V : (c : Dev nD) → (b : Ref sig .tc) → Buf (Elt Ideal) ((c : Thread nD τ).loc b)) (c : Dev nD) (t : Fin cfg4.N) (hf : (cfg4.win 2).flush t = true) :
    (dat4 (F := Ideal) V c).flushed 2 t
      = ((cfg4.win 2).blk t).view.read (Elt Ideal) (fun j : S1x64.Idx => colSum (biased4 V c) (col j)) := by
  have hN : cfg4.N = 25 := N_4
  have h24 : t.val = 24 := by have := (flush4_2 t).mp hf; have := t.isLt; omega
  obtain ⟨-, -, -, -, e0, e1, -⟩ := blockIdx4 t
  show (cfg4.win 2).cut (grid4.coords t) ((dat4 V c).after 2 t) = _
  rw [after4_2, lastSum4 V c t h24]
  have hz' : (fun a => win4_2.index t a * main_v38_0.ty.shape.size a) = fun _ => 0 := funext fun a => by
    match a with
    | ⟨0, _⟩ => show win4_2.index t (0 : Fin 2) * 1 = 0; rw [e0]
    | ⟨1, _⟩ => show win4_2.index t (1 : Fin 2) * 64 = 0; rw [e1]
  exact (Memref.read_access_unit_zero (Elt Ideal) main_v38_0 hz' (fun a => by rw [congrFun hz' a]; simp) _).symm

/-- The one write-back of the second output writes the row of column sums of squares. -/
theorem flushedSq4 (V : (c : Dev nD) → (b : Ref sig .tc) → Buf (Elt Ideal) ((c : Thread nD τ).loc b)) (c : Dev nD) (t : Fin cfg4.N) (hf : (cfg4.win 3).flush t = true) :
    (dat4 (F := Ideal) V c).flushed 3 t
      = ((cfg4.win 3).blk t).view.read (Elt Ideal) (fun j : S1x64.Idx => sqSum (biased4 V c) (col j)) := by
  have hN : cfg4.N = 25 := N_4
  have h24 : t.val = 24 := by have := (flush4_3 t).mp hf; have := t.isLt; omega
  obtain ⟨-, -, -, -, -, -, e0, e1⟩ := blockIdx4 t
  show (cfg4.win 3).cut (grid4.coords t) ((dat4 V c).after 3 t) = _
  rw [after4_3, lastSq4 V c t h24]
  have hz' : (fun a => win4_3.index t a * main_v38_1.ty.shape.size a) = fun _ => 0 := funext fun a => by
    match a with
    | ⟨0, _⟩ => show win4_3.index t (0 : Fin 2) * 1 = 0; rw [e0]
    | ⟨1, _⟩ => show win4_3.index t (1 : Fin 2) * 64 = 0; rw [e1]
  exact (Memref.read_access_unit_zero (Elt Ideal) main_v38_1 hz' (fun a => by rw [congrFun hz' a]; simp) _).symm

/-- The last tile's point. -/
abbrev lastPoint4 : Fin cfg4.N := ⟨24, by rw [show cfg4.N = 25 from N_4]; decide⟩

/-- The first output's array after the region: in column k, the sum of column k of x + b from the zero literal. -/
theorem final4_sum (V : (c : Dev nD) → (b : Ref sig .tc) → Buf (Elt Ideal) ((c : Thread nD τ).loc b)) (c : Dev nD) :
    (Gen.dat4 (F := Ideal) V c).arrAt 2 cfg4.N = fun j => Cert.Gcn.colSum (Cert.Gcn.addBias (V c (Pipeline.arrRef spec4 0)) (fun k => V c (Pipeline.arrRef spec4 1) (ValueIdx.ix2 0 k))) (Cert.Gcn.col j) :=
  (dat4 (F := Ideal) V c).arrAt_eq_of_cover 2 _ (flushedSum4 V c) fun i =>
    ⟨lastPoint4, (flush4_2 lastPoint4).mpr rfl, by
      obtain ⟨-, -, -, -, e0, e1, -⟩ := blockIdx4 lastPoint4
      show i ∈ ((View.whole main_v38_0).slice (win4_2.rect lastPoint4)).set
      rw [View.set_slice_whole, Rect.mem_set_unit]
      intro a
      have h0 : (i 0 : Nat) < 1 := (i 0).isLt
      have h1 : (i 1 : Nat) < 64 := (i 1).isLt
      match a with
      | ⟨0, _⟩ => show win4_2.index lastPoint4 (0 : Fin 2) * 1 ≤ (i 0 : Nat) ∧ (i 0 : Nat) < win4_2.index lastPoint4 (0 : Fin 2) * 1 + 1
                  rw [e0]; omega
      | ⟨1, _⟩ => show win4_2.index lastPoint4 (1 : Fin 2) * 64 ≤ (i 1 : Nat) ∧ (i 1 : Nat) < win4_2.index lastPoint4 (1 : Fin 2) * 64 + 64
                  rw [e1]; omega⟩

/-- The second output's array after the region: in column k, the sum of squares of column k of x + b from the zero literal. -/
theorem final4_sq (V : (c : Dev nD) → (b : Ref sig .tc) → Buf (Elt Ideal) ((c : Thread nD τ).loc b)) (c : Dev nD) :
    (Gen.dat4 (F := Ideal) V c).arrAt 3 cfg4.N = fun j => Cert.Gcn.sqSum (Cert.Gcn.addBias (V c (Pipeline.arrRef spec4 0)) (fun k => V c (Pipeline.arrRef spec4 1) (ValueIdx.ix2 0 k))) (Cert.Gcn.col j) :=
  (dat4 (F := Ideal) V c).arrAt_eq_of_cover 3 _ (flushedSq4 V c) fun i =>
    ⟨lastPoint4, (flush4_3 lastPoint4).mpr rfl, by
      obtain ⟨-, -, -, -, -, -, e0, e1⟩ := blockIdx4 lastPoint4
      show i ∈ ((View.whole main_v38_1).slice (win4_3.rect lastPoint4)).set
      rw [View.set_slice_whole, Rect.mem_set_unit]
      intro a
      have h0 : (i 0 : Nat) < 1 := (i 0).isLt
      have h1 : (i 1 : Nat) < 64 := (i 1).isLt
      match a with
      | ⟨0, _⟩ => show win4_3.index lastPoint4 (0 : Fin 2) * 1 ≤ (i 0 : Nat) ∧ (i 0 : Nat) < win4_3.index lastPoint4 (0 : Fin 2) * 1 + 1
                  rw [e0]; omega
      | ⟨1, _⟩ => show win4_3.index lastPoint4 (1 : Fin 2) * 64 ≤ (i 1 : Nat) ∧ (i 1 : Nat) < win4_3.index lastPoint4 (1 : Fin 2) * 64 + 64
                  rw [e1]; omega⟩

end Cert.KernelIdeal.RegValue

end
-- ==== Proof.RegNorm5.lean ====
/-
  The normalise region of the second layer (50000 rows, 64 columns), read as one function of the arrays it is entered with.

  The region walks 25 grid points.  Point t holds rows 2000 t, ..., 2000 t + 1999 of the input x (window 0) and of the
  output (window 4), and the whole one-row arrays b (window 1), mu (window 2) and v (window 3), whose block index is 0 at
  every point.  At (r, k) of its tile the body stores
        leakyAt ((x(r, k) + b(k) - mu(k)) * rsqrt (v(k) + eps)) :
  each of its operations acts entry by entry, a one-row array broadcast over the tile is read at the entry's column, and a
  shape cast to the same shape changes nothing.  The tile of the output written back at point t sits where the tile of x
  was read, and the 25 tiles fill the 50000 rows; so after the region the output array is
        leaky (normalize (addBias x b) mu v).
-/
import proofs.«123476_j28346784153910_1_alg».proof.Proof.KernelIdealFrameP
import proofs.«123476_j28346784153910_1_alg».proof.Proof.Spec
import Idealize.ShloMosaic.Lib.Pipeline.Value
import Idealize.ShloMosaic.Lib.ValueIdx
import Idealize.ShloMosaic.Lib.ValueLayout

noncomputable section

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)

/-- Both offsets of an access to a whole tile are zero. -/
theorem zeroOffsets5 : (![0, 0] : Fin 2 → Nat) = fun _ => 0 := funext fun a => by fin_cases a <;> rfl

/-- What the region leaves in its output array, as a function of the arrays it is entered with: the input x with the
    bias row b added to every row, every column shifted by the row mu and scaled by rsqrt (v + eps), then rectified. -/
abbrev normOut5 (X : S50000x64.Idx → EReal) (B M W : S1x64.Idx → EReal) : S50000x64.Idx → EReal :=
  Cert.Gcn.leaky (Cert.Gcn.normalize (Cert.Gcn.addBias X (fun k => B (ix2 0 k))) (fun k => M (ix2 0 k)) (fun k => W (ix2 0 k)))

/-- The body's stored value at row r and column k of its tile: every operation is entry by entry, a broadcast one-row
    array is read at column k, the casts to the same shape are the identity. -/
theorem pay5_apply (x : Vec Ideal S2000x64 .f32) (b v μ : Vec Ideal S1x64 .f32) (r : Fin 2000) (k : Fin 64) :
    Gen.k5_pay1 x b v μ (ix2 r k)
      = Cert.Gcn.leakyAt ((x (ix2 r k) + b (ix2 (0 : Fin 1) k) - μ (ix2 (0 : Fin 1) k))
          * Ideal.rsqrt (v (ix2 (0 : Fin 1) k) + Cert.Gcn.eps)) := by
  have eb : broadcastTo S2000x64 (shapeCast S1x64 b shapeCasts_S1x64_S1x64) broadcasts_S1x64_S2000x64 (ix2 r k)
      = b (ix2 (0 : Fin 1) k) := by
    rw [shapeCast_self]; exact broadcastTo_1b_ab_apply b _ r k
  have eμ : broadcastTo S2000x64 (shapeCast S1x64 μ shapeCasts_S1x64_S1x64) broadcasts_S1x64_S2000x64 (ix2 r k)
      = μ (ix2 (0 : Fin 1) k) := by
    rw [shapeCast_self]; exact broadcastTo_1b_ab_apply μ _ r k
  have ev : broadcastTo S2000x64 (rsqrt (addf (shapeCast S1x64 v shapeCasts_S1x64_S1x64)
        (broadcast S1x64 (Scalar.ofBits (F := Ideal) .f32 0x3727C5AC#32)))) broadcasts_S1x64_S2000x64 (ix2 r k)
      = Ideal.rsqrt (v (ix2 (0 : Fin 1) k) + Cert.Gcn.eps) := by
    rw [shapeCast_self]; exact broadcastTo_1b_ab_apply _ _ r k
  have ex : shapeCast S2000x64 x shapeCasts_S2000x64_S2000x64 (ix2 r k) = x (ix2 r k) := by
    rw [shapeCast_self]
  unfold Gen.k5_pay1
  show Cert.Gcn.leakyAt ((shapeCast S2000x64 x shapeCasts_S2000x64_S2000x64 (ix2 r k)
      + broadcastTo S2000x64 (shapeCast S1x64 b shapeCasts_S1x64_S1x64) broadcasts_S1x64_S2000x64 (ix2 r k)
      - broadcastTo S2000x64 (shapeCast S1x64 μ shapeCasts_S1x64_S1x64) broadcasts_S1x64_S2000x64 (ix2 r k))
      * broadcastTo S2000x64 (rsqrt (addf (shapeCast S1x64 v shapeCasts_S1x64_S1x64)
        (broadcast S1x64 (Scalar.ofBits (F := Ideal) .f32 0x3727C5AC#32)))) broadcasts_S1x64_S2000x64 (ix2 r k)) = _
  rw [ex, eb, eμ, ev]

/-- The stored value at an entry j of the tile is the region's function at the entry i of the array the tile's entry
    sits at, when the tile of x read there is the array's entry i, the three rows are the whole one-row arrays, and i has
    j's column. -/
theorem tile5_eq (x : Vec Ideal S2000x64 .f32) (b μ v : Vec Ideal S1x64 .f32)
    (X : S50000x64.Idx → EReal) (B M W : S1x64.Idx → EReal) (j : S2000x64.Idx) (i : S50000x64.Idx)
    (hx : x j = X i) (hb : b = B) (hμ : μ = M) (hv : v = W) (hcol : (i 1).val = (j 1).val) :
    Gen.k5_pay1 x b v μ j = normOut5 X B M W i := by
  subst hb hμ hv
  obtain ⟨r, k, rfl⟩ : ∃ (r : Fin 2000) (k : Fin 64), j = ix2 r k := ⟨j 0, j 1, eq_ix2 j⟩
  have hk : Cert.Gcn.col i = k := Fin.ext hcol
  rw [pay5_apply, hx]
  show _ = Cert.Gcn.leakyAt ((X i + b (ix2 0 (Cert.Gcn.col i)) - μ (ix2 0 (Cert.Gcn.col i)))
      * Ideal.rsqrt (v (ix2 0 (Cert.Gcn.col i)) + Cert.Gcn.eps))
  rw [hk]

/-- The printed index maps over the 25 points: the tiles of x and of the output move together along the rows, at block
    t for point t, and stay at column block 0; the three one-row arrays stay at block (0, 0). -/
theorem idx_facts5 : ∀ t : Fin cfg5.N,
    win5_0.index t (0 : Fin 2) = win5_4.index t (0 : Fin 2) ∧ win5_0.index t (1 : Fin 2) = 0
    ∧ win5_4.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) ≤ 24 :=
  (by decide +kernel : ∀ t : Fin grid5.N, _)

/-- Every row block is some point's. -/
theorem idx_onto5 : ∀ q : Fin 25, ∃ t : Fin cfg5.N, win5_4.index t = ![q.val, 0] :=
  (by decide +kernel : ∀ q : Fin 25, ∃ t : Fin grid5.N, win5_4.index t = ![q.val, 0])

variable (V : (c : Dev nD) → (b : Ref sig .tc) → Buf (Elt Ideal) ((c : Thread nD τ).loc b))

/-- The tile of x read at point t holds, at each of its entries, the array's entry at the same place of the output's tile:
    the two tiles sit at the same row block and at column block 0. -/
theorem xtile5 (c : Dev nD) (t : Fin cfg5.N) (j : S2000x64.Idx) :
    (Gen.iblk5 V c 0 t : S2000x64.Idx → EReal) j
      = (V c (Pipeline.arrRef spec5 0) : S50000x64.Idx → EReal) (((cfg5.win 4).blk t).view.emb j) := by
  obtain ⟨e0, e1, e2, e3, e4, e5, e6, e7, e8, e9⟩ := idx_facts5 t
  show V c (Pipeline.arrRef spec5 0) (((cfg5.win 0).blk t).view.emb j) = V c (Pipeline.arrRef spec5 0) (((cfg5.win 4).blk t).view.emb j)
  refine congrArg _ (funext fun a => Fin.ext ?_)
  match a with
  | ⟨0, _⟩ => show win5_0.index t (0 : Fin 2) * 2000 + 1 * (j 0).val = win5_4.index t (0 : Fin 2) * 2000 + 1 * (j 0).val; omega
  | ⟨1, _⟩ => show win5_0.index t (1 : Fin 2) * 64 + 1 * (j 1).val = win5_4.index t (1 : Fin 2) * 64 + 1 * (j 1).val; omega

/-- The one-row array b is held whole at every point: its block index is (0, 0). -/
theorem row5_1 (c : Dev nD) (t : Fin cfg5.N) :
    (Gen.iblk5 V c 1 t : S1x64.Idx → EReal) = V c (Pipeline.arrRef spec5 1) := by
  obtain ⟨e0, e1, e2, e3, e4, e5, e6, e7, e8, e9⟩ := idx_facts5 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- The one-row array mu is held whole at every point: its block index is (0, 0). -/
theorem row5_2 (c : Dev nD) (t : Fin cfg5.N) :
    (Gen.iblk5 V c 2 t : S1x64.Idx → EReal) = V c (Pipeline.arrRef spec5 2) := by
  obtain ⟨e0, e1, e2, e3, e4, e5, e6, e7, e8, e9⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- The one-row array v is held whole at every point: its block index is (0, 0). -/
theorem row5_3 (c : Dev nD) (t : Fin cfg5.N) :
    (Gen.iblk5 V c 3 t : S1x64.Idx → EReal) = V c (Pipeline.arrRef spec5 3) := by
  obtain ⟨e0, e1, e2, e3, e4, e5, e6, e7, e8, e9⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- An entry of the output's tile sits, in the array, at its own column: the tile's column block is 0. -/
theorem otile5_col (t : Fin cfg5.N) (j : S2000x64.Idx) :
    (((((cfg5.win 4).blk t).view.emb j : S50000x64.Idx)) 1).val = (j 1).val := by
  obtain ⟨e0, e1, e2, e3, e4, e5, e6, e7, e8, e9⟩ := idx_facts5 t
  show win5_4.index t (1 : Fin 2) * 64 + 1 * (j 1).val = (j 1).val; omega

/-- What point t writes back is tile t of the region's function of the entry arrays. -/
theorem flushed5_eq (c : Dev nD) (t : Fin cfg5.N) :
    (Gen.dat5 (F := Ideal) V c).flushed 4 t = ((cfg5.win 4).blk t).view.read (Elt Ideal)
      (normOut5 (V c (Pipeline.arrRef spec5 0)) (V c (Pipeline.arrRef spec5 1)) (V c (Pipeline.arrRef spec5 2)) (V c (Pipeline.arrRef spec5 3))) := by
  show (cfg5.win 4).cut (grid5.coords t) ((Gen.dat5 (F := Ideal) V c).after 4 t) = _
  rw [Gen.after5_4]
  unfold Gen.out5_4
  rw [View.canon_unit_zero zeroOffsets5]
  simp only [View.ld_unit_zero (S := S2000x64) zeroOffsets5, View.ld_unit_zero (S := S1x64) zeroOffsets5]
  funext j
  exact tile5_eq (Gen.iblk5 V c 0 t) (Gen.iblk5 V c 1 t) (Gen.iblk5 V c 2 t) (Gen.iblk5 V c 3 t)
    (V c (Pipeline.arrRef spec5 0)) (V c (Pipeline.arrRef spec5 1)) (V c (Pipeline.arrRef spec5 2)) (V c (Pipeline.arrRef spec5 3))
    j (((cfg5.win 4).blk t).view.emb j) (xtile5 V c t j) (row5_1 V c t) (row5_2 V c t) (row5_3 V c t) (otile5_col t j)

/-- An entry of the output array is in point t's tile iff each coordinate is in the tile's range on its axis. -/
theorem mem_blk5 (t : Fin cfg5.N) (i : S50000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v45).slice (win5_4.rect t)).set ↔ _
  rw [View.set_slice_whole, Rect.mem_set_unit]
  exact Iff.rfl

/-- Every entry of the output array is in the tile of the point its row block names: row r is in block r / 2000. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := idx_onto5 ⟨(i 0).val / 2000, by omega⟩
  have q0 : win5_4.index t (0 : Fin 2) = (i 0).val / 2000 := congrFun ht 0
  have q1 : win5_4.index t (1 : Fin 2) = 0 := congrFun ht 1
  refine ⟨t, Gen.flush5_4 t, ?_⟩
  rw [mem_blk5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 64 ≤ (i 1).val ∧ (i 1).val < win5_4.index t (1 : Fin 2) * 64 + 64; omega

/-- The output array after the region: the entry arrays' x with the bias row added, normalised by the rows mu and v,
    rectified. -/
theorem final5 (c : Dev nD) :
    (Gen.dat5 (F := Ideal) V c).arrAt 4 cfg5.N
      = Cert.Gcn.leaky (Cert.Gcn.normalize (Cert.Gcn.addBias (V c (Pipeline.arrRef spec5 0))
          (fun k => V c (Pipeline.arrRef spec5 1) (ValueIdx.ix2 0 k)))
          (fun k => V c (Pipeline.arrRef spec5 2) (ValueIdx.ix2 0 k))
          (fun k => V c (Pipeline.arrRef spec5 3) (ValueIdx.ix2 0 k))) :=
  (Gen.dat5 (F := Ideal) V c).arrAt_eq_of_cover 4 _ (fun t _ => flushed5_eq V c t) cover5

end Cert.KernelIdeal.RegValue

end
-- ==== Proof.ChainL2.lean ====
/-
  The kernel program's second layer, read off the boundary contents.

  The second matrix-product region leaves the product of layer 1's output with the second weight; the host stretch
  aggregates it along the edges and reshapes the bias to a row; the statistics region leaves the column sums and the
  column sums of squares of the biased aggregate; the next host stretch divides them by the row count into the mean
  and the variance (mean of squares minus squared mean); the normalise region leaves the rectified batch
  normalisation.  A buffer a segment does not write is carried unchanged; the arguments the layer reads are carried
  back to the launch memory through every earlier boundary.
-/
import proofs.«123476_j28346784153910_1_alg».proof.Proof.KernelIdealFrameP
import proofs.«123476_j28346784153910_1_alg».proof.Proof.KNet
import proofs.«123476_j28346784153910_1_alg».proof.Proof.RegMatmul3
import proofs.«123476_j28346784153910_1_alg».proof.Proof.RegStats4
import proofs.«123476_j28346784153910_1_alg».proof.Proof.RegNorm5
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg) (c : Dev nD)

/-- A host stretch leaves a buffer it does not write as it found it. -/
local macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments at the layer's entry -/

/-- A buffer that is no array of the first three regions and that the first two host stretches do not write holds its
    launch contents at the second layer's entry. -/
theorem W5_carry (b : Ref sig .tc) (h2 : ∀ w, Pipeline.arrRef spec2 w ≠ b) (h1 : ∀ w, Pipeline.arrRef spec1 w ≠ b)
    (h0 : ∀ w, Pipeline.arrRef spec0 w ≠ b)
    (g2 : StableHlo.after hostOps2 (W3 m ρ c) (Proc.devRef .tc b) = W3 m ρ c (Proc.devRef .tc b))
    (g1 : StableHlo.after hostOps1 (W1 m ρ c) (Proc.devRef .tc b) = W1 m ρ c (Proc.devRef .tc b)) :
    W5 m ρ c (Proc.devRef .tc b) = m ((c : Thread nD τ).loc b) :=
  (W5_of_ne m ρ c b h2).trans (g2.trans ((W3_of_ne m ρ c b h1).trans (g1.trans ((W1_of_ne m ρ c b h0).trans rfl))))

theorem W5_arg4 : W5 m ρ c (Proc.devRef .tc main_arg4) = m ((c : Thread nD τ).loc main_arg4) :=
  W5_carry m ρ c main_arg4 (by decide) (by decide) (by decide) (by not_written hostOps2) (by not_written hostOps1)
theorem W6_arg1 : W6 m ρ c (Proc.devRef .tc main_arg1) = m ((c : Thread nD τ).loc main_arg1) :=
  (W6_of_ne m ρ c main_arg1 (by decide)).trans
    (W5_carry m ρ c main_arg1 (by decide) (by decide) (by decide) (by not_written hostOps2) (by not_written hostOps1))
theorem W6_arg5 : W6 m ρ c (Proc.devRef .tc main_arg5) = m ((c : Thread nD τ).loc main_arg5) :=
  (W6_of_ne m ρ c main_arg5 (by decide)).trans
    (W5_carry m ρ c main_arg5 (by decide) (by decide) (by decide) (by not_written hostOps2) (by not_written hostOps1))
theorem W6_arg8 : W6 m ρ c (Proc.devRef .tc main_arg8) = m ((c : Thread nD τ).loc main_arg8) :=
  (W6_of_ne m ρ c main_arg8 (by decide)).trans
    (W5_carry m ρ c main_arg8 (by decide) (by decide) (by decide) (by not_written hostOps2) (by not_written hostOps1))
theorem W6_arg9 : W6 m ρ c (Proc.devRef .tc main_arg9) = m ((c : Thread nD τ).loc main_arg9) :=
  (W6_of_ne m ρ c main_arg9 (by decide)).trans
    (W5_carry m ρ c main_arg9 (by decide) (by decide) (by decide) (by not_written hostOps2) (by not_written hostOps1))

/-! ## Region 3: the product -/

theorem W6_v23 : W6 m ρ c (Proc.devRef .tc main_v23)
    = Cert.Lib.PlainDot.mm (W5 m ρ c (Proc.devRef .tc main_v22)) (m ((c : Thread nD τ).loc main_arg4)) := by
  refine (W6_arr m ρ c 2).trans ((RegValue.final3 (V5 m ρ) c).trans ?_)
  show Cert.Lib.PlainDot.mm (W5 m ρ c (Proc.devRef .tc main_v22)) (W5 m ρ c (Proc.devRef .tc main_arg4)) = _
  rw [W5_arg4]

/-! ## The host stretch after it: the aggregation and the bias row -/

theorem W7_v36_of (X : Valuation τ sig (Elt Ideal)) : StableHlo.after hostOps4 X (Proc.devRef .tc main_v36)
    = KNet.spmm64 (X (Proc.devRef .tc main_v23)) (X (Proc.devRef .tc main_arg1))
        (X (Proc.devRef .tc main_arg8)) (X (Proc.devRef .tc main_arg9)) := by
  after_results
  rfl

theorem W7_v36 : W7 m ρ c (Proc.devRef .tc main_v36)
    = KNet.spmm64 (W6 m ρ c (Proc.devRef .tc main_v23)) (m ((c : Thread nD τ).loc main_arg1))
        (m ((c : Thread nD τ).loc main_arg8)) (m ((c : Thread nD τ).loc main_arg9)) := by
  refine (W7_v36_of (W6 m ρ c)).trans ?_
  rw [W6_arg1, W6_arg8, W6_arg9]

theorem W7_v37_of (X : Valuation τ sig (Elt Ideal)) : StableHlo.after hostOps4 X (Proc.devRef .tc main_v37)
    = (shapeCast S1x64 (X (Proc.devRef .tc main_arg5)) shapeCasts_S64_S1x64 : FVec Ideal S1x64 .f32) := by
  after_results
  rfl

theorem W7_v37 : W7 m ρ c (Proc.devRef .tc main_v37)
    = (shapeCast S1x64 (m ((c : Thread nD τ).loc main_arg5)) shapeCasts_S64_S1x64 : FVec Ideal S1x64 .f32) := by
  refine (W7_v37_of (W6 m ρ c)).trans ?_
  rw [W6_arg5]

/-! ## Region 4: the column statistics -/

/-- The biased aggregate the statistics and the normalisation are taken of. -/
def hb2 : FVec Ideal S50000x64 .f32 :=
  addBias (W7 m ρ c (Proc.devRef .tc main_v36)) (fun k => W7 m ρ c (Proc.devRef .tc main_v37) (ix2 0 k))

theorem W8_v38_0 : W8 m ρ c (Proc.devRef .tc main_v38_0) = fun j => colSum (hb2 m ρ c) (col j) :=
  (W8_arr m ρ c 2).trans (RegValue.final4_sum (V7 m ρ) c)
theorem W8_v38_1 : W8 m ρ c (Proc.devRef .tc main_v38_1) = fun j => sqSum (hb2 m ρ c) (col j) :=
  (W8_arr m ρ c 3).trans (RegValue.final4_sq (V7 m ρ) c)
theorem W8_v36 : W8 m ρ c (Proc.devRef .tc main_v36) = W7 m ρ c (Proc.devRef .tc main_v36) :=
  (W8_arr m ρ c 0).trans (((dat4 (V7 m ρ) c).arrAt_in 0 rfl _).trans (A_eq4 (V7 m ρ) c 0))
theorem W8_v37 : W8 m ρ c (Proc.devRef .tc main_v37) = W7 m ρ c (Proc.devRef .tc main_v37) :=
  (W8_arr m ρ c 1).trans (((dat4 (V7 m ρ) c).arrAt_in 1 rfl _).trans (A_eq4 (V7 m ρ) c 1))

/-! ## The host stretch after it: the mean and the variance -/

theorem W9_v36 : W9 m ρ c (Proc.devRef .tc main_v36) = W7 m ρ c (Proc.devRef .tc main_v36) :=
  (show StableHlo.after hostOps5 (W8 m ρ c) (Proc.devRef .tc main_v36) = W8 m ρ c (Proc.devRef .tc main_v36) by not_written hostOps5).trans (W8_v36 m ρ c)
theorem W9_v37 : W9 m ρ c (Proc.devRef .tc main_v37) = W7 m ρ c (Proc.devRef .tc main_v37) :=
  (show StableHlo.after hostOps5 (W8 m ρ c) (Proc.devRef .tc main_v37) = W8 m ρ c (Proc.devRef .tc main_v37) by not_written hostOps5).trans (W8_v37 m ρ c)

/-- A one-row matrix read at a column. -/
abbrev rowAt2 {C : Nat} (x : (⟨2, ![1, C]⟩ : Shape).Idx → EReal) (k : Fin C) : EReal := x (ix2 0 k)

set_option maxHeartbeats 2000000 in
theorem v40_of (X : Valuation τ sig (Elt Ideal)) (k : Fin 64) :
    rowAt2 (StableHlo.after hostOps5 X (Proc.devRef .tc main_v40)) k = Ideal.div (rowAt2 (X (Proc.devRef .tc main_v38_0)) k) cnt := by
  unfold rowAt2
  after_results_simp
  rfl
set_option maxHeartbeats 2000000 in
theorem v44_of (X : Valuation τ sig (Elt Ideal)) (k : Fin 64) :
    rowAt2 (StableHlo.after hostOps5 X (Proc.devRef .tc main_v44)) k
      = Ideal.div (rowAt2 (X (Proc.devRef .tc main_v38_1)) k) cnt
        - rowAt2 (StableHlo.after hostOps5 X (Proc.devRef .tc main_v40)) k * rowAt2 (StableHlo.after hostOps5 X (Proc.devRef .tc main_v40)) k := by
  unfold rowAt2
  after_results_simp
  rfl

theorem W9_v40 (k : Fin 64) : rowAt2 (W9 m ρ c (Proc.devRef .tc main_v40)) k
    = Ideal.div (rowAt2 (W8 m ρ c (Proc.devRef .tc main_v38_0)) k) cnt := v40_of (W8 m ρ c) k
theorem W9_v44 (k : Fin 64) : rowAt2 (W9 m ρ c (Proc.devRef .tc main_v44)) k
    = Ideal.div (rowAt2 (W8 m ρ c (Proc.devRef .tc main_v38_1)) k) cnt
      - rowAt2 (W9 m ρ c (Proc.devRef .tc main_v40)) k * rowAt2 (W9 m ρ c (Proc.devRef .tc main_v40)) k := v44_of (W8 m ρ c) k

/-! ## Region 5: the normalisation and the rectifier -/

theorem W10_v45 : W10 m ρ c (Proc.devRef .tc main_v45)
    = KNet.layer64 (W5 m ρ c (Proc.devRef .tc main_v22)) (m ((c : Thread nD τ).loc main_arg4)) (m ((c : Thread nD τ).loc main_arg5))
        (m ((c : Thread nD τ).loc main_arg1)) (m ((c : Thread nD τ).loc main_arg8)) (m ((c : Thread nD τ).loc main_arg9)) := by
  refine (W10_arr m ρ c 4).trans ((RegValue.final5 (V9 m ρ) c).trans ?_)
  show leaky (normalize (addBias (W9 m ρ c (Proc.devRef .tc main_v36)) (fun k => W9 m ρ c (Proc.devRef .tc main_v37) (ix2 0 k)))
      (fun k => W9 m ρ c (Proc.devRef .tc main_v40) (ix2 0 k)) (fun k => W9 m ρ c (Proc.devRef .tc main_v44) (ix2 0 k))) = _
  rw [W9_v36, W9_v37]
  have hn := KNet.normalize_stats (hb2 m ρ c) (W8 m ρ c (Proc.devRef .tc main_v38_0)) (W8 m ρ c (Proc.devRef .tc main_v38_1))
    (W9 m ρ c (Proc.devRef .tc main_v40)) (W9 m ρ c (Proc.devRef .tc main_v44)) (W8_v38_0 m ρ c) (W8_v38_1 m ρ c)
    (W9_v40 m ρ c) (W9_v44 m ρ c)
  unfold hb2 at hn
  rw [hn, W7_v36, W7_v37, W6_v23]
  rfl

end Cert.KernelIdeal.Chain

end
-- ==== Proof.RegMatmul6.lean ====
/-
  The third matrix product of the network, read off the kernel's proof data as one array.

  The region multiplies the [50000, 64] array its window 0 stages by the [64, 20] array its window 1 stages.
  Its grid has 25 points.  Point t stages rows 2000 t … 2000 t + 1999 of the left array and the whole right
  array (block index 0 on both axes at every point), and stores into block t of the [50000, 20] result, at entry
  (r, c) of the block, the sum over k of left (2000 t + r, k) · right (k, c): rounding both operands to bf16 is
  the identity at the ideal values, and the accumulator is the zero splat.  That number is entry (2000 t + r, c) of
  the product of the two whole arrays, so every point writes back its own block of that product; the 25 blocks
  cover all 50000 rows (row r lies in block r / 2000), hence the result array ends holding the product, whatever
  the contents of the buffers when the region is entered.
-/
import proofs.«123476_j28346784153910_1_alg».proof.Proof.KernelIdealFrameP
import proofs.«123476_j28346784153910_1_alg».proof.Proof.LibPlainDot
import Idealize.ShloMosaic.Lib.Pipeline.Value

noncomputable section

namespace Cert.KernelIdeal.RegValue

open Cert.KernelIdeal Cert.KernelIdeal.Gen Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

/-- The zero offsets of a whole-buffer access, as the constant function. -/
theorem mm6_zeros : (![0, 0] : Fin 2 → Nat) = fun _ => 0 := funext fun a => by fin_cases a <;> rfl

/-- The body's contraction is the plain one: rows by the shared axis, times the shared axis by columns. -/
theorem mm6_dims : dot_S2000x64_S64x20_S2000x20_1_0_0_1_n_n = DotDims.plain 2000 64 20 := rfl

/-- The block indices over the grid: at point t the left operand's and the result's blocks are the t-th along the
    rows and the only one along the columns; the right operand's block is the only one on both axes. -/
theorem mm6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What the body stores, at an index: the cast of the left block to its own shape is the identity, rounding the
    operands to bf16 changes nothing at the ideal values and the accumulator is the zero splat, so the entry is the
    sum over the shared axis of the products. -/
theorem mm6_pay (x0 : Vec Ideal S2000x64 .f32) (x1 : Vec Ideal S64x20 .f32) (j : S2000x20.Idx) :
    k6_pay1 x0 x1 j = mm (R := 2000) (K := 64) (C := 20) x0 x1 j := by
  unfold k6_pay1
  simp only [shapeCast_self]
  exact matmul_zero_apply _ mm6_dims none _ _ j

/-- The left operand's block at point t is rows 2000 t … 2000 t + 1999 of its array. -/
theorem mm6_left (c : Dev nD) (t : Fin cfg6.N) (y : S2000x64.Idx) (i : S50000x64.Idx)
    (h0 : (i 0).val = t.val * 2000 + (y 0).val) (h1 : (i 1).val = (y 1).val) :
    (iblk6 V c 0 t : Vec Ideal S2000x64 .f32) y = (V c (Pipeline.arrRef spec6 0) : S50000x64.Idx → EReal) i := by
  obtain ⟨e0, e1, -⟩ := mm6_idx t
  unfold iblk6
  rw [View.read_apply]
  show (V c (Pipeline.arrRef spec6 0) : S50000x64.Idx → EReal) _ = _
  refine congrArg (V c (Pipeline.arrRef spec6 0) : S50000x64.Idx → EReal) ?_
  funext a; apply Fin.ext
  match a with
  | ⟨0, _⟩ => show win6_0.index t (0 : Fin 2) * 2000 + 1 * (y 0).val = (i 0).val; omega
  | ⟨1, _⟩ => show win6_0.index t (1 : Fin 2) * 64 + 1 * (y 1).val = (i 1).val; omega

/-- The right operand's block at every point is its whole array. -/
theorem mm6_right (c : Dev nD) (t : Fin cfg6.N) (y : S64x20.Idx) (i : S64x20.Idx)
    (h0 : (i 0).val = (y 0).val) (h1 : (i 1).val = (y 1).val) :
    (iblk6 V c 1 t : Vec Ideal S64x20 .f32) y = (V c (Pipeline.arrRef spec6 1) : S64x20.Idx → EReal) i := by
  obtain ⟨-, -, e2, e3, -⟩ := mm6_idx t
  unfold iblk6
  rw [View.read_apply]
  show (V c (Pipeline.arrRef spec6 1) : S64x20.Idx → EReal) _ = _
  refine congrArg (V c (Pipeline.arrRef spec6 1) : S64x20.Idx → EReal) ?_
  funext a; apply Fin.ext
  match a with
  | ⟨0, _⟩ => show win6_1.index t (0 : Fin 2) * 64 + 1 * (y 0).val = (i 0).val; omega
  | ⟨1, _⟩ => show win6_1.index t (1 : Fin 2) * 20 + 1 * (y 1).val = (i 1).val; omega

/-- What point t writes back is block t of the product of the two whole arrays: entry (r, c) of the stored tile is
    the sum over k of left (2000 t + r, k) · right (k, c). -/
theorem mm6_flushed (c : Dev nD) (t : Fin cfg6.N) :
    (dat6 (F := Ideal) V c).flushed 2 t
      = ((cfg6.win 2).blk t).view.read (Elt Ideal)
          (mm (R := 50000) (K := 64) (C := 20) (V c (Pipeline.arrRef spec6 0)) (V c (Pipeline.arrRef spec6 1))) := by
  show (cfg6.win 2).cut (grid6.coords t) ((dat6 V c).after 2 t) = _
  rw [after6_2]
  unfold out6_2
  rw [View.canon_unit_zero mm6_zeros]
  simp only [View.ld_unit_zero (S := S2000x64) mm6_zeros, View.ld_unit_zero (S := S64x20) mm6_zeros]
  obtain ⟨-, -, -, -, e4, e5⟩ := mm6_idx t
  funext j
  show k6_pay1 (iblk6 V c 0 t) (iblk6 V c 1 t) j
    = mm (R := 50000) (K := 64) (C := 20) (V c (Pipeline.arrRef spec6 0)) (V c (Pipeline.arrRef spec6 1))
        (((cfg6.win 2).blk t).view.emb j)
  refine (mm6_pay (iblk6 V c 0 t) (iblk6 V c 1 t) j).trans ?_
  have h0 : ((((cfg6.win 2).blk t).view.emb j : S50000x20.Idx) 0).val = t.val * 2000 + (j 0).val := by
    show win6_2.index t (0 : Fin 2) * 2000 + 1 * (j 0).val = _; omega
  have h1 : ((((cfg6.win 2).blk t).view.emb j : S50000x20.Idx) 1).val = (j 1).val := by
    show win6_2.index t (1 : Fin 2) * 20 + 1 * (j 1).val = _; omega
  unfold mm
  refine Finset.sum_congr rfl fun k _ => ?_
  exact congrArg₂ (· * ·)
    (mm6_left V c t (rowIdx j k) (rowIdx (((cfg6.win 2).blk t).view.emb j : S50000x20.Idx) k) h0 rfl)
    (mm6_right V c t (colIdx j k) (colIdx (((cfg6.win 2).blk t).view.emb j : S50000x20.Idx) k) rfl h1)

/-- An index of the result array is in point t's block iff, on each axis, it lies in the block's range. -/
theorem mm6_mem (t : Fin cfg6.N) (i : S50000x20.Idx) :
    i ∈ ((cfg6.win 2).blk t).view.set ↔ ∀ a : Fin 2, win6_2.index t a * S2000x20.size a ≤ (i a).val ∧ (i a).val < win6_2.index t a * S2000x20.size a + S2000x20.size a := by
  show i ∈ ((View.whole main_v46).slice (win6_2.rect t)).set ↔ _
  rw [View.set_slice_whole, Rect.mem_set_unit]
  exact Iff.rfl

/-- Every index of the result array is in some point's block: row r lies in block r / 2000. -/
theorem mm6_cover (i : S50000x20.Idx) :
    ∃ t : Fin cfg6.N, (cfg6.win 2).flush t = true ∧ i ∈ ((cfg6.win 2).blk t).view.set := by
  have hi0 : (i 0).val < 50000 := (i 0).isLt
  have hi1 : (i 1).val < 20 := (i 1).isLt
  have hN : cfg6.N = 25 := N_6
  refine ⟨⟨(i 0).val / 2000, by rw [hN]; omega⟩, flush6_2 _, ?_⟩
  obtain ⟨-, -, -, -, e4, e5⟩ := mm6_idx ⟨(i 0).val / 2000, by rw [hN]; omega⟩
  rw [mm6_mem]
  intro a
  match a with
  | ⟨0, _⟩ => show win6_2.index _ (0 : Fin 2) * 2000 ≤ (i 0).val ∧ (i 0).val < win6_2.index _ (0 : Fin 2) * 2000 + 2000; rw [e4]; show (i 0).val / 2000 * 2000 ≤ (i 0).val ∧ (i 0).val < (i 0).val / 2000 * 2000 + 2000; omega
  | ⟨1, _⟩ => show win6_2.index _ (1 : Fin 2) * 20 ≤ (i 1).val ∧ (i 1).val < win6_2.index _ (1 : Fin 2) * 20 + 20; rw [e5]; omega

/-- After the region the result array holds the product of the region's two input arrays. -/
theorem final6 (V : (c : Dev nD) → (b : Ref sig .tc) → Buf (Elt Ideal) ((c : Thread nD τ).loc b)) (c : Dev nD) :
    (Gen.dat6 (F := Ideal) V c).arrAt 2 cfg6.N
      = Cert.Lib.PlainDot.mm (V c (Pipeline.arrRef spec6 0)) (V c (Pipeline.arrRef spec6 1)) :=
  (dat6 (F := Ideal) V c).arrAt_eq_of_cover 2 _ (fun t _ => mm6_flushed V c t) mm6_cover

end Cert.KernelIdeal.RegValue

end
-- ==== Proof.RegStats7Pay.lean ====
/-
  The arithmetic of the column-statistics body at width 20, read entry by entry on the extended reals.

  The body holds a tile x of 2000 rows and 20 columns, a bias row b and two running rows acc (one per output).
  With xb(r, k) = x(r, k) + b(k):
    * the first output's row becomes   acc(k) + Σ_{r < 2000} xb(r, k),
    * the second output's row becomes  acc(k) + Σ_{r < 2000} xb(r, k) · xb(r, k),
    * and the row both outputs are reset to at the first tile is the zero literal in every column.
  The sum over the tile's rows is the lane reduction over axis 0, read as a finite sum over the row coordinate; the
  casts between a row of 20 and a 1 × 20 block only rename the index.
-/
import proofs.«123476_j28346784153910_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegValue

open Idealize.ShloMosaic Idealize.ShloMosaic.ValueIdx
open Cert.KernelIdeal
open scoped BigOperators

/-- The lane reduction over the 2000 rows of a tile, at column k: the sum of the column's 2000 entries. -/
theorem rowSum20 (src : FVec Ideal S2000x20 .f32) (h : S2000x20.Reduces [0] S20) (hφ : FKind.Formats .f32)
    (hacc : (0x00000000#32 : BitVec 32) = 0x00000000#32) (k : Fin 20) :
    multiReduction (F := Ideal) .add [0] S20 src 0x00000000#32 h hφ hacc (ix1 k) = ∑ r : Fin 2000, src (ix2 r k) :=
  (Ideal.multiReduction_add_single src 0x00000000#32 h hφ hacc (ix1 k)).trans
    (Finset.sum_congr rfl fun r _ => congrArg src (funext fun a => Fin.ext (by
      match a with
      | ⟨0, _⟩ => rfl
      | ⟨1, _⟩ => rfl)))

/-- The tile with the bias row added to every row, at (r, k). -/
theorem biased20_apply (x : Vec Ideal S2000x20 .f32) (b : Vec Ideal S1x20 .f32) (r : Fin 2000) (k : Fin 20) :
    Gen.k7_pay3 x b (ix2 r k) = x (ix2 r k) + b (ix2 (0 : Fin 1) k) := by
  unfold Gen.k7_pay3
  show shapeCast S2000x20 x _ (ix2 r k) + broadcastTo S2000x20 (shapeCast S1x20 b _) _ (ix2 r k) = _
  rw [shapeCast_self, shapeCast_self]
  exact congrArg (x (ix2 r k) + ·) (broadcastTo_1b_ab_apply b _ r k)

/-- The first output's new row at column k: the running row plus the tile's column sum of x + b. -/
theorem sumRow20_apply (x : Vec Ideal S2000x20 .f32) (b acc : Vec Ideal S1x20 .f32) (k : Fin 20) :
    Gen.k7_pay4 x b acc (ix2 (0 : Fin 1) k)
      = acc (ix2 (0 : Fin 1) k) + ∑ r : Fin 2000, (x (ix2 r k) + b (ix2 (0 : Fin 1) k)) := by
  unfold Gen.k7_pay4
  show shapeCast S1x20 acc _ (ix2 (0 : Fin 1) k) + shapeCast S1x20 (multiReduction (F := Ideal) .add [0] S20 (Gen.k7_pay3 x b) 0x00000000#32 _ _ _) _ (ix2 (0 : Fin 1) k) = _
  rw [shapeCast_self]
  refine congrArg (acc (ix2 (0 : Fin 1) k) + ·) ?_
  refine (shapeCast_a_1a_apply _ _ (0 : Fin 1) k).trans ?_
  refine (rowSum20 _ _ _ _ k).trans ?_
  exact Finset.sum_congr rfl fun r _ => biased20_apply x b r k

/-- The second output's new row at column k: the running row plus the tile's column sum of (x + b)². -/
theorem sqRow20_apply (x : Vec Ideal S2000x20 .f32) (b acc : Vec Ideal S1x20 .f32) (k : Fin 20) :
    Gen.k7_pay5 x b acc (ix2 (0 : Fin 1) k)
      = acc (ix2 (0 : Fin 1) k)
        + ∑ r : Fin 2000, (x (ix2 r k) + b (ix2 (0 : Fin 1) k)) * (x (ix2 r k) + b (ix2 (0 : Fin 1) k)) := by
  unfold Gen.k7_pay5
  show shapeCast S1x20 acc _ (ix2 (0 : Fin 1) k) + shapeCast S1x20 (multiReduction (F := Ideal) .add [0] S20 (mulf (Gen.k7_pay3 x b) (Gen.k7_pay3 x b)) 0x00000000#32 _ _ _) _ (ix2 (0 : Fin 1) k) = _
  rw [shapeCast_self]
  refine congrArg (acc (ix2 (0 : Fin 1) k) + ·) ?_
  refine (shapeCast_a_1a_apply _ _ (0 : Fin 1) k).trans ?_
  refine (rowSum20 _ _ _ _ k).trans ?_
  refine Finset.sum_congr rfl fun r _ => ?_
  show Gen.k7_pay3 x b (ix2 r k) * Gen.k7_pay3 x b (ix2 r k) = _
  rw [biased20_apply]

/-- The row the first output is reset to: the zero literal in every column. -/
theorem zeroRowA20_apply (j : S1x20.Idx) : (Gen.k7_pay1 (F := Ideal)) j = Ideal.ofBits .f32 0x00000000#32 := rfl

/-- The row the second output is reset to: the zero literal in every column. -/
theorem zeroRowB20_apply (j : S1x20.Idx) : (Gen.k7_pay2 (F := Ideal)) j = Ideal.ofBits .f32 0x00000000#32 := rfl

end Cert.KernelIdeal.RegValue

end
-- ==== Proof.RegStats7.lean ====
/-
  The column statistics of x + b at width 20, as whole arrays after the region.

  The region walks the 50000 rows of x in 25 tiles of 2000 rows.  Its two outputs are single rows of 20 entries that
  stay in place over the whole walk and are written back once, after the last tile.  At the first tile both rows are
  set to the zero literal; at every tile the first row gains the tile's column sums of x + b and the second the tile's
  column sums of (x + b)².  So after tile n the first row holds, in column k,
      zero + Σ_{s ≤ n} Σ_{r < 2000} (x(2000 s + r, k) + b(k)),
  and after the last tile this is the zero literal plus the sum of column k of x + b over all 50000 rows; likewise
  for the squares.  The one block written back is the whole 1 × 20 array, so the arrays end holding exactly these
  rows: the column sums and the column sums of squares of x + b.
-/
import proofs.«123476_j28346784153910_1_alg».proof.Proof.KernelIdealFrameP
import proofs.«123476_j28346784153910_1_alg».proof.Proof.RegStatsTiles
import proofs.«123476_j28346784153910_1_alg».proof.Proof.RegStats7Pay
import Idealize.ShloMosaic.Lib.Pipeline.Value
import Idealize.ShloMosaic.Lib.Tactic

noncomputable section

namespace Cert.KernelIdeal.RegValue

open Idealize.ShloMosaic Idealize.ShloMosaic.TcCoe Idealize.ShloMosaic.ValueIdx Idealize.SL.Sem
open Idealize.ShloMosaic.Pipeline (Dat)
open Cert.KernelIdeal Cert.KernelIdeal.Gen Cert.Gcn
open scoped BigOperators

/-- The zero offset of a whole-block access, as the constant function. -/
theorem zeroOff7 : (![0, 0] : Fin 2 → Nat) = fun _ => 0 := funext fun a => by fin_cases a <;> rfl

/-! ## What one tile leaves in the two rows -/

section Pieces

variable {F : FTy → Type} [FloatOps F]

/-- At a later tile the first row becomes the running row plus the tile's column sums. -/
theorem laterSum7 (c : Dev nD) (i : grid7.Coords) (a1 : Memref sig .tc .vmem S2000x20 .f32) (h1 : a1.IsWhole) (a2 : Memref sig .tc .vmem S1x20 .f32) (h2 : a2.IsWhole) (a3 : Memref sig .tc .vmem S1x20 .f32) (h3 : a3.IsWhole) (a4 : Memref sig .tc .vmem S1x20 .f32) (h4 : a4.IsWhole) (hc : ¬cond7_0 i)
    (x : Vec F S2000x20 .f32) (b s q : Vec F S1x20 .f32) :
    out7_B_2 c i a1 h1 a2 h2 a3 h3 a4 h4 hc x b s q = k7_pay4 x b s := by
  unfold out7_B_2
  rw [View.read_writes_eq_canon _ _ _ (cover7_B_2 c i a1 h1 a2 h2 a3 h3 a4 h4 hc x b s q)]
  unfold kernelRun7_B
  dsimp only
  sl_unfold_words
  rw [View.canon_unit_zero zeroOff7]
  simp only [View.readAt_eq_ld, h1.read_unread, h2.read_unread, h3.read_unread, View.ld_unit_zero (S := S2000x20) zeroOff7,
    View.ld_unit_zero (S := S1x20) zeroOff7]

/-- At a later tile the second row becomes the running row plus the tile's column sums of squares. -/
theorem laterSq7 (c : Dev nD) (i : grid7.Coords) (a1 : Memref sig .tc .vmem S2000x20 .f32) (h1 : a1.IsWhole) (a2 : Memref sig .tc .vmem S1x20 .f32) (h2 : a2.IsWhole) (a3 : Memref sig .tc .vmem S1x20 .f32) (h3 : a3.IsWhole) (a4 : Memref sig .tc .vmem S1x20 .f32) (h4 : a4.IsWhole) (hc : ¬cond7_0 i)
    (x : Vec F S2000x20 .f32) (b s q : Vec F S1x20 .f32) :
    out7_B_3 c i a1 h1 a2 h2 a3 h3 a4 h4 hc x b s q = k7_pay5 x b q := by
  unfold out7_B_3
  rw [View.read_writes_eq_canon _ _ _ (cover7_B_3 c i a1 h1 a2 h2 a3 h3 a4 h4 hc x b s q)]
  unfold kernelRun7_B
  dsimp only
  sl_unfold_words
  rw [View.canon_unit_zero zeroOff7]
  simp only [View.readAt_eq_ld, h1.read_unread, h2.read_unread, h4.read_unread, View.ld_unit_zero (S := S2000x20) zeroOff7,
    View.ld_unit_zero (S := S1x20) zeroOff7]

/-- At the first tile the first row becomes the zero row plus the tile's column sums. -/
theorem firstSum7 (c : Dev nD) (i : grid7.Coords) (a1 : Memref sig .tc .vmem S2000x20 .f32) (h1 : a1.IsWhole) (a2 : Memref sig .tc .vmem S1x20 .f32) (h2 : a2.IsWhole) (a3 : Memref sig .tc .vmem S1x20 .f32) (h3 : a3.IsWhole) (a4 : Memref sig .tc .vmem S1x20 .f32) (h4 : a4.IsWhole) (hc : cond7_0 i)
    (x : Vec F S2000x20 .f32) (b : Vec F S1x20 .f32) :
    out7_A_2 c i a1 h1 a2 h2 a3 h3 a4 h4 hc x b = k7_pay4 x b k7_pay1 := by
  unfold out7_A_2
  rw [View.read_writes_eq_canon _ _ _ (cover7_A_2 c i a1 h1 a2 h2 a3 h3 a4 h4 hc x b)]
  unfold kernelRun7_A
  dsimp only
  sl_unfold_words
  rw [View.canon_cons_unit_zero (S := S1x20) zeroOff7, View.readCov_unit_zero (S := S1x20) _ zeroOff7]
  simp only [View.readAt_eq_ld, h1.read_unread, h2.read_unread, View.ld_unit_zero (S := S2000x20) zeroOff7,
    View.ld_unit_zero (S := S1x20) zeroOff7]

/-- At the first tile the second row becomes the zero row plus the tile's column sums of squares. -/
theorem firstSq7 (c : Dev nD) (i : grid7.Coords) (a1 : Memref sig .tc .vmem S2000x20 .f32) (h1 : a1.IsWhole) (a2 : Memref sig .tc .vmem S1x20 .f32) (h2 : a2.IsWhole) (a3 : Memref sig .tc .vmem S1x20 .f32) (h3 : a3.IsWhole) (a4 : Memref sig .tc .vmem S1x20 .f32) (h4 : a4.IsWhole) (hc : cond7_0 i)
    (x : Vec F S2000x20 .f32) (b : Vec F S1x20 .f32) :
    out7_A_3 c i a1 h1 a2 h2 a3 h3 a4 h4 hc x b = k7_pay5 x b k7_pay2 := by
  unfold out7_A_3
  rw [View.read_writes_eq_canon _ _ _ (cover7_A_3 c i a1 h1 a2 h2 a3 h3 a4 h4 hc x b)]
  unfold kernelRun7_A
  dsimp only
  sl_unfold_words
  rw [View.canon_cons_unit_zero (S := S1x20) zeroOff7, View.readCov_unit_zero (S := S1x20) _ zeroOff7]
  simp only [View.readAt_eq_ld, h1.read_unread, h2.read_unread, View.ld_unit_zero (S := S2000x20) zeroOff7,
    View.ld_unit_zero (S := S1x20) zeroOff7]

end Pieces

/-! ## The two rows after each tile, as the body's arithmetic of the tile and the rows before -/

/-- After the first tile. -/
theorem rowsFirst7 (V : (c : Dev nD) → (b : Ref sig .tc) → Buf (Elt Ideal) ((c : Thread nD τ).loc b)) (c : Dev nD) (h : 0 < cfg7.N) :
    outsAt7 (F := Ideal) V c 0 h
      = (k7_pay4 (iblk7 V c 0 ⟨0, h⟩) (iblk7 V c 1 ⟨0, h⟩) (k7_pay1 (F := Ideal)),
         k7_pay5 (iblk7 V c 0 ⟨0, h⟩) (iblk7 V c 1 ⟨0, h⟩) (k7_pay2 (F := Ideal))) := by
  rw [outsAt7_A V c ⟨0, h⟩ rfl, firstSum7, firstSq7]

/-- After a later tile, from the rows after the tile before. -/
theorem rowsNext7 (V : (c : Dev nD) → (b : Ref sig .tc) → Buf (Elt Ideal) ((c : Thread nD τ).loc b)) (c : Dev nD) (n : ℕ) (h : n + 1 < cfg7.N) :
    outsAt7 (F := Ideal) V c (n + 1) h
      = (k7_pay4 (iblk7 V c 0 ⟨n + 1, h⟩) (iblk7 V c 1 ⟨n + 1, h⟩) (outsAt7 V c n (Nat.lt_of_succ_lt h)).1,
         k7_pay5 (iblk7 V c 0 ⟨n + 1, h⟩) (iblk7 V c 1 ⟨n + 1, h⟩) (outsAt7 V c n (Nat.lt_of_succ_lt h)).2) := by
  have hN : cfg7.N = 25 := N_7
  have hB : ¬(⟨n + 1, h⟩ : Fin cfg7.N).val % 25 = 0 := by dsimp only; omega
  rw [outsAt7_B V c ⟨n + 1, h⟩ hB, laterSum7, laterSq7]
  rfl

/-! ## The tiles and the bias row as the region reads them -/

/-- The printed index maps over the grid: tile t of x is row block t; the bias row and each output have the one block. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- x + b as the region finds them: its first input array with its second input's one row added to every row. -/
abbrev biased7 (V : (c : Dev nD) → (b : Ref sig .tc) → Buf (Elt Ideal) ((c : Thread nD τ).loc b)) (c : Dev nD) : Mat 50000 20 :=
  addBias (V c (Pipeline.arrRef spec7 0)) (fun k => V c (Pipeline.arrRef spec7 1) (ix2 (0 : Fin 1) k))

/-- Entry (r, k) of tile t of x is entry (2000 t + r, k) of x. -/
theorem tileX7 (V : (c : Dev nD) → (b : Ref sig .tc) → Buf (Elt Ideal) ((c : Thread nD τ).loc b)) (c : Dev nD) (t : Fin cfg7.N) (ht : t.val < 25) (r : Fin 2000) (k : Fin 20) :
    (iblk7 V c 0 t : Vec Ideal S2000x20 .f32) (ix2 r k)
      = (V c (Pipeline.arrRef spec7 0) : Mat 50000 20) (ix2 (tileRow ⟨t.val, ht⟩ r) k) := by
  obtain ⟨e0, e1, -⟩ := blockIdx7 t
  unfold iblk7
  rw [View.read_apply]
  refine congrArg (V c (Pipeline.arrRef spec7 0)) (funext fun a => Fin.ext ?_)
  match a with
  | ⟨0, _⟩ => show win7_0.index t (0 : Fin 2) * 2000 + 1 * r.val = t.val * 2000 + r.val; rw [e0]; omega
  | ⟨1, _⟩ => show win7_0.index t (1 : Fin 2) * 20 + 1 * k.val = k.val; rw [e1]; omega

/-- Entry k of the bias row as a tile's body reads it is entry k of the bias array. -/
theorem rowB7 (V : (c : Dev nD) → (b : Ref sig .tc) → Buf (Elt Ideal) ((c : Thread nD τ).loc b)) (c : Dev nD) (t : Fin cfg7.N) (k : Fin 20) :
    (iblk7 V c 1 t : Vec Ideal S1x20 .f32) (ix2 (0 : Fin 1) k) = V c (Pipeline.arrRef spec7 1) (ix2 (0 : Fin 1) k) := by
  obtain ⟨-, -, e0, e1, -⟩ := blockIdx7 t
  unfold iblk7
  rw [View.read_apply]
  refine congrArg (V c (Pipeline.arrRef spec7 1)) (funext fun a => Fin.ext ?_)
  match a with
  | ⟨0, _⟩ => show win7_1.index t (0 : Fin 2) * 1 + 1 * 0 = 0; rw [e0]
  | ⟨1, _⟩ => show win7_1.index t (1 : Fin 2) * 20 + 1 * k.val = k.val; rw [e1]; omega

/-- Tile t of x, as the body at point t reads it. -/
abbrev tileOf7 (V : (c : Dev nD) → (b : Ref sig .tc) → Buf (Elt Ideal) ((c : Thread nD τ).loc b)) (c : Dev nD) (t : Fin cfg7.N) : Vec Ideal S2000x20 .f32 := iblk7 V c 0 t
/-- The bias row, as the body at point t reads it. -/
abbrev biasOf7 (V : (c : Dev nD) → (b : Ref sig .tc) → Buf (Elt Ideal) ((c : Thread nD τ).loc b)) (c : Dev nD) (t : Fin cfg7.N) : Vec Ideal S1x20 .f32 := iblk7 V c 1 t

/-- The column sums of x + b a tile's body forms are that tile's share of the column sums of x + b. -/
theorem tileShare7 (V : (c : Dev nD) → (b : Ref sig .tc) → Buf (Elt Ideal) ((c : Thread nD τ).loc b)) (c : Dev nD) (t : Fin cfg7.N) (ht : t.val < 25) (k : Fin 20) :
    ∑ r : Fin 2000, (tileOf7 V c t (ix2 r k) + biasOf7 V c t (ix2 (0 : Fin 1) k))
      = tileSum (biased7 V c) t.val k := by
  rw [tileSum_of_lt _ _ ht]
  exact Finset.sum_congr rfl fun r _ => congrArg₂ (· + ·) (tileX7 V c t ht r k) (rowB7 V c t k)

/-- Likewise for the squares. -/
theorem tileShareSq7 (V : (c : Dev nD) → (b : Ref sig .tc) → Buf (Elt Ideal) ((c : Thread nD τ).loc b)) (c : Dev nD) (t : Fin cfg7.N) (ht : t.val < 25) (k : Fin 20) :
    ∑ r : Fin 2000, (tileOf7 V c t (ix2 r k) + biasOf7 V c t (ix2 (0 : Fin 1) k))
        * (tileOf7 V c t (ix2 r k) + biasOf7 V c t (ix2 (0 : Fin 1) k))
      = tileSq (biased7 V c) t.val k := by
  rw [tileSq_of_lt _ _ ht]
  refine Finset.sum_congr rfl fun r _ => ?_
  have e : tileOf7 V c t (ix2 r k) + biasOf7 V c t (ix2 (0 : Fin 1) k) = biased7 V c (ix2 (tileRow ⟨t.val, ht⟩ r) k) :=
    congrArg₂ (· + ·) (tileX7 V c t ht r k) (rowB7 V c t k)
  exact congrArg₂ (· * ·) e e

/-! ## The running rows -/

/-- After tile n the first row holds the zero literal plus the first n + 1 tiles' column sums of x + b, and the second
    the zero literal plus their column sums of squares. -/
theorem running7 (V : (c : Dev nD) → (b : Ref sig .tc) → Buf (Elt Ideal) ((c : Thread nD τ).loc b)) (c : Dev nD) : ∀ (n : ℕ) (h : n < cfg7.N) (k : Fin 20),
    (outsAt7 (F := Ideal) V c n h).1 (ix2 (0 : Fin 1) k) = zero + ∑ s ∈ Finset.range (n + 1), tileSum (biased7 V c) s k
    ∧ (outsAt7 (F := Ideal) V c n h).2 (ix2 (0 : Fin 1) k) = zero + ∑ s ∈ Finset.range (n + 1), tileSq (biased7 V c) s k
  | 0, h, k => by
    have hN : cfg7.N = 25 := N_7
    have h0 : (⟨0, h⟩ : Fin cfg7.N).val < 25 := by dsimp only; omega
    rw [rowsFirst7 V c h]
    dsimp only
    refine ⟨(sumRow20_apply (iblk7 V c 0 ⟨0, h⟩) (iblk7 V c 1 ⟨0, h⟩) (k7_pay1 (F := Ideal)) k).trans ?_,
      (sqRow20_apply (iblk7 V c 0 ⟨0, h⟩) (iblk7 V c 1 ⟨0, h⟩) (k7_pay2 (F := Ideal)) k).trans ?_⟩
    · rw [Finset.sum_range_one]
      exact congrArg₂ (· + ·) (zeroRowA20_apply _) (tileShare7 V c ⟨0, h⟩ h0 k)
    · rw [Finset.sum_range_one]
      exact congrArg₂ (· + ·) (zeroRowB20_apply _) (tileShareSq7 V c ⟨0, h⟩ h0 k)
  | n + 1, h, k => by
    have hN : cfg7.N = 25 := N_7
    have h1 : (⟨n + 1, h⟩ : Fin cfg7.N).val < 25 := by dsimp only; omega
    obtain ⟨ih1, ih2⟩ := running7 V c n (Nat.lt_of_succ_lt h) k
    rw [rowsNext7 V c n h]
    dsimp only
    refine ⟨(sumRow20_apply (iblk7 V c 0 ⟨n + 1, h⟩) (iblk7 V c 1 ⟨n + 1, h⟩) (outsAt7 V c n (Nat.lt_of_succ_lt h)).1 k).trans ?_,
      (sqRow20_apply (iblk7 V c 0 ⟨n + 1, h⟩) (iblk7 V c 1 ⟨n + 1, h⟩) (outsAt7 V c n (Nat.lt_of_succ_lt h)).2 k).trans ?_⟩
    · rw [ih1, Finset.sum_range_succ _ (n + 1), ← add_assoc]
      exact congrArg (_ + ·) (tileShare7 V c ⟨n + 1, h⟩ h1 k)
    · rw [ih2, Finset.sum_range_succ _ (n + 1), ← add_assoc]
      exact congrArg (_ + ·) (tileShareSq7 V c ⟨n + 1, h⟩ h1 k)

/-- After the last tile the first row is the row of column sums of x + b. -/
theorem lastSum7 (V : (c : Dev nD) → (b : Ref sig .tc) → Buf (Elt Ideal) ((c : Thread nD τ).loc b)) (c : Dev nD) (t : Fin cfg7.N) (h24 : t.val = 24) :
    (outsAt7 (F := Ideal) V c t.val t.isLt).1 = fun j : S1x20.Idx => colSum (biased7 V c) (col j) := by
  funext j
  obtain ⟨u, k, rfl⟩ : ∃ (u : Fin 1) (k : Fin 20), j = ix2 u k := ⟨j 0, j 1, eq_ix2 j⟩
  obtain rfl : u = 0 := Subsingleton.elim _ _
  rw [(running7 V c t.val t.isLt k).1, h24]
  exact colSum_eq_tiles (biased7 V c) k

/-- After the last tile the second row is the row of column sums of squares of x + b. -/
theorem lastSq7 (V : (c : Dev nD) → (b : Ref sig .tc) → Buf (Elt Ideal) ((c : Thread nD τ).loc b)) (c : Dev nD) (t : Fin cfg7.N) (h24 : t.val = 24) :
    (outsAt7 (F := Ideal) V c t.val t.isLt).2 = fun j : S1x20.Idx => sqSum (biased7 V c) (col j) := by
  funext j
  obtain ⟨u, k, rfl⟩ : ∃ (u : Fin 1) (k : Fin 20), j = ix2 u k := ⟨j 0, j 1, eq_ix2 j⟩
  obtain rfl : u = 0 := Subsingleton.elim _ _
  rw [(running7 V c t.val t.isLt k).2, h24]
  exact sqSum_eq_tiles (biased7 V c) k

/-! ## The arrays after the region -/

/-- The one write-back of the first output, after the last tile, writes the row of column sums: its block at zero
    offsets is the whole 1 × 20 array. -/
theorem flushedSum7 (V : (c : Dev nD) → (b : Ref sig .tc) → Buf (Elt Ideal) ((c : Thread nD τ).loc b)) (c : Dev nD) (t : Fin cfg7.N) (hf : (cfg7.win 2).flush t = true) :
    (dat7 (F := Ideal) V c).flushed 2 t
      = ((cfg7.win 2).blk t).view.read (Elt Ideal) (fun j : S1x20.Idx => colSum (biased7 V c) (col j)) := by
  have hN : cfg7.N = 25 := N_7
  have h24 : t.val = 24 := by have := (flush7_2 t).mp hf; have := t.isLt; omega
  obtain ⟨-, -, -, -, e0, e1, -⟩ := blockIdx7 t
  show (cfg7.win 2).cut (grid7.coords t) ((dat7 V c).after 2 t) = _
  rw [after7_2, lastSum7 V c t h24]
  have hz' : (fun a => win7_2.index t a * main_v48_0.ty.shape.size a) = fun _ => 0 := funext fun a => by
    match a with
    | ⟨0, _⟩ => show win7_2.index t (0 : Fin 2) * 1 = 0; rw [e0]
    | ⟨1, _⟩ => show win7_2.index t (1 : Fin 2) * 20 = 0; rw [e1]
  exact (Memref.read_access_unit_zero (Elt Ideal) main_v48_0 hz' (fun a => by rw [congrFun hz' a]; simp) _).symm

/-- The one write-back of the second output writes the row of column sums of squares. -/
theorem flushedSq7 (V : (c : Dev nD) → (b : Ref sig .tc) → Buf (Elt Ideal) ((c : Thread nD τ).loc b)) (c : Dev nD) (t : Fin cfg7.N) (hf : (cfg7.win 3).flush t = true) :
    (dat7 (F := Ideal) V c).flushed 3 t
      = ((cfg7.win 3).blk t).view.read (Elt Ideal) (fun j : S1x20.Idx => sqSum (biased7 V c) (col j)) := by
  have hN : cfg7.N = 25 := N_7
  have h24 : t.val = 24 := by have := (flush7_3 t).mp hf; have := t.isLt; omega
  obtain ⟨-, -, -, -, -, -, e0, e1⟩ := blockIdx7 t
  show (cfg7.win 3).cut (grid7.coords t) ((dat7 V c).after 3 t) = _
  rw [after7_3, lastSq7 V c t h24]
  have hz' : (fun a => win7_3.index t a * main_v48_1.ty.shape.size a) = fun _ => 0 := funext fun a => by
    match a with
    | ⟨0, _⟩ => show win7_3.index t (0 : Fin 2) * 1 = 0; rw [e0]
    | ⟨1, _⟩ => show win7_3.index t (1 : Fin 2) * 20 = 0; rw [e1]
  exact (Memref.read_access_unit_zero (Elt Ideal) main_v48_1 hz' (fun a => by rw [congrFun hz' a]; simp) _).symm

/-- The last tile's point. -/
abbrev lastPoint7 : Fin cfg7.N := ⟨24, by rw [show cfg7.N = 25 from N_7]; decide⟩

/-- The first output's array after the region: in column k, the sum of column k of x + b from the zero literal. -/
theorem final7_sum (V : (c : Dev nD) → (b : Ref sig .tc) → Buf (Elt Ideal) ((c : Thread nD τ).loc b)) (c : Dev nD) :
    (Gen.dat7 (F := Ideal) V c).arrAt 2 cfg7.N = fun j => Cert.Gcn.colSum (Cert.Gcn.addBias (V c (Pipeline.arrRef spec7 0)) (fun k => V c (Pipeline.arrRef spec7 1) (ValueIdx.ix2 0 k))) (Cert.Gcn.col j) :=
  (dat7 (F := Ideal) V c).arrAt_eq_of_cover 2 _ (flushedSum7 V c) fun i =>
    ⟨lastPoint7, (flush7_2 lastPoint7).mpr rfl, by
      obtain ⟨-, -, -, -, e0, e1, -⟩ := blockIdx7 lastPoint7
      show i ∈ ((View.whole main_v48_0).slice (win7_2.rect lastPoint7)).set
      rw [View.set_slice_whole, Rect.mem_set_unit]
      intro a
      have h0 : (i 0 : Nat) < 1 := (i 0).isLt
      have h1 : (i 1 : Nat) < 20 := (i 1).isLt
      match a with
      | ⟨0, _⟩ => show win7_2.index lastPoint7 (0 : Fin 2) * 1 ≤ (i 0 : Nat) ∧ (i 0 : Nat) < win7_2.index lastPoint7 (0 : Fin 2) * 1 + 1
                  rw [e0]; omega
      | ⟨1, _⟩ => show win7_2.index lastPoint7 (1 : Fin 2) * 20 ≤ (i 1 : Nat) ∧ (i 1 : Nat) < win7_2.index lastPoint7 (1 : Fin 2) * 20 + 20
                  rw [e1]; omega⟩

/-- The second output's array after the region: in column k, the sum of squares of column k of x + b from the zero literal. -/
theorem final7_sq (V : (c : Dev nD) → (b : Ref sig .tc) → Buf (Elt Ideal) ((c : Thread nD τ).loc b)) (c : Dev nD) :
    (Gen.dat7 (F := Ideal) V c).arrAt 3 cfg7.N = fun j => Cert.Gcn.sqSum (Cert.Gcn.addBias (V c (Pipeline.arrRef spec7 0)) (fun k => V c (Pipeline.arrRef spec7 1) (ValueIdx.ix2 0 k))) (Cert.Gcn.col j) :=
  (dat7 (F := Ideal) V c).arrAt_eq_of_cover 3 _ (flushedSq7 V c) fun i =>
    ⟨lastPoint7, (flush7_3 lastPoint7).mpr rfl, by
      obtain ⟨-, -, -, -, -, -, e0, e1⟩ := blockIdx7 lastPoint7
      show i ∈ ((View.whole main_v48_1).slice (win7_3.rect lastPoint7)).set
      rw [View.set_slice_whole, Rect.mem_set_unit]
      intro a
      have h0 : (i 0 : Nat) < 1 := (i 0).isLt
      have h1 : (i 1 : Nat) < 20 := (i 1).isLt
      match a with
      | ⟨0, _⟩ => show win7_3.index lastPoint7 (0 : Fin 2) * 1 ≤ (i 0 : Nat) ∧ (i 0 : Nat) < win7_3.index lastPoint7 (0 : Fin 2) * 1 + 1
                  rw [e0]; omega
      | ⟨1, _⟩ => show win7_3.index lastPoint7 (1 : Fin 2) * 20 ≤ (i 1 : Nat) ∧ (i 1 : Nat) < win7_3.index lastPoint7 (1 : Fin 2) * 20 + 20
                  rw [e1]; omega⟩

end Cert.KernelIdeal.RegValue

end
-- ==== Proof.RegNorm8.lean ====
/-
  The normalise region of the final linear layer (50000 rows, 20 columns), read as one function of the arrays it is entered with.

  The region walks 25 grid points.  Point t holds rows 2000 t, ..., 2000 t + 1999 of the input x (window 0) and of the
  output (window 4), and the whole one-row arrays b (window 1), mu (window 2) and v (window 3), whose block index is 0 at
  every point.  At (r, k) of its tile the body stores
        (x(r, k) + b(k) - mu(k)) * rsqrt (v(k) + eps) :
  each of its operations acts entry by entry, a one-row array broadcast over the tile is read at the entry's column, and a
  shape cast to the same shape changes nothing.  The tile of the output written back at point t sits where the tile of x
  was read, and the 25 tiles fill the 50000 rows; so after the region the output array is
        normalize (addBias x b) mu v     (this layer has no rectifier).
-/
import proofs.«123476_j28346784153910_1_alg».proof.Proof.KernelIdealFrameP
import proofs.«123476_j28346784153910_1_alg».proof.Proof.Spec
import Idealize.ShloMosaic.Lib.Pipeline.Value
import Idealize.ShloMosaic.Lib.ValueIdx
import Idealize.ShloMosaic.Lib.ValueLayout

noncomputable section

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)

/-- Both offsets of an access to a whole tile are zero. -/
theorem zeroOffsets8 : (![0, 0] : Fin 2 → Nat) = fun _ => 0 := funext fun a => by fin_cases a <;> rfl

/-- What the region leaves in its output array, as a function of the arrays it is entered with: the input x with the
    bias row b added to every row, every column shifted by the row mu and scaled by rsqrt (v + eps). -/
abbrev normOut8 (X : S50000x20.Idx → EReal) (B M W : S1x20.Idx → EReal) : S50000x20.Idx → EReal :=
  Cert.Gcn.normalize (Cert.Gcn.addBias X (fun k => B (ix2 0 k))) (fun k => M (ix2 0 k)) (fun k => W (ix2 0 k))

/-- The body's stored value at row r and column k of its tile: every operation is entry by entry, a broadcast one-row
    array is read at column k, the casts to the same shape are the identity. -/
theorem pay8_apply (x : Vec Ideal S2000x20 .f32) (b v μ : Vec Ideal S1x20 .f32) (r : Fin 2000) (k : Fin 20) :
    Gen.k8_pay1 x b v μ (ix2 r k)
      = (x (ix2 r k) + b (ix2 (0 : Fin 1) k) - μ (ix2 (0 : Fin 1) k))
          * Ideal.rsqrt (v (ix2 (0 : Fin 1) k) + Cert.Gcn.eps) := by
  have eb : broadcastTo S2000x20 (shapeCast S1x20 b shapeCasts_S1x20_S1x20) broadcasts_S1x20_S2000x20 (ix2 r k)
      = b (ix2 (0 : Fin 1) k) := by
    rw [shapeCast_self]; exact broadcastTo_1b_ab_apply b _ r k
  have eμ : broadcastTo S2000x20 (shapeCast S1x20 μ shapeCasts_S1x20_S1x20) broadcasts_S1x20_S2000x20 (ix2 r k)
      = μ (ix2 (0 : Fin 1) k) := by
    rw [shapeCast_self]; exact broadcastTo_1b_ab_apply μ _ r k
  have ev : broadcastTo S2000x20 (rsqrt (addf (shapeCast S1x20 v shapeCasts_S1x20_S1x20)
        (broadcast S1x20 (Scalar.ofBits (F := Ideal) .f32 0x3727C5AC#32)))) broadcasts_S1x20_S2000x20 (ix2 r k)
      = Ideal.rsqrt (v (ix2 (0 : Fin 1) k) + Cert.Gcn.eps) := by
    rw [shapeCast_self]; exact broadcastTo_1b_ab_apply _ _ r k
  have ex : shapeCast S2000x20 x shapeCasts_S2000x20_S2000x20 (ix2 r k) = x (ix2 r k) := by
    rw [shapeCast_self]
  unfold Gen.k8_pay1
  show (shapeCast S2000x20 x shapeCasts_S2000x20_S2000x20 (ix2 r k)
      + broadcastTo S2000x20 (shapeCast S1x20 b shapeCasts_S1x20_S1x20) broadcasts_S1x20_S2000x20 (ix2 r k)
      - broadcastTo S2000x20 (shapeCast S1x20 μ shapeCasts_S1x20_S1x20) broadcasts_S1x20_S2000x20 (ix2 r k))
      * broadcastTo S2000x20 (rsqrt (addf (shapeCast S1x20 v shapeCasts_S1x20_S1x20)
        (broadcast S1x20 (Scalar.ofBits (F := Ideal) .f32 0x3727C5AC#32)))) broadcasts_S1x20_S2000x20 (ix2 r k) = _
  rw [ex, eb, eμ, ev]

/-- The stored value at an entry j of the tile is the region's function at the entry i of the array the tile's entry
    sits at, when the tile of x read there is the array's entry i, the three rows are the whole one-row arrays, and i has
    j's column. -/
theorem tile8_eq (x : Vec Ideal S2000x20 .f32) (b μ v : Vec Ideal S1x20 .f32)
    (X : S50000x20.Idx → EReal) (B M W : S1x20.Idx → EReal) (j : S2000x20.Idx) (i : S50000x20.Idx)
    (hx : x j = X i) (hb : b = B) (hμ : μ = M) (hv : v = W) (hcol : (i 1).val = (j 1).val) :
    Gen.k8_pay1 x b v μ j = normOut8 X B M W i := by
  subst hb hμ hv
  obtain ⟨r, k, rfl⟩ : ∃ (r : Fin 2000) (k : Fin 20), j = ix2 r k := ⟨j 0, j 1, eq_ix2 j⟩
  have hk : Cert.Gcn.col i = k := Fin.ext hcol
  rw [pay8_apply, hx]
  show _ = (X i + b (ix2 0 (Cert.Gcn.col i)) - μ (ix2 0 (Cert.Gcn.col i)))
      * Ideal.rsqrt (v (ix2 0 (Cert.Gcn.col i)) + Cert.Gcn.eps)
  rw [hk]

/-- The printed index maps over the 25 points: the tiles of x and of the output move together along the rows, at block
    t for point t, and stay at column block 0; the three one-row arrays stay at block (0, 0). -/
theorem idx_facts8 : ∀ t : Fin cfg8.N,
    win8_0.index t (0 : Fin 2) = win8_4.index t (0 : Fin 2) ∧ win8_0.index t (1 : Fin 2) = 0
    ∧ win8_4.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) ≤ 24 :=
  (by decide +kernel : ∀ t : Fin grid8.N, _)

/-- Every row block is some point's. -/
theorem idx_onto8 : ∀ q : Fin 25, ∃ t : Fin cfg8.N, win8_4.index t = ![q.val, 0] :=
  (by decide +kernel : ∀ q : Fin 25, ∃ t : Fin grid8.N, win8_4.index t = ![q.val, 0])

variable (V : (c : Dev nD) → (b : Ref sig .tc) → Buf (Elt Ideal) ((c : Thread nD τ).loc b))

/-- The tile of x read at point t holds, at each of its entries, the array's entry at the same place of the output's tile:
    the two tiles sit at the same row block and at column block 0. -/
theorem xtile8 (c : Dev nD) (t : Fin cfg8.N) (j : S2000x20.Idx) :
    (Gen.iblk8 V c 0 t : S2000x20.Idx → EReal) j
      = (V c (Pipeline.arrRef spec8 0) : S50000x20.Idx → EReal) (((cfg8.win 4).blk t).view.emb j) := by
  obtain ⟨e0, e1, e2, e3, e4, e5, e6, e7, e8, e9⟩ := idx_facts8 t
  show V c (Pipeline.arrRef spec8 0) (((cfg8.win 0).blk t).view.emb j) = V c (Pipeline.arrRef spec8 0) (((cfg8.win 4).blk t).view.emb j)
  refine congrArg _ (funext fun a => Fin.ext ?_)
  match a with
  | ⟨0, _⟩ => show win8_0.index t (0 : Fin 2) * 2000 + 1 * (j 0).val = win8_4.index t (0 : Fin 2) * 2000 + 1 * (j 0).val; omega
  | ⟨1, _⟩ => show win8_0.index t (1 : Fin 2) * 20 + 1 * (j 1).val = win8_4.index t (1 : Fin 2) * 20 + 1 * (j 1).val; omega

/-- The one-row array b is held whole at every point: its block index is (0, 0). -/
theorem row8_1 (c : Dev nD) (t : Fin cfg8.N) :
    (Gen.iblk8 V c 1 t : S1x20.Idx → EReal) = V c (Pipeline.arrRef spec8 1) := by
  obtain ⟨e0, e1, e2, e3, e4, e5, e6, e7, e8, e9⟩ := idx_facts8 t
  funext y
  show V c (Pipeline.arrRef spec8 1) (((cfg8.win 1).blk t).view.emb y) = V c (Pipeline.arrRef spec8 1) y
  refine congrArg _ (funext fun a => Fin.ext ?_)
  match a with
  | ⟨0, _⟩ => show win8_1.index t (0 : Fin 2) * 1 + 1 * (y 0).val = (y 0).val; omega
  | ⟨1, _⟩ => show win8_1.index t (1 : Fin 2) * 20 + 1 * (y 1).val = (y 1).val; omega

/-- The one-row array mu is held whole at every point: its block index is (0, 0). -/
theorem row8_2 (c : Dev nD) (t : Fin cfg8.N) :
    (Gen.iblk8 V c 2 t : S1x20.Idx → EReal) = V c (Pipeline.arrRef spec8 2) := by
  obtain ⟨e0, e1, e2, e3, e4, e5, e6, e7, e8, e9⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 20 + 1 * (y 1).val = (y 1).val; omega

/-- The one-row array v is held whole at every point: its block index is (0, 0). -/
theorem row8_3 (c : Dev nD) (t : Fin cfg8.N) :
    (Gen.iblk8 V c 3 t : S1x20.Idx → EReal) = V c (Pipeline.arrRef spec8 3) := by
  obtain ⟨e0, e1, e2, e3, e4, e5, e6, e7, e8, e9⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 20 + 1 * (y 1).val = (y 1).val; omega

/-- An entry of the output's tile sits, in the array, at its own column: the tile's column block is 0. -/
theorem otile8_col (t : Fin cfg8.N) (j : S2000x20.Idx) :
    (((((cfg8.win 4).blk t).view.emb j : S50000x20.Idx)) 1).val = (j 1).val := by
  obtain ⟨e0, e1, e2, e3, e4, e5, e6, e7, e8, e9⟩ := idx_facts8 t
  show win8_4.index t (1 : Fin 2) * 20 + 1 * (j 1).val = (j 1).val; omega

/-- What point t writes back is tile t of the region's function of the entry arrays. -/
theorem flushed8_eq (c : Dev nD) (t : Fin cfg8.N) :
    (Gen.dat8 (F := Ideal) V c).flushed 4 t = ((cfg8.win 4).blk t).view.read (Elt Ideal)
      (normOut8 (V c (Pipeline.arrRef spec8 0)) (V c (Pipeline.arrRef spec8 1)) (V c (Pipeline.arrRef spec8 2)) (V c (Pipeline.arrRef spec8 3))) := by
  show (cfg8.win 4).cut (grid8.coords t) ((Gen.dat8 (F := Ideal) V c).after 4 t) = _
  rw [Gen.after8_4]
  unfold Gen.out8_4
  rw [View.canon_unit_zero zeroOffsets8]
  simp only [View.ld_unit_zero (S := S2000x20) zeroOffsets8, View.ld_unit_zero (S := S1x20) zeroOffsets8]
  funext j
  exact tile8_eq (Gen.iblk8 V c 0 t) (Gen.iblk8 V c 1 t) (Gen.iblk8 V c 2 t) (Gen.iblk8 V c 3 t)
    (V c (Pipeline.arrRef spec8 0)) (V c (Pipeline.arrRef spec8 1)) (V c (Pipeline.arrRef spec8 2)) (V c (Pipeline.arrRef spec8 3))
    j (((cfg8.win 4).blk t).view.emb j) (xtile8 V c t j) (row8_1 V c t) (row8_2 V c t) (row8_3 V c t) (otile8_col t j)

/-- An entry of the output array is in point t's tile iff each coordinate is in the tile's range on its axis. -/
theorem mem_blk8 (t : Fin cfg8.N) (i : S50000x20.Idx) :
    i ∈ ((cfg8.win 4).blk t).view.set ↔ ∀ a : Fin 2, win8_4.index t a * S2000x20.size a ≤ (i a).val
      ∧ (i a).val < win8_4.index t a * S2000x20.size a + S2000x20.size a := by
  show i ∈ ((View.whole main_v55).slice (win8_4.rect t)).set ↔ _
  rw [View.set_slice_whole, Rect.mem_set_unit]
  exact Iff.rfl

/-- Every entry of the output array is in the tile of the point its row block names: row r is in block r / 2000. -/
theorem cover8 (i : S50000x20.Idx) :
    ∃ t : Fin cfg8.N, (cfg8.win 4).flush t = true ∧ i ∈ ((cfg8.win 4).blk t).view.set := by
  have hi0 : (i 0).val < 50000 := (i 0).isLt
  have hi1 : (i 1).val < 20 := (i 1).isLt
  obtain ⟨t, ht⟩ := idx_onto8 ⟨(i 0).val / 2000, by omega⟩
  have q0 : win8_4.index t (0 : Fin 2) = (i 0).val / 2000 := congrFun ht 0
  have q1 : win8_4.index t (1 : Fin 2) = 0 := congrFun ht 1
  refine ⟨t, Gen.flush8_4 t, ?_⟩
  rw [mem_blk8]
  intro a
  match a with
  | ⟨0, _⟩ => show win8_4.index t (0 : Fin 2) * 2000 ≤ (i 0).val ∧ (i 0).val < win8_4.index t (0 : Fin 2) * 2000 + 2000; omega
  | ⟨1, _⟩ => show win8_4.index t (1 : Fin 2) * 20 ≤ (i 1).val ∧ (i 1).val < win8_4.index t (1 : Fin 2) * 20 + 20; omega

/-- The output array after the region: the entry arrays' x with the bias row added, normalised by the rows mu and v. -/
theorem final8 (c : Dev nD) :
    (Gen.dat8 (F := Ideal) V c).arrAt 4 cfg8.N
      = Cert.Gcn.normalize (Cert.Gcn.addBias (V c (Pipeline.arrRef spec8 0))
          (fun k => V c (Pipeline.arrRef spec8 1) (ValueIdx.ix2 0 k)))
          (fun k => V c (Pipeline.arrRef spec8 2) (ValueIdx.ix2 0 k))
          (fun k => V c (Pipeline.arrRef spec8 3) (ValueIdx.ix2 0 k)) :=
  (Gen.dat8 (F := Ideal) V c).arrAt_eq_of_cover 4 _ (fun t _ => flushed8_eq V c t) cover8

end Cert.KernelIdeal.RegValue

end
-- ==== Proof.ChainL3.lean ====
/-
  The kernel program's third layer, read off the boundary contents.

  After the third matrix-product region the product buffer holds h·W3, h the second layer's output as that region
  finds it; the host stretch reshapes the bias to a row; the statistics region leaves the column sums and the column
  sums of squares of the biased product; the next host stretch divides them by the row count into the mean and the
  variance (mean of squares minus squared mean); the normalise region leaves the batch normalisation, not rectified.
  Buffers a segment does not write are carried unchanged, the weight and the bias back to the launch memory.
-/
import proofs.«123476_j28346784153910_1_alg».proof.Proof.KernelIdealFrameP
import proofs.«123476_j28346784153910_1_alg».proof.Proof.KNet
import proofs.«123476_j28346784153910_1_alg».proof.Proof.RegMatmul6
import proofs.«123476_j28346784153910_1_alg».proof.Proof.RegStats7
import proofs.«123476_j28346784153910_1_alg».proof.Proof.RegNorm8
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg) (c : Dev nD)

/-- A host stretch leaves a buffer it does not write as it found it. -/
local macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The third layer's weight and bias are still the launch memory's when their regions read them -/

/-- No region before the third matrix product writes its weight, and no host stretch does. -/
theorem W10_arg6 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by
          show StableHlo.after hostOps5 (W8 m ρ c) (Proc.devRef .tc main_arg6) = _; not_written hostOps5
    _ = W7 m ρ c (Proc.devRef .tc main_arg6) := W8_of_ne m ρ c main_arg6 (by decide)
    _ = W6 m ρ c (Proc.devRef .tc main_arg6) := by
          show StableHlo.after hostOps4 (W6 m ρ c) (Proc.devRef .tc main_arg6) = _; not_written hostOps4
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := by
          show StableHlo.after hostOps2 (W3 m ρ c) (Proc.devRef .tc main_arg6) = _; not_written hostOps2
    _ = W2 m ρ c (Proc.devRef .tc main_arg6) := W3_of_ne m ρ c main_arg6 (by decide)
    _ = W1 m ρ c (Proc.devRef .tc main_arg6) := by
          show StableHlo.after hostOps1 (W1 m ρ c) (Proc.devRef .tc main_arg6) = _; not_written hostOps1
    _ = W0 m ρ c (Proc.devRef .tc main_arg6) := W1_of_ne m ρ c main_arg6 (by decide)
    _ = m ((c : Thread nD τ).loc main_arg6) := rfl

/-- Nor is the third layer's bias written before the host stretch that reshapes it. -/
theorem W11_arg7 : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := by
          show StableHlo.after hostOps5 (W8 m ρ c) (Proc.devRef .tc main_arg7) = _; not_written hostOps5
    _ = W7 m ρ c (Proc.devRef .tc main_arg7) := W8_of_ne m ρ c main_arg7 (by decide)
    _ = W6 m ρ c (Proc.devRef .tc main_arg7) := by
          show StableHlo.after hostOps4 (W6 m ρ c) (Proc.devRef .tc main_arg7) = _; not_written hostOps4
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := by
          show StableHlo.after hostOps2 (W3 m ρ c) (Proc.devRef .tc main_arg7) = _; not_written hostOps2
    _ = W2 m ρ c (Proc.devRef .tc main_arg7) := W3_of_ne m ρ c main_arg7 (by decide)
    _ = W1 m ρ c (Proc.devRef .tc main_arg7) := by
          show StableHlo.after hostOps1 (W1 m ρ c) (Proc.devRef .tc main_arg7) = _; not_written hostOps1
    _ = W0 m ρ c (Proc.devRef .tc main_arg7) := W1_of_ne m ρ c main_arg7 (by decide)
    _ = m ((c : Thread nD τ).loc main_arg7) := rfl

/-! ## Region 6: the product -/

theorem W11_v46 : W11 m ρ c (Proc.devRef .tc main_v46)
    = Cert.Lib.PlainDot.mm (W10 m ρ c (Proc.devRef .tc main_v45)) (m ((c : Thread nD τ).loc main_arg6)) := by
  refine (W11_arr m ρ c 2).trans ((RegValue.final6 (V10 m ρ) c).trans ?_)
  show Cert.Lib.PlainDot.mm (W10 m ρ c (Proc.devRef .tc main_v45)) (W10 m ρ c (Proc.devRef .tc main_arg6)) = _
  rw [W10_arg6]

/-! ## The host stretch before the statistics: the bias as a row -/

theorem W12_v46 : W12 m ρ c (Proc.devRef .tc main_v46) = W11 m ρ c (Proc.devRef .tc main_v46) := by
  show StableHlo.after hostOps7 (W11 m ρ c) (Proc.devRef .tc main_v46) = _; not_written hostOps7

/-- What the stretch writes, whatever it finds: the bias vector as a row. -/
theorem v47_of (X : Valuation τ sig (Elt Ideal)) : StableHlo.after hostOps7 X (Proc.devRef .tc main_v47)
    = (shapeCast S1x20 (X (Proc.devRef .tc main_arg7)) shapeCasts_S20_S1x20 : FVec Ideal S1x20 .f32) := by
  after_results
  rfl

theorem W12_v47 : W12 m ρ c (Proc.devRef .tc main_v47)
    = (shapeCast S1x20 (m ((c : Thread nD τ).loc main_arg7)) shapeCasts_S20_S1x20 : FVec Ideal S1x20 .f32) := by
  refine (v47_of (W11 m ρ c)).trans ?_
  rw [W11_arg7]

/-! ## Region 7: the column statistics -/

/-- The biased product the statistics and the normalisation are taken of. -/
def hb3 : FVec Ideal S50000x20 .f32 :=
  addBias (W12 m ρ c (Proc.devRef .tc main_v46)) (fun k => W12 m ρ c (Proc.devRef .tc main_v47) (ix2 0 k))

theorem W13_v48_0 : W13 m ρ c (Proc.devRef .tc main_v48_0) = fun j => colSum (hb3 m ρ c) (col j) :=
  (W13_arr m ρ c 2).trans (RegValue.final7_sum (V12 m ρ) c)
theorem W13_v48_1 : W13 m ρ c (Proc.devRef .tc main_v48_1) = fun j => sqSum (hb3 m ρ c) (col j) :=
  (W13_arr m ρ c 3).trans (RegValue.final7_sq (V12 m ρ) c)
theorem W13_v46 : W13 m ρ c (Proc.devRef .tc main_v46) = W12 m ρ c (Proc.devRef .tc main_v46) :=
  (W13_arr m ρ c 0).trans (((dat7 (V12 m ρ) c).arrAt_in 0 rfl _).trans (A_eq7 (V12 m ρ) c 0))
theorem W13_v47 : W13 m ρ c (Proc.devRef .tc main_v47) = W12 m ρ c (Proc.devRef .tc main_v47) :=
  (W13_arr m ρ c 1).trans (((dat7 (V12 m ρ) c).arrAt_in 1 rfl _).trans (A_eq7 (V12 m ρ) c 1))

/-! ## The host stretch after the statistics: the mean and the variance -/

theorem W14_v46 : W14 m ρ c (Proc.devRef .tc main_v46) = W12 m ρ c (Proc.devRef .tc main_v46) :=
  (show StableHlo.after hostOps8 (W13 m ρ c) (Proc.devRef .tc main_v46) = W13 m ρ c (Proc.devRef .tc main_v46) by not_written hostOps8).trans (W13_v46 m ρ c)
theorem W14_v47 : W14 m ρ c (Proc.devRef .tc main_v47) = W12 m ρ c (Proc.devRef .tc main_v47) :=
  (show StableHlo.after hostOps8 (W13 m ρ c) (Proc.devRef .tc main_v47) = W13 m ρ c (Proc.devRef .tc main_v47) by not_written hostOps8).trans (W13_v47 m ρ c)

/-- The mean row the host stretch leaves, at a column: the column sum over the row count. -/
theorem v50_of (X : Valuation τ sig (Elt Ideal)) (k : Fin 20) :
    StableHlo.after hostOps8 X (Proc.devRef .tc main_v50) (ix2 0 k)
      = Ideal.div (X (Proc.devRef .tc main_v48_0) (ix2 0 k)) cnt := by
  after_results
  rfl
/-- The variance row it leaves, at a column: the sum of squares over the row count, minus the squared mean. -/
theorem v54_of (X : Valuation τ sig (Elt Ideal)) (k : Fin 20) (μ : EReal)
    (hμ : StableHlo.after hostOps8 X (Proc.devRef .tc main_v50) (ix2 0 k) = μ) :
    StableHlo.after hostOps8 X (Proc.devRef .tc main_v54) (ix2 0 k)
      = Ideal.div (X (Proc.devRef .tc main_v48_1) (ix2 0 k)) cnt - μ * μ := by
  subst hμ
  after_results
  rfl

/-- The region's two statistics rows and the host's mean and variance rows, as functions into the extended reals. -/
abbrev sum3 : (⟨2, ![1, 20]⟩ : Shape).Idx → EReal := W13 m ρ c (Proc.devRef .tc main_v48_0)
abbrev sq3 : (⟨2, ![1, 20]⟩ : Shape).Idx → EReal := W13 m ρ c (Proc.devRef .tc main_v48_1)
abbrev mean3 : (⟨2, ![1, 20]⟩ : Shape).Idx → EReal := W14 m ρ c (Proc.devRef .tc main_v50)
abbrev var3 : (⟨2, ![1, 20]⟩ : Shape).Idx → EReal := W14 m ρ c (Proc.devRef .tc main_v54)

theorem mean3_eq (k : Fin 20) : mean3 m ρ c (ix2 0 k) = Ideal.div (sum3 m ρ c (ix2 0 k)) cnt :=
  v50_of (W13 m ρ c) k
theorem var3_eq (k : Fin 20) : var3 m ρ c (ix2 0 k)
    = Ideal.div (sq3 m ρ c (ix2 0 k)) cnt - mean3 m ρ c (ix2 0 k) * mean3 m ρ c (ix2 0 k) :=
  v54_of (W13 m ρ c) k _ rfl

/-! ## Region 8: the normalisation -/

theorem W15_v55 : W15 m ρ c (Proc.devRef .tc main_v55)
    = KNet.layer20 (W10 m ρ c (Proc.devRef .tc main_v45)) (m ((c : Thread nD τ).loc main_arg6)) (m ((c : Thread nD τ).loc main_arg7)) := by
  refine (W15_arr m ρ c 4).trans ((RegValue.final8 (V14 m ρ) c).trans ?_)
  show normalize (addBias (W14 m ρ c (Proc.devRef .tc main_v46)) (fun k => W14 m ρ c (Proc.devRef .tc main_v47) (ix2 0 k)))
      (fun k => mean3 m ρ c (ix2 0 k)) (fun k => var3 m ρ c (ix2 0 k)) = _
  rw [W14_v46, W14_v47]
  have hn := KNet.normalize_stats (hb3 m ρ c) (sum3 m ρ c) (sq3 m ρ c) (mean3 m ρ c) (var3 m ρ c)
    (W13_v48_0 m ρ c) (W13_v48_1 m ρ c) (mean3_eq m ρ c) (var3_eq m ρ c)
  unfold hb3 at hn
  rw [hn, W12_v46, W12_v47, W11_v46]
  rfl

end Cert.KernelIdeal.Chain

end
-- ==== Proof.RefRunOps.lean ====
/-
  The reference program as one straight line of host operations.

  Its `main` runs 174 operations in order: its own 94 and, at each of its five calls, the called routine's operations
  over that call's buffers (the variance routine's 19 followed by the 3 of the selection it calls; the rectifier
  routine's 6 followed by the 1 of the selection it calls).  A call of a routine is the routine's body at the call's
  operands and buffers, so the program and the line are the same sequence of steps.

  The line is cut where a layer hands a matrix on: after the bias (the matrix that is normalised), after the
  normalisation, after the rectifier.  For each of the eight stretches the buffers it writes are listed, in order; a
  buffer outside that list keeps its contents across the stretch.
-/
import proofs.«123476_j28346784153910_1_alg».proof.Proof.Gen.ReferenceIdeal
import Idealize.ShloMosaic.Lib.StableHlo.Run
import Idealize.ShloMosaic.Lib.Pipeline.Regions

noncomputable section

namespace Cert.ReferenceIdeal.RefRun

open Idealize.ShloMosaic Cert.ReferenceIdeal Cert.ReferenceIdeal.Facts₀ Idealize.ShloMosaic.TcCoe Idealize.SL.Sem
open Idealize.ShloMosaic.StableHlo

variable {F : FTy → Type} [FloatOps F]
variable [Cert.ReferenceIdeal.Facts]

/-- A buffer's singleton lies in the buffers of a list that holds it. -/
theorem single_sub_of_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- Layer 1 up to the bias: the product with the first weight, the aggregation along the edges, the bias. -/
abbrev agg1 : List (HloOp τ sig (Elt F)) :=
  [ StableHlo.binary main_arg0 main_arg2 main_v0 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg1 main_v1 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v2 (broadcastInDim S800000 ![] bcast_S_S800000 : (⟨S_, .i32⟩ : BufTy).Contents (Elt F) → (⟨S800000, .i32⟩ : BufTy).Contents (Elt F)),
    StableHlo.binary main_arg8 main_v2 main_v3 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v4 (broadcastInDim S800000 ![] bcast_S_S800000 : (⟨S_, .i32⟩ : BufTy).Contents (Elt F) → (⟨S800000, .i32⟩ : BufTy).Contents (Elt F)),
    StableHlo.binary main_arg8 main_v4 main_v5 (addi : (⟨S800000, .i32⟩ : BufTy).Contents (Elt F) → (⟨S800000, .i32⟩ : BufTy).Contents (Elt F) → (⟨S800000, .i32⟩ : BufTy).Contents (Elt F)),
    StableHlo.ternary main_v3 main_v5 main_arg8 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v6 main_v7 (broadcastInDim S800000x1 ![0] bcast_S800000_S800000x1_0 : (⟨S800000, .i32⟩ : BufTy).Contents (Elt F) → (⟨S800000x1, .i32⟩ : BufTy).Contents (Elt F)),
    StableHlo.binary main_v0 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v1 main_v9 (broadcastInDim S800000x128 ![0, 1] bcast_S800000x1_S800000x128_0_1 : (⟨S800000x1, .f32⟩ : BufTy).Contents (Elt F) → (⟨S800000x128, .f32⟩ : BufTy).Contents (Elt F)),
    StableHlo.binary main_v9 main_v8 main_v10 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_arg9 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg3 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v15 main_v16 (addf : (⟨S50000x128, .f32⟩ : BufTy).Contents (Elt F) → (⟨S50000x128, .f32⟩ : BufTy).Contents (Elt F) → (⟨S50000x128, .f32⟩ : BufTy).Contents (Elt F)) ]

/-- The buffers `agg1` writes, in order. -/
abbrev agg1_W : List (Ref sig .tc) :=
  [ main_v0, main_v1, main_c, main_v2, main_v3, main_c_0, main_v4, main_v5, main_v6, main_v7, main_v8, main_v9, main_v10, main_cst, main_v11, main_v12, main_v13, main_v14, main_v15, main_v16 ]

theorem agg1_sub : (agg1 (F := F)).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

theorem agg1_fresh : (agg1 (F := F)).Forall fun op => op.fresh = ∅ :=
  ⟨rfl, rfl, rfl, rfl, rfl, rfl, rfl, rfl, rfl, rfl, rfl, rfl, rfl, rfl, rfl, rfl, rfl, rfl, rfl, rfl⟩

theorem agg1_writes : (agg1 (F := F)).Forall fun op => op.writes ⊆ ((agg1_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `agg1` does not write keeps its contents across it. -/
theorem agg1_frame (V : Valuation τ sig (Elt F)) {r : Ref sig .tc} (hr : r ∉ agg1_W) :
    after agg1 V (Proc.devRef .tc r) = V (Proc.devRef .tc r) :=
  after_of_writes_sub agg1 V agg1_writes hr

/-- Layer 1's batch normalisation: the column means, the variance routine's operations over its own buffers, the normalised matrix. -/
abbrev norm1 : List (HloOp τ sig (Elt F)) :=
  [ StableHlo.nullary main_cst_1 (constant S_ .f32 0x00000000#32),
    StableHlo.binary main_v16 main_cst_1 main_v17 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v18 (broadcastInDim S128 ![] bcast_S_S128 : (⟨S_, .f32⟩ : BufTy).Contents (Elt F) → (⟨S128, .f32⟩ : BufTy).Contents (Elt F)),
    StableHlo.binary main_v17 main_v18 main_v19 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v16 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v16 : StableHlo.TRef sig ⟨S50000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v19 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v22 main_v23 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v24 (broadcastInDim S128 ![] bcast_S_S128 : (⟨S_, .f32⟩ : BufTy).Contents (Elt F) → (⟨S128, .f32⟩ : BufTy).Contents (Elt F)),
    StableHlo.binary main_v20 main_v24 main_v25 (addf : (⟨S128, .f32⟩ : BufTy).Contents (Elt F) → (⟨S128, .f32⟩ : BufTy).Contents (Elt F) → (⟨S128, .f32⟩ : BufTy).Contents (Elt F)),
    StableHlo.unary main_v25 main_v26 (Host.rsqrt : (⟨S128, .f32⟩ : BufTy).Contents (Elt F) → (⟨S128, .f32⟩ : BufTy).Contents (Elt F)),
    StableHlo.unary main_v26 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v28 main_v29 (mulf : (⟨S50000x128, .f32⟩ : BufTy).Contents (Elt F) → (⟨S50000x128, .f32⟩ : BufTy).Contents (Elt F) → (⟨S50000x128, .f32⟩ : BufTy).Contents (Elt F)) ]

/-- The buffers `norm1` writes, in order. -/
abbrev norm1_W : List (Ref sig .tc) :=
  [ main_cst_1, main_v17, main_cst_2, main_v18, main_v19, main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v21, main_v22, main_v23, main_cst_4, main_v24, main_v25, main_v26, main_v27, main_v28, main_v29 ]

theorem norm1_sub : (norm1 (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

theorem norm1_fresh : (norm1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem norm1_writes : (norm1 (F := F)).Forall fun op => op.writes ⊆ ((norm1_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `norm1` does not write keeps its contents across it. -/
theorem norm1_frame (V : Valuation τ sig (Elt F)) {r : Ref sig .tc} (hr : r ∉ norm1_W) :
    after norm1 V (Proc.devRef .tc r) = V (Proc.devRef .tc r) :=
  after_of_writes_sub norm1 V norm1_writes hr

/-- Layer 1's leaky rectifier: the slope literal and the rectifier routine's operations over its own buffers. -/
abbrev rect1 : List (HloOp τ sig (Elt F)) :=
  [ StableHlo.nullary main_cst_5 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v29 : StableHlo.TRef sig ⟨S50000x128, .f32⟩) main_call1.v0 main_call1.v1 (cmpf .oge),
    StableHlo.TRef.unary (.of main_cst_5 : StableHlo.TRef sig ⟨S_, .f32⟩) main_call1.v2 id,
    StableHlo.TRef.unary main_call1.v2 main_call1.v3 (broadcastInDim S50000x128 ![] bcast_S_S50000x128),
    StableHlo.TRef.binary main_call1.v3 (.of main_v29 : StableHlo.TRef sig ⟨S50000x128, .f32⟩) main_call1.v4 mulf,
    StableHlo.TRef.ternary main_call1.v1 (.of main_v29 : StableHlo.TRef sig ⟨S50000x128, .f32⟩) main_call1.v4 main_call1.call0.v0 select ]

/-- The buffers `rect1` writes, in order. -/
abbrev rect1_W : List (Ref sig .tc) :=
  [ main_cst_5, main_call1.cst.ref, main_call1.v0.ref, main_call1.v1.ref, main_call1.v2.ref, main_call1.v3.ref, main_call1.v4.ref, main_call1.call0.v0.ref ]

theorem rect1_sub : (rect1 (F := F)).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩

theorem rect1_fresh : (rect1 (F := F)).Forall fun op => op.fresh = ∅ :=
  ⟨rfl, rfl, rfl, rfl, rfl, rfl, rfl, rfl⟩

theorem rect1_writes : (rect1 (F := F)).Forall fun op => op.writes ⊆ ((rect1_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide)⟩

/-- A buffer `rect1` does not write keeps its contents across it. -/
theorem rect1_frame (V : Valuation τ sig (Elt F)) {r : Ref sig .tc} (hr : r ∉ rect1_W) :
    after rect1 V (Proc.devRef .tc r) = V (Proc.devRef .tc r) :=
  after_of_writes_sub rect1 V rect1_writes hr

/-- Layer 2 up to the bias: the product with the second weight, the aggregation along the edges, the bias. -/
abbrev agg2 : List (HloOp τ sig (Elt F)) :=
  [ StableHlo.binary main_v30 main_arg4 main_v31 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg1 main_v32 (broadcastInDim S800000x1 ![0] bcast_S800000_S800000x1_0 : (⟨S800000, .f32⟩ : BufTy).Contents (Elt F) → (⟨S800000x1, .f32⟩ : BufTy).Contents (Elt F)),
    StableHlo.nullary main_c_6 (constantI S_ 32 0#32),
    StableHlo.unary main_c_6 main_v33 (broadcastInDim S800000 ![] bcast_S_S800000 : (⟨S_, .i32⟩ : BufTy).Contents (Elt F) → (⟨S800000, .i32⟩ : BufTy).Contents (Elt F)),
    StableHlo.binary main_arg8 main_v33 main_v34 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v35 (broadcastInDim S800000 ![] bcast_S_S800000 : (⟨S_, .i32⟩ : BufTy).Contents (Elt F) → (⟨S800000, .i32⟩ : BufTy).Contents (Elt F)),
    StableHlo.binary main_arg8 main_v35 main_v36 (addi : (⟨S800000, .i32⟩ : BufTy).Contents (Elt F) → (⟨S800000, .i32⟩ : BufTy).Contents (Elt F) → (⟨S800000, .i32⟩ : BufTy).Contents (Elt F)),
    StableHlo.ternary main_v34 main_v36 main_arg8 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v37 main_v38 (broadcastInDim S800000x1 ![0] bcast_S800000_S800000x1_0 : (⟨S800000, .i32⟩ : BufTy).Contents (Elt F) → (⟨S800000x1, .i32⟩ : BufTy).Contents (Elt F)),
    StableHlo.binary main_v31 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v32 main_v40 (broadcastInDim S800000x64 ![0, 1] bcast_S800000x1_S800000x64_0_1 : (⟨S800000x1, .f32⟩ : BufTy).Contents (Elt F) → (⟨S800000x64, .f32⟩ : BufTy).Contents (Elt F)),
    StableHlo.binary main_v40 main_v39 main_v41 (mulf : (⟨S800000x64, .f32⟩ : BufTy).Contents (Elt F) → (⟨S800000x64, .f32⟩ : BufTy).Contents (Elt F) → (⟨S800000x64, .f32⟩ : BufTy).Contents (Elt F)),
    StableHlo.nullary main_cst_8 (constant S_ .f32 0x00000000#32),
    StableHlo.unary main_cst_8 main_v42 (broadcastInDim S50000x64 ![] bcast_S_S50000x64 : (⟨S_, .f32⟩ : BufTy).Contents (Elt F) → (⟨S50000x64, .f32⟩ : BufTy).Contents (Elt F)),
    StableHlo.unary main_arg9 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v41 main_v44 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg5 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v46 main_v47 (addf : (⟨S50000x64, .f32⟩ : BufTy).Contents (Elt F) → (⟨S50000x64, .f32⟩ : BufTy).Contents (Elt F) → (⟨S50000x64, .f32⟩ : BufTy).Contents (Elt F)) ]

/-- The buffers `agg2` writes, in order. -/
abbrev agg2_W : List (Ref sig .tc) :=
  [ main_v31, main_v32, main_c_6, main_v33, main_v34, main_c_7, main_v35, main_v36, main_v37, main_v38, main_v39, main_v40, main_v41, main_cst_8, main_v42, main_v43, main_v44, main_v45, main_v46, main_v47 ]

theorem agg2_sub : (agg2 (F := F)).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

theorem agg2_fresh : (agg2 (F := F)).Forall fun op => op.fresh = ∅ :=
  ⟨rfl, rfl, rfl, rfl, rfl, rfl, rfl, rfl, rfl, rfl, rfl, rfl, rfl, rfl, rfl, rfl, rfl, rfl, rfl, rfl⟩

theorem agg2_writes : (agg2 (F := F)).Forall fun op => op.writes ⊆ ((agg2_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `agg2` does not write keeps its contents across it. -/
theorem agg2_frame (V : Valuation τ sig (Elt F)) {r : Ref sig .tc} (hr : r ∉ agg2_W) :
    after agg2 V (Proc.devRef .tc r) = V (Proc.devRef .tc r) :=
  after_of_writes_sub agg2 V agg2_writes hr

/-- Layer 2's batch normalisation. -/
abbrev norm2 : List (HloOp τ sig (Elt F)) :=
  [ StableHlo.nullary main_cst_9 (constant S_ .f32 0x00000000#32),
    StableHlo.binary main_v47 main_cst_9 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary (.of main_v47 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v47 : StableHlo.TRef sig ⟨S50000x64, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v53 main_v54 (subf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.rsqrt : (⟨S64, .f32⟩ : BufTy).Contents (Elt F) → (⟨S64, .f32⟩ : BufTy).Contents (Elt F)),
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v54 main_v59 main_v60 (mulf : (⟨S50000x64, .f32⟩ : BufTy).Contents (Elt F) → (⟨S50000x64, .f32⟩ : BufTy).Contents (Elt F) → (⟨S50000x64, .f32⟩ : BufTy).Contents (Elt F)) ]

/-- The buffers `norm2` writes, in order. -/
abbrev norm2_W : List (Ref sig .tc) :=
  [ main_cst_9, main_v48, main_cst_10, main_v49, main_v50, main_c_11, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v52, main_v53, main_v54, main_cst_12, main_v55, main_v56, main_v57, main_v58, main_v59, main_v60 ]

theorem norm2_sub : (norm2 (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

theorem norm2_fresh : (norm2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem norm2_writes : (norm2 (F := F)).Forall fun op => op.writes ⊆ ((norm2_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `norm2` does not write keeps its contents across it. -/
theorem norm2_frame (V : Valuation τ sig (Elt F)) {r : Ref sig .tc} (hr : r ∉ norm2_W) :
    after norm2 V (Proc.devRef .tc r) = V (Proc.devRef .tc r) :=
  after_of_writes_sub norm2 V norm2_writes hr

/-- Layer 2's leaky rectifier. -/
abbrev rect2 : List (HloOp τ sig (Elt F)) :=
  [ StableHlo.nullary main_cst_13 (constant S_ .f32 0x3C23D70A#32),
    StableHlo.TRef.nullary main_call3.cst (constant S_ .f32 0x00000000#32),
    StableHlo.TRef.unary main_call3.cst main_call3.v0 (broadcastInDim S50000x64 ![] bcast_S_S50000x64),
    StableHlo.TRef.binary (.of main_v60 : StableHlo.TRef sig ⟨S50000x64, .f32⟩) main_call3.v0 main_call3.v1 (cmpf .oge),
    StableHlo.TRef.unary (.of main_cst_13 : StableHlo.TRef sig ⟨S_, .f32⟩) main_call3.v2 id,
    StableHlo.TRef.unary main_call3.v2 main_call3.v3 (broadcastInDim S50000x64 ![] bcast_S_S50000x64),
    StableHlo.TRef.binary main_call3.v3 (.of main_v60 : StableHlo.TRef sig ⟨S50000x64, .f32⟩) main_call3.v4 mulf,
    StableHlo.TRef.ternary main_call3.v1 (.of main_v60 : StableHlo.TRef sig ⟨S50000x64, .f32⟩) main_call3.v4 main_call3.call0.v0 select ]

/-- The buffers `rect2` writes, in order. -/
abbrev rect2_W : List (Ref sig .tc) :=
  [ main_cst_13, main_call3.cst.ref, main_call3.v0.ref, main_call3.v1.ref, main_call3.v2.ref, main_call3.v3.ref, main_call3.v4.ref, main_call3.call0.v0.ref ]

theorem rect2_sub : (rect2 (F := F)).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩

theorem rect2_fresh : (rect2 (F := F)).Forall fun op => op.fresh = ∅ :=
  ⟨rfl, rfl, rfl, rfl, rfl, rfl, rfl, rfl⟩

theorem rect2_writes : (rect2 (F := F)).Forall fun op => op.writes ⊆ ((rect2_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide)⟩

/-- A buffer `rect2` does not write keeps its contents across it. -/
theorem rect2_frame (V : Valuation τ sig (Elt F)) {r : Ref sig .tc} (hr : r ∉ rect2_W) :
    after rect2 V (Proc.devRef .tc r) = V (Proc.devRef .tc r) :=
  after_of_writes_sub rect2 V rect2_writes hr

/-- The last layer up to the bias: the product with the last weight, the bias. -/
abbrev lin3 : List (HloOp τ sig (Elt F)) :=
  [ StableHlo.binary main_v61 main_arg6 main_v62 ((fun l r => Host.dotGeneral dot_S50000x64_S64x20_S50000x20_1_0_0_1_n_n none l r) : (⟨S50000x64, .f32⟩ : BufTy).Contents (Elt F) → (⟨S64x20, .f32⟩ : BufTy).Contents (Elt F) → (⟨S50000x20, .f32⟩ : BufTy).Contents (Elt F)),
    StableHlo.unary main_arg7 main_v63 (broadcastInDim S1x20 ![1] bcast_S20_S1x20_1 : (⟨S20, .f32⟩ : BufTy).Contents (Elt F) → (⟨S1x20, .f32⟩ : BufTy).Contents (Elt F)),
    StableHlo.unary main_v63 main_v64 (broadcastInDim S50000x20 ![0, 1] bcast_S1x20_S50000x20_0_1 : (⟨S1x20, .f32⟩ : BufTy).Contents (Elt F) → (⟨S50000x20, .f32⟩ : BufTy).Contents (Elt F)),
    StableHlo.binary main_v62 main_v64 main_v65 (addf : (⟨S50000x20, .f32⟩ : BufTy).Contents (Elt F) → (⟨S50000x20, .f32⟩ : BufTy).Contents (Elt F) → (⟨S50000x20, .f32⟩ : BufTy).Contents (Elt F)) ]

/-- The buffers `lin3` writes, in order. -/
abbrev lin3_W : List (Ref sig .tc) :=
  [ main_v62, main_v63, main_v64, main_v65 ]

theorem lin3_sub : (lin3 (F := F)).Forall fun op => op.bufs ⊆ tcRefs τ sig :=
  ⟨binary_bufs_sub .., unary_bufs_sub .., unary_bufs_sub .., binary_bufs_sub ..⟩

theorem lin3_fresh : (lin3 (F := F)).Forall fun op => op.fresh = ∅ :=
  ⟨rfl, rfl, rfl, rfl⟩

theorem lin3_writes : (lin3 (F := F)).Forall fun op => op.writes ⊆ ((lin3_W).map (Proc.devRef (τ := τ) .tc)).toFinset :=
  ⟨single_sub_of_mem (by decide), single_sub_of_mem (by decide), single_sub_of_mem (by decide), single_sub_of_mem (by decide)⟩

/-- A buffer `lin3` does not write keeps its contents across it. -/
theorem lin3_frame (V : Valuation τ sig (Elt F)) {r : Ref sig .tc} (hr : r ∉ lin3_W) :
    after lin3 V (Proc.devRef .tc r) = V (Proc.devRef .tc r) :=
  after_of_writes_sub lin3 V lin3_writes hr

/-- The last layer's batch normalisation. -/
abbrev norm3 : List (HloOp τ sig (Elt F)) :=
  [ StableHlo.nullary main_cst_14 (constant S_ .f32 0x00000000#32),
    StableHlo.binary main_v65 main_cst_14 main_v66 ((fun x v => Host.reduceAdd x v reducesTo_S50000x20_S20_d0 h_S_) : (⟨S50000x20, .f32⟩ : BufTy).Contents (Elt F) → (⟨S_, .f32⟩ : BufTy).Contents (Elt F) → (⟨S20, .f32⟩ : BufTy).Contents (Elt F)),
    StableHlo.nullary main_cst_15 (constant S_ .f32 0x47435000#32),
    StableHlo.unary main_cst_15 main_v67 (broadcastInDim S20 ![] bcast_S_S20 : (⟨S_, .f32⟩ : BufTy).Contents (Elt F) → (⟨S20, .f32⟩ : BufTy).Contents (Elt F)),
    StableHlo.binary main_v66 main_v67 main_v68 (Host.divf : (⟨S20, .f32⟩ : BufTy).Contents (Elt F) → (⟨S20, .f32⟩ : BufTy).Contents (Elt F) → (⟨S20, .f32⟩ : BufTy).Contents (Elt F)),
    StableHlo.nullary main_c_16 (constantI S_ 32 0#32),
    StableHlo.TRef.nullary main_call4.cst (constant S_ .f32 0x00000000#32),
    StableHlo.TRef.binary (.of main_v65 : StableHlo.TRef sig ⟨S50000x20, .f32⟩) main_call4.cst main_call4.v0 (fun x v => Host.reduceAdd x v reducesTo_S50000x20_S20_d0 h_S_),
    StableHlo.TRef.unary main_call4.v0 main_call4.v1 (broadcastInDim S1x20 ![1] bcast_S20_S1x20_1),
    StableHlo.TRef.nullary main_call4.cst_0 (constant S_ .f32 0x47435000#32),
    StableHlo.TRef.unary main_call4.cst_0 main_call4.v2 (broadcastInDim S1x20 ![] bcast_S_S1x20),
    StableHlo.TRef.binary main_call4.v1 main_call4.v2 main_call4.v3 Host.divf,
    StableHlo.TRef.unary main_call4.v3 main_call4.v4 (broadcastInDim S50000x20 ![0, 1] bcast_S1x20_S50000x20_0_1),
    StableHlo.TRef.binary (.of main_v65 : StableHlo.TRef sig ⟨S50000x20, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x20_S20_d0 h_S_),
    StableHlo.TRef.unary main_call4.v8 main_call4.v10 (broadcastInDim S20 ![] bcast_S_S20),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S20 ![] bcast_S_S20),
    StableHlo.TRef.ternary main_call4.v12 main_call4.v11 main_call4.call0.v1 main_call4.call0.v2 (fun p a b => select (broadcastInDim S20 ![] bcast_S_S20 p) a b),
    StableHlo.unary main_v68 main_v70 (broadcastInDim S1x20 ![1] bcast_S20_S1x20_1 : (⟨S20, .f32⟩ : BufTy).Contents (Elt F) → (⟨S1x20, .f32⟩ : BufTy).Contents (Elt F)),
    StableHlo.unary main_v70 main_v71 (broadcastInDim S50000x20 ![0, 1] bcast_S1x20_S50000x20_0_1 : (⟨S1x20, .f32⟩ : BufTy).Contents (Elt F) → (⟨S50000x20, .f32⟩ : BufTy).Contents (Elt F)),
    StableHlo.binary main_v65 main_v71 main_v72 (subf : (⟨S50000x20, .f32⟩ : BufTy).Contents (Elt F) → (⟨S50000x20, .f32⟩ : BufTy).Contents (Elt F) → (⟨S50000x20, .f32⟩ : BufTy).Contents (Elt F)),
    StableHlo.nullary main_cst_17 (constant S_ .f32 0x3727C5AC#32),
    StableHlo.unary main_cst_17 main_v73 (broadcastInDim S20 ![] bcast_S_S20 : (⟨S_, .f32⟩ : BufTy).Contents (Elt F) → (⟨S20, .f32⟩ : BufTy).Contents (Elt F)),
    StableHlo.binary main_v69 main_v73 main_v74 (addf : (⟨S20, .f32⟩ : BufTy).Contents (Elt F) → (⟨S20, .f32⟩ : BufTy).Contents (Elt F) → (⟨S20, .f32⟩ : BufTy).Contents (Elt F)),
    StableHlo.unary main_v74 main_v75 (Host.rsqrt : (⟨S20, .f32⟩ : BufTy).Contents (Elt F) → (⟨S20, .f32⟩ : BufTy).Contents (Elt F)),
    StableHlo.unary main_v75 main_v76 (broadcastInDim S1x20 ![1] bcast_S20_S1x20_1 : (⟨S20, .f32⟩ : BufTy).Contents (Elt F) → (⟨S1x20, .f32⟩ : BufTy).Contents (Elt F)),
    StableHlo.unary main_v76 main_v77 (broadcastInDim S50000x20 ![0, 1] bcast_S1x20_S50000x20_0_1 : (⟨S1x20, .f32⟩ : BufTy).Contents (Elt F) → (⟨S50000x20, .f32⟩ : BufTy).Contents (Elt F)),
    StableHlo.binary main_v72 main_v77 main_v78 (mulf : (⟨S50000x20, .f32⟩ : BufTy).Contents (Elt F) → (⟨S50000x20, .f32⟩ : BufTy).Contents (Elt F) → (⟨S50000x20, .f32⟩ : BufTy).Contents (Elt F)) ]

/-- The buffers `norm3` writes, in order. -/
abbrev norm3_W : List (Ref sig .tc) :=
  [ main_cst_14, main_v66, main_cst_15, main_v67, main_v68, main_c_16, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v70, main_v71, main_v72, main_cst_17, main_v73, main_v74, main_v75, main_v76, main_v77, main_v78 ]

theorem norm3_sub : (norm3 (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

theorem norm3_fresh : (norm3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem norm3_writes : (norm3 (F := F)).Forall fun op => op.writes ⊆ ((norm3_W).map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer `norm3` does not write keeps its contents across it. -/
theorem norm3_frame (V : Valuation τ sig (Elt F)) {r : Ref sig .tc} (hr : r ∉ norm3_W) :
    after norm3 V (Proc.devRef .tc r) = V (Proc.devRef .tc r) :=
  after_of_writes_sub norm3 V norm3_writes hr

/-- The whole line: the eight stretches in order. -/
abbrev ops : List (HloOp τ sig (Elt F)) := agg1 ++ norm1 ++ rect1 ++ agg2 ++ norm2 ++ rect2 ++ lin3 ++ norm3

theorem ops_sub : (ops (F := F)).Forall fun op => op.bufs ⊆ tcRefs τ sig := by
  simp only [ops, List.forall_append]
  exact ⟨⟨⟨⟨⟨⟨⟨agg1_sub, norm1_sub⟩, rect1_sub⟩, agg2_sub⟩, norm2_sub⟩, rect2_sub⟩, lin3_sub⟩, norm3_sub⟩

theorem ops_fresh : ∀ op ∈ ops (F := F), op.fresh = ∅ := by
  refine List.forall_iff_forall_mem.1 ?_
  simp only [ops, List.forall_append]
  exact ⟨⟨⟨⟨⟨⟨⟨agg1_fresh, norm1_fresh⟩, rect1_fresh⟩, agg2_fresh⟩, norm2_fresh⟩, rect2_fresh⟩, lin3_fresh⟩, norm3_fresh⟩

/-- The program is that line: each call is the called routine's body at the call's operands and buffers, and both sides
    are then the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefTerm.lean ====
/-
  The reference program's result as a term: its host operations composed, stage by stage, in the order the program
  runs them.  A layer is: the matrix product with the layer's weight, the sparse aggregation along the edges, the bias,
  batch normalisation over the 50000 rows, the leaky rectifier; the last layer has no aggregation and no rectifier.
-/
import proofs.«123476_j28346784153910_1_alg».proof.Proof.Gen.ReferenceIdeal
import Idealize.ShloMosaic.PureOps.Ideal

noncomputable section

namespace Cert.ReferenceIdeal.RefTerm

open Idealize.ShloMosaic Cert.ReferenceIdeal Cert.ReferenceIdeal.Facts₀

variable [Cert.ReferenceIdeal.Facts]

/-- The variance routine's divisor: 50000 minus the degrees-of-freedom correction 0 (an integer made a float). -/
def dof : FVec Ideal S_ .f32 :=
  subf (constant (F := Ideal) S_ .f32 0x47435000#32) (sitofp .f32 (constantI S_ 32 0#32))

/-! ### Width 128 -/

/-- The sparse aggregation of a [50000, 128] feature matrix: every edge's weight times its source row, added into its
    destination row of a zero matrix (a negative source index first wrapped by 50000). -/
def spmm128 (feat : FVec Ideal S50000x128 .f32) (w : FVec Ideal S800000 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A bias vector added to every row. -/
def bias128 (s : FVec Ideal S50000x128 .f32) (b : FVec Ideal S128 .f32) : FVec Ideal S50000x128 .f32 :=
  addf s (broadcastInDim S50000x128 ![0, 1] bcast_S1x128_S50000x128_0_1 (broadcastInDim S1x128 ![1] bcast_S128_S1x128_1 b))

/-- The column means: the column sums from zero, divided by 50000. -/
def mean128 (h : FVec Ideal S50000x128 .f32) : FVec Ideal S128 .f32 :=
  Host.divf (Host.reduceAdd h (constant (F := Ideal) S_ .f32 0x00000000#32) reducesTo_S50000x128_S128_d0 h_S_)
    (broadcastInDim S128 ![] bcast_S_S128 (constant (F := Ideal) S_ .f32 0x47435000#32))

/-- The deviations from the column means, as the variance routine computes them (the means kept as a [1, 128] row). -/
def dev128 (h : FVec Ideal S50000x128 .f32) : FVec Ideal S50000x128 .f32 :=
  subf h (broadcastInDim S50000x128 ![0, 1] bcast_S1x128_S50000x128_0_1
    (Host.divf (broadcastInDim S1x128 ![1] bcast_S128_S1x128_1
        (Host.reduceAdd h (constant (F := Ideal) S_ .f32 0x00000000#32) reducesTo_S50000x128_S128_d0 h_S_))
      (broadcastInDim S1x128 ![] bcast_S_S1x128 (constant (F := Ideal) S_ .f32 0x47435000#32))))

/-- The column variances: the column sums of the squared deviations divided by the divisor, kept where the divisor is
    positive (elsewhere the not-a-number literal). -/
def var128 (h : FVec Ideal S50000x128 .f32) : FVec Ideal S128 .f32 :=
  select (broadcastInDim S128 ![] bcast_S_S128 (cmpf .ogt dof (constant (F := Ideal) S_ .f32 0x00000000#32)))
    (Host.divf (Host.reduceAdd (mulf (dev128 h) (dev128 h)) (constant (F := Ideal) S_ .f32 0x00000000#32) reducesTo_S50000x128_S128_d0 h_S_)
      (broadcastInDim S128 ![] bcast_S_S128 dof))
    (broadcastInDim S128 ![] bcast_S_S128 (id (constant (F := Ideal) S_ .f32 0x7FC00000#32)))

/-- Batch normalisation: every column minus its mean, times the reciprocal square root of its variance plus the offset. -/
def bn128 (h : FVec Ideal S50000x128 .f32) : FVec Ideal S50000x128 .f32 :=
  mulf (subf h (broadcastInDim S50000x128 ![0, 1] bcast_S1x128_S50000x128_0_1 (broadcastInDim S1x128 ![1] bcast_S128_S1x128_1 (mean128 h))))
    (broadcastInDim S50000x128 ![0, 1] bcast_S1x128_S50000x128_0_1 (broadcastInDim S1x128 ![1] bcast_S128_S1x128_1
      (Host.rsqrt (addf (var128 h) (broadcastInDim S128 ![] bcast_S_S128 (constant (F := Ideal) S_ .f32 0x3727C5AC#32))))))

/-- The leaky rectifier: an entry kept where it is at least zero, multiplied by the slope literal elsewhere. -/
def leaky128 (y : FVec Ideal S50000x128 .f32) : FVec Ideal S50000x128 .f32 :=
  select (cmpf .oge y (broadcastInDim S50000x128 ![] bcast_S_S50000x128 (constant (F := Ideal) S_ .f32 0x00000000#32))) y
    (mulf (broadcastInDim S50000x128 ![] bcast_S_S50000x128 (id (constant (F := Ideal) S_ .f32 0x3C23D70A#32))) y)

/-! ### Width 64 -/

/-- The sparse aggregation of a [50000, 64] feature matrix: every edge's weight times its source row, added into its
    destination row of a zero matrix (a negative source index first wrapped by 50000). -/
def spmm64 (feat : FVec Ideal S50000x64 .f32) (w : FVec Ideal S800000 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (broadcastInDim S800000x64 ![0, 1] bcast_S800000x1_S800000x64_0_1 (broadcastInDim S800000x1 ![0] bcast_S800000_S800000x1_0 w))
      (Host.gather gather_S50000x64_S800000x1_S800000x64_1_0_n_n_0_1_164 feat
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A bias vector added to every row. -/
def bias64 (s : FVec Ideal S50000x64 .f32) (b : FVec Ideal S64 .f32) : FVec Ideal S50000x64 .f32 :=
  addf s (broadcastInDim S50000x64 ![0, 1] bcast_S1x64_S50000x64_0_1 (broadcastInDim S1x64 ![1] bcast_S64_S1x64_1 b))

/-- The column means: the column sums from zero, divided by 50000. -/
def mean64 (h : FVec Ideal S50000x64 .f32) : FVec Ideal S64 .f32 :=
  Host.divf (Host.reduceAdd h (constant (F := Ideal) S_ .f32 0x00000000#32) reducesTo_S50000x64_S64_d0 h_S_)
    (broadcastInDim S64 ![] bcast_S_S64 (constant (F := Ideal) S_ .f32 0x47435000#32))

/-- The deviations from the column means, as the variance routine computes them (the means kept as a [1, 64] row). -/
def dev64 (h : FVec Ideal S50000x64 .f32) : FVec Ideal S50000x64 .f32 :=
  subf h (broadcastInDim S50000x64 ![0, 1] bcast_S1x64_S50000x64_0_1
    (Host.divf (broadcastInDim S1x64 ![1] bcast_S64_S1x64_1
        (Host.reduceAdd h (constant (F := Ideal) S_ .f32 0x00000000#32) reducesTo_S50000x64_S64_d0 h_S_))
      (broadcastInDim S1x64 ![] bcast_S_S1x64 (constant (F := Ideal) S_ .f32 0x47435000#32))))

/-- The column variances: the column sums of the squared deviations divided by the divisor, kept where the divisor is
    positive (elsewhere the not-a-number literal). -/
def var64 (h : FVec Ideal S50000x64 .f32) : FVec Ideal S64 .f32 :=
  select (broadcastInDim S64 ![] bcast_S_S64 (cmpf .ogt dof (constant (F := Ideal) S_ .f32 0x00000000#32)))
    (Host.divf (Host.reduceAdd (mulf (dev64 h) (dev64 h)) (constant (F := Ideal) S_ .f32 0x00000000#32) reducesTo_S50000x64_S64_d0 h_S_)
      (broadcastInDim S64 ![] bcast_S_S64 dof))
    (broadcastInDim S64 ![] bcast_S_S64 (id (constant (F := Ideal) S_ .f32 0x7FC00000#32)))

/-- Batch normalisation: every column minus its mean, times the reciprocal square root of its variance plus the offset. -/
def bn64 (h : FVec Ideal S50000x64 .f32) : FVec Ideal S50000x64 .f32 :=
  mulf (subf h (broadcastInDim S50000x64 ![0, 1] bcast_S1x64_S50000x64_0_1 (broadcastInDim S1x64 ![1] bcast_S64_S1x64_1 (mean64 h))))
    (broadcastInDim S50000x64 ![0, 1] bcast_S1x64_S50000x64_0_1 (broadcastInDim S1x64 ![1] bcast_S64_S1x64_1
      (Host.rsqrt (addf (var64 h) (broadcastInDim S64 ![] bcast_S_S64 (constant (F := Ideal) S_ .f32 0x3727C5AC#32))))))

/-- The leaky rectifier: an entry kept where it is at least zero, multiplied by the slope literal elsewhere. -/
def leaky64 (y : FVec Ideal S50000x64 .f32) : FVec Ideal S50000x64 .f32 :=
  select (cmpf .oge y (broadcastInDim S50000x64 ![] bcast_S_S50000x64 (constant (F := Ideal) S_ .f32 0x00000000#32))) y
    (mulf (broadcastInDim S50000x64 ![] bcast_S_S50000x64 (id (constant (F := Ideal) S_ .f32 0x3C23D70A#32))) y)

/-- A bias vector added to every row. -/
def bias20 (s : FVec Ideal S50000x20 .f32) (b : FVec Ideal S20 .f32) : FVec Ideal S50000x20 .f32 :=
  addf s (broadcastInDim S50000x20 ![0, 1] bcast_S1x20_S50000x20_0_1 (broadcastInDim S1x20 ![1] bcast_S20_S1x20_1 b))

/-- The column means: the column sums from zero, divided by 50000. -/
def mean20 (h : FVec Ideal S50000x20 .f32) : FVec Ideal S20 .f32 :=
  Host.divf (Host.reduceAdd h (constant (F := Ideal) S_ .f32 0x00000000#32) reducesTo_S50000x20_S20_d0 h_S_)
    (broadcastInDim S20 ![] bcast_S_S20 (constant (F := Ideal) S_ .f32 0x47435000#32))

/-- The deviations from the column means, as the variance routine computes them (the means kept as a [1, 20] row). -/
def dev20 (h : FVec Ideal S50000x20 .f32) : FVec Ideal S50000x20 .f32 :=
  subf h (broadcastInDim S50000x20 ![0, 1] bcast_S1x20_S50000x20_0_1
    (Host.divf (broadcastInDim S1x20 ![1] bcast_S20_S1x20_1
        (Host.reduceAdd h (constant (F := Ideal) S_ .f32 0x00000000#32) reducesTo_S50000x20_S20_d0 h_S_))
      (broadcastInDim S1x20 ![] bcast_S_S1x20 (constant (F := Ideal) S_ .f32 0x47435000#32))))

/-- The column variances: the column sums of the squared deviations divided by the divisor, kept where the divisor is
    positive (elsewhere the not-a-number literal). -/
def var20 (h : FVec Ideal S50000x20 .f32) : FVec Ideal S20 .f32 :=
  select (broadcastInDim S20 ![] bcast_S_S20 (cmpf .ogt dof (constant (F := Ideal) S_ .f32 0x00000000#32)))
    (Host.divf (Host.reduceAdd (mulf (dev20 h) (dev20 h)) (constant (F := Ideal) S_ .f32 0x00000000#32) reducesTo_S50000x20_S20_d0 h_S_)
      (broadcastInDim S20 ![] bcast_S_S20 dof))
    (broadcastInDim S20 ![] bcast_S_S20 (id (constant (F := Ideal) S_ .f32 0x7FC00000#32)))

/-- Batch normalisation: every column minus its mean, times the reciprocal square root of its variance plus the offset. -/
def bn20 (h : FVec Ideal S50000x20 .f32) : FVec Ideal S50000x20 .f32 :=
  mulf (subf h (broadcastInDim S50000x20 ![0, 1] bcast_S1x20_S50000x20_0_1 (broadcastInDim S1x20 ![1] bcast_S20_S1x20_1 (mean20 h))))
    (broadcastInDim S50000x20 ![0, 1] bcast_S1x20_S50000x20_0_1 (broadcastInDim S1x20 ![1] bcast_S20_S1x20_1
      (Host.rsqrt (addf (var20 h) (broadcastInDim S20 ![] bcast_S_S20 (constant (F := Ideal) S_ .f32 0x3727C5AC#32))))))

/-- The reference's result of the ten argument arrays. -/
def out (x : FVec Ideal S50000x256 .f32) (w : FVec Ideal S800000 .f32) (W1 : FVec Ideal S256x128 .f32) (b1 : FVec Ideal S128 .f32)
    (W2 : FVec Ideal S128x64 .f32) (b2 : FVec Ideal S64 .f32) (Wl : FVec Ideal S64x20 .f32) (bl : FVec Ideal S20 .f32)
    (src dst : IVec S800000 32) : FVec Ideal S50000x20 .f32 :=
  bn20 (bias20
    (Host.dotGeneral dot_S50000x64_S64x20_S50000x20_1_0_0_1_n_n none
      (leaky64 (bn64 (bias64 (spmm64
        (Host.dotGeneral dot_S50000x128_S128x64_S50000x64_1_0_0_1_n_n none
          (leaky128 (bn128 (bias128 (spmm128
            (Host.dotGeneral dot_S50000x256_S256x128_S50000x128_1_0_0_1_n_n none x W1) w src dst) b1))) W2)
        w src dst) b2))) Wl) bl)

end Cert.ReferenceIdeal.RefTerm

end
-- ==== Proof.RefRun.lean ====
/-
  The run of the reference program, read back as a term of its arguments.

  The program is a straight line of 174 host operations (the module of the operations).  Every weakly fair execution of
  it terminates with each buffer at the fold of the operations' results over the launch contents.  The fold is computed
  stretch by stretch: each stretch's output buffer holds the matching stage of the reference's result (the biased
  aggregation, the batch normalisation, the leaky rectifier) of the buffers the stretch reads, and no stretch writes an
  argument or a buffer a later stretch still reads.  Composed, the result buffer holds the reference's result of the
  ten argument arrays, and the arguments are unchanged.
-/
import proofs.«123476_j28346784153910_1_alg».proof.Proof.RefRunOps
import proofs.«123476_j28346784153910_1_alg».proof.Proof.RefTerm

noncomputable section

namespace Cert.ReferenceIdeal.RefRun

open Idealize.ShloMosaic Cert.ReferenceIdeal Cert.ReferenceIdeal.Facts₀ Idealize.ShloMosaic.TcCoe Idealize.SL.Sem
open Idealize.ShloMosaic.StableHlo

variable [Cert.ReferenceIdeal.Facts]

/-- The contents after two lists run in order. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-! ## Each stretch's output -/

/-- After the first stretch the biased matrix of layer 1 is the product, aggregated along the edges, plus the bias. -/
theorem agg1_out (V : Valuation τ sig (Elt Ideal)) :
    after (agg1 (F := Ideal)) V (Proc.devRef .tc main_v16)
      = RefTerm.bias128 (RefTerm.spmm128 (Host.dotGeneral (φ₁ := .f32) (φ₂ := .f32) dot_S50000x256_S256x128_S50000x128_1_0_0_1_n_n none (V (Proc.devRef .tc main_arg0)) (V (Proc.devRef .tc main_arg2))) (V (Proc.devRef .tc main_arg1)) (V (Proc.devRef .tc main_arg8)) (V (Proc.devRef .tc main_arg9))) (V (Proc.devRef .tc main_arg3)) := by
  after_results_simp
  rfl

/-- After the second stretch the normalised matrix of layer 1 is the batch normalisation of the biased one. -/
theorem norm1_out (V : Valuation τ sig (Elt Ideal)) :
    after (norm1 (F := Ideal)) V (Proc.devRef .tc main_v29)
      = RefTerm.bn128 (V (Proc.devRef .tc main_v16)) := by
  after_results_simp
  rfl

/-- After the third stretch layer 1's output is the leaky rectifier of the normalised matrix. -/
theorem rect1_out (V : Valuation τ sig (Elt Ideal)) :
    after (rect1 (F := Ideal)) V (Proc.devRef .tc main_v30)
      = RefTerm.leaky128 (V (Proc.devRef .tc main_v29)) := by
  after_results_simp
  rfl

/-- The biased matrix of layer 2, of layer 1's output. -/
theorem agg2_out (V : Valuation τ sig (Elt Ideal)) :
    after (agg2 (F := Ideal)) V (Proc.devRef .tc main_v47)
      = RefTerm.bias64 (RefTerm.spmm64 (Host.dotGeneral (φ₁ := .f32) (φ₂ := .f32) dot_S50000x128_S128x64_S50000x64_1_0_0_1_n_n none (V (Proc.devRef .tc main_v30)) (V (Proc.devRef .tc main_arg4))) (V (Proc.devRef .tc main_arg1)) (V (Proc.devRef .tc main_arg8)) (V (Proc.devRef .tc main_arg9))) (V (Proc.devRef .tc main_arg5)) := by
  after_results_simp
  rfl

/-- The normalised matrix of layer 2. -/
theorem norm2_out (V : Valuation τ sig (Elt Ideal)) :
    after (norm2 (F := Ideal)) V (Proc.devRef .tc main_v60)
      = RefTerm.bn64 (V (Proc.devRef .tc main_v47)) := by
  after_results_simp
  rfl

/-- Layer 2's output. -/
theorem rect2_out (V : Valuation τ sig (Elt Ideal)) :
    after (rect2 (F := Ideal)) V (Proc.devRef .tc main_v61)
      = RefTerm.leaky64 (V (Proc.devRef .tc main_v60)) := by
  after_results_simp
  rfl

/-- The biased matrix of the last layer, of layer 2's output. -/
theorem lin3_out (V : Valuation τ sig (Elt Ideal)) :
    after (lin3 (F := Ideal)) V (Proc.devRef .tc main_v65)
      = RefTerm.bias20 (Host.dotGeneral (φ₁ := .f32) (φ₂ := .f32) dot_S50000x64_S64x20_S50000x20_1_0_0_1_n_n none (V (Proc.devRef .tc main_v61)) (V (Proc.devRef .tc main_arg6))) (V (Proc.devRef .tc main_arg7)) := by
  after_results_simp
  rfl

/-- The result: the batch normalisation of the last layer's biased matrix. -/
theorem norm3_out (V : Valuation τ sig (Elt Ideal)) :
    after (norm3 (F := Ideal)) V (Proc.devRef .tc main_v78)
      = RefTerm.bn20 (V (Proc.devRef .tc main_v65)) := by
  after_results_simp
  rfl

/-! ## What the stretches leave alone

A buffer none of the first three, the first six, or all eight stretches writes keeps its launch contents. -/

theorem frame3 (V : Valuation τ sig (Elt Ideal)) {r : Ref sig .tc} (h1 : r ∉ agg1_W) (h2 : r ∉ norm1_W) (h3 : r ∉ rect1_W) :
    (after (rect1 (F := Ideal)) (after (norm1 (F := Ideal)) (after (agg1 (F := Ideal)) V))) (Proc.devRef .tc r) = V (Proc.devRef .tc r) := by
  rw [rect1_frame _ h3, norm1_frame _ h2, agg1_frame _ h1]

theorem frame6 (V : Valuation τ sig (Elt Ideal)) {r : Ref sig .tc} (h1 : r ∉ agg1_W) (h2 : r ∉ norm1_W) (h3 : r ∉ rect1_W) (h4 : r ∉ agg2_W) (h5 : r ∉ norm2_W) (h6 : r ∉ rect2_W) :
    (after (rect2 (F := Ideal)) (after (norm2 (F := Ideal)) (after (agg2 (F := Ideal)) (after (rect1 (F := Ideal)) (after (norm1 (F := Ideal)) (after (agg1 (F := Ideal)) V)))))) (Proc.devRef .tc r) = V (Proc.devRef .tc r) := by
  rw [rect2_frame _ h6, norm2_frame _ h5, agg2_frame _ h4, rect1_frame _ h3, norm1_frame _ h2, agg1_frame _ h1]

theorem frame8 (V : Valuation τ sig (Elt Ideal)) {r : Ref sig .tc} (h1 : r ∉ agg1_W) (h2 : r ∉ norm1_W) (h3 : r ∉ rect1_W) (h4 : r ∉ agg2_W) (h5 : r ∉ norm2_W) (h6 : r ∉ rect2_W) (h7 : r ∉ lin3_W) (h8 : r ∉ norm3_W) :
    (after (norm3 (F := Ideal)) (after (lin3 (F := Ideal)) (after (rect2 (F := Ideal)) (after (norm2 (F := Ideal)) (after (agg2 (F := Ideal)) (after (rect1 (F := Ideal)) (after (norm1 (F := Ideal)) (after (agg1 (F := Ideal)) V)))))))) (Proc.devRef .tc r) = V (Proc.devRef .tc r) := by
  rw [norm3_frame _ h8, lin3_frame _ h7, rect2_frame _ h6, norm2_frame _ h5, agg2_frame _ h4, rect1_frame _ h3, norm1_frame _ h2, agg1_frame _ h1]

/-! ## The whole line -/

/-- The result buffer after the whole line: the reference's result of the argument arrays. -/
theorem out_eq (V : Valuation τ sig (Elt Ideal)) :
    after (ops (F := Ideal)) V (Proc.devRef .tc main_v78)
      = RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [ops, after_app]
  rw [norm3_out, lin3_out, rect2_out, norm2_out, agg2_out, rect1_out, norm1_out, agg1_out]
  rw [frame6 V (r := main_arg6) (by decide) (by decide) (by decide) (by decide) (by decide) (by decide), frame6 V (r := main_arg7) (by decide) (by decide) (by decide) (by decide) (by decide) (by decide),
    frame3 V (r := main_arg4) (by decide) (by decide) (by decide), frame3 V (r := main_arg1) (by decide) (by decide) (by decide), frame3 V (r := main_arg8) (by decide) (by decide) (by decide),
    frame3 V (r := main_arg9) (by decide) (by decide) (by decide), frame3 V (r := main_arg5) (by decide) (by decide) (by decide)]
  rfl

/-- An argument after the whole line: unchanged. -/
theorem arg_eq (V : Valuation τ sig (Elt Ideal)) {r : Ref sig .tc}
    (h1 : r ∉ agg1_W) (h2 : r ∉ norm1_W) (h3 : r ∉ rect1_W) (h4 : r ∉ agg2_W) (h5 : r ∉ norm2_W) (h6 : r ∉ rect2_W) (h7 : r ∉ lin3_W) (h8 : r ∉ norm3_W) :
    after (ops (F := Ideal)) V (Proc.devRef .tc r) = V (Proc.devRef .tc r) := by
  simp only [ops, after_app]
  exact frame8 V h1 h2 h3 h4 h5 h6 h7 h8

/-- On every device, from any memory with zero counters: every weakly fair execution of the reference program
    terminates with the result buffer at the reference's result of the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v78).trans (out_eq _),
      (h c main_arg0).trans (arg_eq _ (by decide) (by decide) (by decide) (by decide) (by decide) (by decide) (by decide) (by decide)),
      (h c main_arg1).trans (arg_eq _ (by decide) (by decide) (by decide) (by decide) (by decide) (by decide) (by decide) (by decide)),
      (h c main_arg2).trans (arg_eq _ (by decide) (by decide) (by decide) (by decide) (by decide) (by decide) (by decide) (by decide)),
      (h c main_arg3).trans (arg_eq _ (by decide) (by decide) (by decide) (by decide) (by decide) (by decide) (by decide) (by decide)),
      (h c main_arg4).trans (arg_eq _ (by decide) (by decide) (by decide) (by decide) (by decide) (by decide) (by decide) (by decide)),
      (h c main_arg5).trans (arg_eq _ (by decide) (by decide) (by decide) (by decide) (by decide) (by decide) (by decide) (by decide)),
      (h c main_arg6).trans (arg_eq _ (by decide) (by decide) (by decide) (by decide) (by decide) (by decide) (by decide) (by decide)),
      (h c main_arg7).trans (arg_eq _ (by decide) (by decide) (by decide) (by decide) (by decide) (by decide) (by decide) (by decide)),
      (h c main_arg8).trans (arg_eq _ (by decide) (by decide) (by decide) (by decide) (by decide) (by decide) (by decide) (by decide)),
      (h c main_arg9).trans (arg_eq _ (by decide) (by decide) (by decide) (by decide) (by decide) (by decide) (by decide) (by decide))⟩)
    (run_seq scopedRefs_eq scopedSems_eq defs main (fun _ => ops (F := Ideal)) main_eq (fun _ => ops_sub) m ρ (fun _ => ops_fresh))

end Cert.ReferenceIdeal.RefRun

end
-- ==== Proof.FinitePre.lean ====
/-
  From the certificate's precondition to "every float input entry is a real number".

  The precondition evaluates, for each of the eight float argument arrays x, the conjunction over all
  entries of |x i| < +∞, and takes the conjunction of the eight results; it states that the outcome is 1.
  A conjunction that is 1 has both of its parts 1, so each of the eight array-wide conjunctions is 1, and a
  conjunction over all entries that is 1 had a 1 at every entry: |x i| < +∞ for every i.  On the extended
  reals |x| = max x (-x), which is +∞ at both infinities, so an extended real whose absolute value is
  below +∞ is neither infinity: it is the image of a real number.
-/
import proofs.«123476_j28346784153910_1_alg».proof.Defs
import proofs.«123476_j28346784153910_1_alg».proof.Proof.Gen.Pre_finite_inputs
import proofs.«123476_j28346784153910_1_alg».proof.Proof.LibSageMath
import Idealize.ShloMosaic.Lib.ReduceAll
import Idealize.ShloMosaic.Lib.ValueIdx

noncomputable section

namespace Cert.FinitePre

open Idealize.ShloMosaic Idealize.SL.Sem

/-- The shape with no axes has exactly one index. -/
instance : Subsingleton Cert.Pre_finite_inputs.S_.Idx := ⟨fun a b => funext fun d => d.elim0⟩

/-- The pattern of `+inf` denotes `+∞`. -/
theorem ofBits_inf : Ideal.ofBits .f32 0x7F800000#32 = (⊤ : EReal) := by
  simp [Ideal.ofBits, Ideal.ieee]

/-- An extended real whose absolute value compares below the `+inf` literal is a real number. -/
theorem real_of_abs_lt (x : EReal)
    (h : Ideal.cmp .olt (max x (-x)) (Ideal.ofBits .f32 0x7F800000#32) = 1#1) : SageMath.IsReal x := by
  rw [ofBits_inf] at h
  induction x using EReal.rec with
  | bot => simp [Ideal.cmp] at h
  | top => simp [Ideal.cmp] at h
  | coe r => exact ⟨r, rfl⟩

/-- One array: if the conjunction over all entries of `|x i| < +inf` is 1, every entry of `x` is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
        (broadcastInDim s ![] hb (constant (F := Ideal) Cert.Pre_finite_inputs.S_ .f32 0x7F800000#32))) init hr hu j
          = 1#1) :
    ∀ i, SageMath.IsReal (x i) := fun i =>
  real_of_abs_lt (x i) (Host.reduce_andi_all _ init hr hu j e i)

theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, SageMath.IsReal (m ((c.tc : Thread Cert.KernelIdeal.nD Cert.KernelIdeal.τ).loc Cert.KernelIdeal.main_arg0) i))
      ∧ (∀ i, SageMath.IsReal (m ((c.tc : Thread Cert.KernelIdeal.nD Cert.KernelIdeal.τ).loc Cert.KernelIdeal.main_arg1) i))
      ∧ (∀ i, SageMath.IsReal (m ((c.tc : Thread Cert.KernelIdeal.nD Cert.KernelIdeal.τ).loc Cert.KernelIdeal.main_arg2) i))
      ∧ (∀ i, SageMath.IsReal (m ((c.tc : Thread Cert.KernelIdeal.nD Cert.KernelIdeal.τ).loc Cert.KernelIdeal.main_arg3) i))
      ∧ (∀ i, SageMath.IsReal (m ((c.tc : Thread Cert.KernelIdeal.nD Cert.KernelIdeal.τ).loc Cert.KernelIdeal.main_arg4) i))
      ∧ (∀ i, SageMath.IsReal (m ((c.tc : Thread Cert.KernelIdeal.nD Cert.KernelIdeal.τ).loc Cert.KernelIdeal.main_arg5) i))
      ∧ (∀ i, SageMath.IsReal (m ((c.tc : Thread Cert.KernelIdeal.nD Cert.KernelIdeal.τ).loc Cert.KernelIdeal.main_arg6) i))
      ∧ (∀ i, SageMath.IsReal (m ((c.tc : Thread Cert.KernelIdeal.nD Cert.KernelIdeal.τ).loc Cert.KernelIdeal.main_arg7) i)) := by
  have h := congrFun (hpre c) ValueIdx.ix0
  dsimp only [Cert.Pre_finite_inputs.fn, Cert.Pre_finite_inputs.fn_part1, Cert.Pre_finite_inputs.fn_part2, andi] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ _ _ _ _ h0, all_real _ _ _ _ _ _ h1, all_real _ _ _ _ _ _ h2, all_real _ _ _ _ _ _ h3,
    all_real _ _ _ _ _ _ h4, all_real _ _ _ _ _ _ h5, all_real _ _ _ _ _ _ h6, all_real _ _ _ _ _ _ h7⟩

end Cert.FinitePre

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.Math.lean ====
/-
  The mathematics of the certificate, on the extended reals.

  One law joins the two programs: for a column of R = 50000 REAL entries x_r with mean μ = (Σ x_r)/50000,
      (Σ_r (x_r - μ)²)/50000 = (Σ_r x_r²)/50000 - μ²,
  because Σ (x_r - μ)² = Σ x_r² - 2 μ Σ x_r + R μ² and Σ x_r = 50000 μ.  On the extended reals the law fails at the
  infinities (a product does not distribute over a sum there), so it is proved for real entries, in ℝ, and carried back.
  The rest of the file says which values stay real: sums, products, the batch normalisation of a real matrix (its variance
  is a nonnegative real, so the variance plus the positive offset has a real reciprocal square root), the leaky rectifier,
  a matrix product, a bias.
-/
import proofs.«123476_j28346784153910_1_alg».proof.Proof.Spec
import proofs.«123476_j28346784153910_1_alg».proof.Proof.LibRealSums
import Idealize.ShloMosaic.PureOps.Ideal.Laws

noncomputable section

namespace Cert.Gcn

open Idealize.ShloMosaic Idealize.ShloMosaic.ValueIdx SageMath
open scoped BigOperators

variable {R C : Nat}

/-! ## The literals -/

theorem zero_eq : zero = ((0 : ℝ) : EReal) := by
  unfold zero; rw [Ideal.ofBits_zero_f32]; rfl
theorem cnt_eq : cnt = ((50000 : ℝ) : EReal) := ofBits_50000
theorem isReal_eps : IsReal eps := ofBits_eps_isReal
theorem eps_pos : 0 < eps := ofBits_eps_pos

/-- The slope literal is real (its value is never needed). -/
theorem slope_eq : slope = ((10737418 * (2 : ℝ) ^ (-30 : ℤ) : ℝ) : EReal) := by
  unfold slope
  simp [Ideal.ofBits, Ideal.ieee, -EReal.coe_mul]
theorem isReal_slope : IsReal slope := by rw [slope_eq]; exact IsReal.coe _

/-! ## A real column in ℝ -/

/-- The statistics of a column whose entries are the reals x_r. -/
theorem colSum_coe (h : Mat R C) (c : Fin C) (x : Fin R → ℝ) (hx : ∀ r, h (ix2 r c) = (x r : EReal)) :
    colSum h c = ((∑ r, x r : ℝ) : EReal) := by
  unfold colSum; simp only [hx]; rw [zero_eq, EReal.coe_zero, zero_add, Cert.Lib.RealSums.coe_sum]

theorem mean_coe (h : Mat R C) (c : Fin C) (x : Fin R → ℝ) (hx : ∀ r, h (ix2 r c) = (x r : EReal)) :
    mean h c = (((∑ r, x r) / 50000 : ℝ) : EReal) := by
  unfold mean; rw [colSum_coe h c x hx, cnt_eq, Ideal.div_coe (by norm_num), ← EReal.coe_mul]
  congr 1; ring

theorem sqSum_coe (h : Mat R C) (c : Fin C) (x : Fin R → ℝ) (hx : ∀ r, h (ix2 r c) = (x r : EReal)) :
    sqSum h c = ((∑ r, x r * x r : ℝ) : EReal) := by
  unfold sqSum; simp only [hx]; rw [zero_eq, EReal.coe_zero, zero_add]
  exact Cert.Lib.RealSums.sum_coe_mul_coe Finset.univ x x

theorem devSum_coe (h : Mat R C) (c : Fin C) (x : Fin R → ℝ) (hx : ∀ r, h (ix2 r c) = (x r : EReal)) :
    devSum h c = ((∑ r, (x r - (∑ s, x s) / 50000) * (x r - (∑ s, x s) / 50000) : ℝ) : EReal) := by
  unfold devSum; rw [mean_coe h c x hx]; simp only [hx]; rw [zero_eq]
  have e : ∀ r : Fin R, ((x r : EReal) - (((∑ s, x s) / 50000 : ℝ) : EReal)) * ((x r : EReal) - (((∑ s, x s) / 50000 : ℝ) : EReal))
      = (((x r - (∑ s, x s) / 50000) * (x r - (∑ s, x s) / 50000) : ℝ) : EReal) := fun r => by
    rw [← EReal.coe_sub, ← EReal.coe_mul]
  simp only [e]
  rw [EReal.coe_zero, zero_add, Cert.Lib.RealSums.coe_sum]

/-- THE LAW, in ℝ: with R = 50000 entries, the mean squared deviation is the mean square minus the squared mean. -/
theorem real_var_law (x : Fin R → ℝ) (hR : (R : ℝ) = 50000) :
    (∑ r, (x r - (∑ s, x s) / 50000) * (x r - (∑ s, x s) / 50000)) * (1 / 50000)
      = (∑ r, x r * x r) * (1 / 50000) - ((∑ s, x s) / 50000) * ((∑ s, x s) / 50000) := by
  set S := ∑ s, x s with hS
  have e : ∀ r : Fin R, (x r - S / 50000) * (x r - S / 50000) = x r * x r - 2 * (S / 50000) * x r + (S / 50000) * (S / 50000) :=
    fun r => by ring
  simp only [e]
  rw [Finset.sum_add_distrib, Finset.sum_sub_distrib, ← Finset.mul_sum, Finset.sum_const, Finset.card_univ,
    Fintype.card_fin, nsmul_eq_mul, hR, ← hS]
  ring

/-- THE LAW on the extended reals, for a matrix of 50000 rows with real entries. -/
theorem varSq_eq_varDev (h : Mat R C) (hh : ∀ i, IsReal (h i)) (hR : R = 50000) (c : Fin C) :
    varSq h c = varDev h c := by
  choose x hx using fun r : Fin R => hh (ix2 r c)
  unfold varSq varDev
  rw [sqSum_coe h c x hx, devSum_coe h c x hx, mean_coe h c x hx, cnt_eq, Ideal.div_coe (by norm_num),
    Ideal.div_coe (by norm_num), ← EReal.coe_mul, ← EReal.coe_mul, ← EReal.coe_mul, ← EReal.coe_sub]
  congr 1
  exact (real_var_law x (by rw [hR]; norm_num)).symm

/-- So the two batch normalisations are one function on a real matrix of 50000 rows. -/
theorem bnSq_eq_bnDev (h : Mat R C) (hh : ∀ i, IsReal (h i)) (hR : R = 50000) : bnSq h = bnDev h := by
  funext i
  unfold bnSq bnDev normalize
  rw [varSq_eq_varDev h hh hR]

/-! ## What stays real -/

theorem isReal_zero' : IsReal zero := by rw [zero_eq]; exact IsReal.coe _

theorem isReal_mean (h : Mat R C) (hh : ∀ i, IsReal (h i)) (c : Fin C) : IsReal (mean h c) := by
  choose x hx using fun r : Fin R => hh (ix2 r c)
  rw [mean_coe h c x hx]; exact IsReal.coe _

theorem isReal_varDev (h : Mat R C) (hh : ∀ i, IsReal (h i)) (c : Fin C) : IsReal (varDev h c) := by
  choose x hx using fun r : Fin R => hh (ix2 r c)
  unfold varDev
  rw [devSum_coe h c x hx, cnt_eq]
  exact (IsReal.coe _).div_coe (by norm_num)

theorem varDev_nonneg (h : Mat R C) (hh : ∀ i, IsReal (h i)) (c : Fin C) : 0 ≤ varDev h c := by
  choose x hx using fun r : Fin R => hh (ix2 r c)
  unfold varDev
  rw [devSum_coe h c x hx, cnt_eq]
  refine div_coe_nonneg (IsReal.coe _) ?_ (by norm_num)
  have : (0 : ℝ) ≤ ∑ r, (x r - (∑ s, x s) / 50000) * (x r - (∑ s, x s) / 50000) :=
    Finset.sum_nonneg fun r _ => mul_self_nonneg _
  exact_mod_cast this

/-- The batch normalisation of a real matrix is real. -/
theorem isReal_bnDev (h : Mat R C) (hh : ∀ i, IsReal (h i)) (i : (⟨2, ![R, C]⟩ : Shape).Idx) : IsReal (bnDev h i) := by
  unfold bnDev normalize
  exact ((hh i).sub (isReal_mean h hh _)).mul
    (isReal_rsqrt ((isReal_varDev h hh _).add isReal_eps)
      (add_pos_of_isReal (isReal_varDev h hh _) (varDev_nonneg h hh _) isReal_eps eps_pos))

/-- The leaky rectifier of a real is real: it is the value or the slope times the value. -/
theorem isReal_leakyAt {y : EReal} (hy : IsReal y) : IsReal (leakyAt y) := by
  unfold leakyAt Scalar.select
  split
  · exact hy
  · exact isReal_slope.mul hy

theorem isReal_leaky (y : Mat R C) (hy : ∀ i, IsReal (y i)) (i : (⟨2, ![R, C]⟩ : Shape).Idx) : IsReal (leaky y i) :=
  isReal_leakyAt (hy i)

theorem isReal_addBias (s : Mat R C) (b : Fin C → EReal) (hs : ∀ i, IsReal (s i)) (hb : ∀ k, IsReal (b k))
    (i : (⟨2, ![R, C]⟩ : Shape).Idx) : IsReal (addBias s b i) := (hs i).add (hb _)

/-- A product of real matrices is real. -/
theorem isReal_mm {K : Nat} (x : (⟨2, ![R, K]⟩ : Shape).Idx → EReal) (w : (⟨2, ![K, C]⟩ : Shape).Idx → EReal)
    (hx : ∀ i, IsReal (x i)) (hw : ∀ i, IsReal (w i)) (j : (⟨2, ![R, C]⟩ : Shape).Idx) :
    IsReal (Cert.Lib.PlainDot.mm x w j) := by
  unfold Cert.Lib.PlainDot.mm
  exact IsReal.sum _ _ fun k _ => (hx _).mul (hw _)

end Cert.Gcn

end
-- ==== Proof.RefReadScalar.lean ====
/-
  The scalars of the reference's variance routine, read at the one index of a rank-0 array.

  The routine's divisor is the literal 50000 minus the degrees-of-freedom correction, the integer 0 made a float.
  An integer made a float is, at the ideal values, that integer as a real number, so the correction is 0 and the divisor
  is 50000 - 0 = 50000, the row count.  The row count is the real number 50000 and the zero literal is 0, so the
  comparison "divisor greater than zero" holds: its bit is 1, and the selection guarded by it keeps its first operand.
-/
import proofs.«123476_j28346784153910_1_alg».proof.Proof.RefTerm
import proofs.«123476_j28346784153910_1_alg».proof.Proof.Spec
import Idealize.ShloMosaic.Lib.IdealHost

noncomputable section

namespace Cert.ReferenceIdeal.RefRead

open Idealize.ShloMosaic Idealize.ShloMosaic.ValueIdx Cert.ReferenceIdeal Cert.ReferenceIdeal.Facts₀

variable [Cert.ReferenceIdeal.Facts]

/-- The variance routine's divisor is the row count: the integer zero made a float is 0, and x - 0 = x. -/
theorem dof_ix0 : RefTerm.dof ix0 = Cert.Gcn.cnt := by
  show Ideal.ofBits .f32 0x47435000#32 - (((0#32 : BitVec 32).toInt : ℝ) : EReal) = Ideal.ofBits .f32 0x47435000#32
  rw [show (0#32 : BitVec 32).toInt = 0 from by decide, Int.cast_zero, EReal.coe_zero, sub_zero]

/-- The zero literal is below the row count. -/
theorem zero_lt_cnt : Ideal.ofBits .f32 0x00000000#32 < Cert.Gcn.cnt := by
  unfold Cert.Gcn.cnt
  rw [Ideal.ofBits_zero_f32, SageMath.ofBits_50000]
  exact EReal.coe_pos.mpr (by norm_num)

/-- So the comparison "row count greater than the zero literal" is the bit 1. -/
theorem cmp_cnt_zero :
    FloatOps.cmpf (F := Ideal) (φ := .f32) .ogt Cert.Gcn.cnt (Ideal.ofBits .f32 0x00000000#32) = 1#1 := by
  show BitVec.ofBool (decide (Ideal.ofBits .f32 0x00000000#32 < Cert.Gcn.cnt)) = 1#1
  rw [decide_eq_true zero_lt_cnt]
  rfl

end Cert.ReferenceIdeal.RefRead

end
-- ==== Proof.RefRead128.lean ====
/-
  The reference's stages at width 128, read at an index.

  Every stage of the reference is a composition of host operations on arrays.  Read at one index, a pointwise
  operation is the extended reals' operation on the elements there; the broadcast of a scalar reads the scalar; the
  broadcast of a vector v of 128 entries to a [1, 128] row reads v at the column; the broadcast of a [1, 128] row to
  [50000, 128] reads the row at the column; and the sum over axis 0 started from the zero literal is, at column k, the
  zero literal plus the sum over the 50000 rows r of the entry (r, k).  Hence, with h(r, k) an entry of the stage's input:

    * the bias stage is            s(r, k) + b(k);
    * the column mean is           μ(k) = (0 + Σ_r h(r, k)) / 50000, whether it is carried as a vector of 128 entries or
                                   as a [1, 128] row;
    * the variance routine's divisor is 50000 - 0 = 50000, which is greater than 0, so the selection keeps the quotient
                                   v(k) = (0 + Σ_r (h(r, k) - μ(k))²) / 50000 and never reads the not-a-number literal;
    * batch normalisation is       (h(r, k) - μ(k)) · rsqrt(v(k) + ε);
    * the leaky rectifier is       y where y compares at least the zero literal, slope · y elsewhere.

  These are the definitions of the shared vocabulary (addBias, mean, varDev, bnDev, leaky), so each stage equals its counterpart.
-/
import proofs.«123476_j28346784153910_1_alg».proof.Proof.RefReadScalar
import Idealize.ShloMosaic.Lib.Pipeline.Value

noncomputable section

namespace Cert.ReferenceIdeal.RefRead

open Idealize.ShloMosaic Idealize.ShloMosaic.ValueIdx Cert.ReferenceIdeal Cert.ReferenceIdeal.Facts₀
open scoped BigOperators

variable [Cert.ReferenceIdeal.Facts]

/-! ### The two broadcasts and the column sum at an index -/

/-- A vector of 128 entries broadcast to a [1, 128] row reads the vector at the column. -/
theorem vecToRow128 {α : Type} (v : S128.Idx → α) (z : Fin 1) (k : Fin 128) :
    broadcastInDim S1x128 ![1] bcast_S128_S1x128_1 v (ix2 z k) = v (ix1 k) :=
  broadcastInDim_apply _ _ v (ix2 z k) (ix1 k) (fun a => match a with
    | ⟨0, _⟩ => rfl)

/-- A [1, 128] row broadcast to [50000, 128] reads the row at the column. -/
theorem rowToMat128 {α : Type} (w : S1x128.Idx → α) (r : Fin 50000) (k : Fin 128) :
    broadcastInDim S50000x128 ![0, 1] bcast_S1x128_S50000x128_0_1 w (ix2 r k) = w (ix2 (0 : Fin 1) k) :=
  broadcastInDim_apply _ _ w (ix2 r k) (ix2 (0 : Fin 1) k) (fun a => match a with
    | ⟨0, _⟩ => rfl
    | ⟨1, _⟩ => rfl)

/-- Dropping axis 0 of [50000, 128] leaves [128]. -/
theorem red128 : S50000x128.Reduces [0] S128 := by decide

/-- The index over column k with row r inserted is (r, k). -/
theorem lift128 (k : Fin 128) (r : Fin 50000) : red128.lift (ix1 k) r = ix2 r k := by
  funext a
  match a with
  | ⟨0, _⟩ => rfl
  | ⟨1, _⟩ => rfl

/-- The sum over axis 0 from the zero literal, at column k, is the column sum of the vocabulary. -/
theorem colSum128 (g : FVec Ideal S50000x128 .f32) (k : Fin 128) :
    Host.reduceAdd g (constant (F := Ideal) S_ .f32 0x00000000#32) reducesTo_S50000x128_S128_d0 h_S_ (ix1 k)
      = Cert.Gcn.colSum g k := by
  rw [hostReduceAdd_apply, Ideal.hostReduceAdd_single reducesTo_S50000x128_S128_d0 red128]
  show Ideal.ofBits .f32 0x00000000#32 + ∑ r : Fin 50000, g (red128.lift (ix1 k) r)
      = Cert.Gcn.zero + ∑ r : Fin 50000, g (ix2 r k)
  simp only [lift128]
  rfl

/-! ### The stages -/

/-- The bias stage adds b(k) to every entry of column k. -/
theorem bias128_eq (s : FVec Ideal S50000x128 .f32) (b : FVec Ideal S128 .f32) :
    RefTerm.bias128 s b = Cert.Gcn.addBias s (fun k => b (ValueIdx.ix1 k)) := by
  funext i
  obtain ⟨r, k, rfl⟩ : ∃ (r : Fin 50000) (k : Fin 128), i = ix2 r k := ⟨i 0, i 1, eq_ix2 i⟩
  show s (ix2 r k) + broadcastInDim S50000x128 ![0, 1] bcast_S1x128_S50000x128_0_1
      (broadcastInDim S1x128 ![1] bcast_S128_S1x128_1 b) (ix2 r k) = s (ix2 r k) + b (ix1 k)
  rw [rowToMat128, vecToRow128]

/-- The column mean carried as a vector of 128 entries. -/
theorem mean128_apply (h : FVec Ideal S50000x128 .f32) (k : Fin 128) :
    RefTerm.mean128 h (ValueIdx.ix1 k) = Cert.Gcn.mean h k := by
  show Ideal.div (Host.reduceAdd h (constant (F := Ideal) S_ .f32 0x00000000#32) reducesTo_S50000x128_S128_d0 h_S_ (ix1 k))
      (broadcastInDim S128 ![] bcast_S_S128 (constant (F := Ideal) S_ .f32 0x47435000#32) (ix1 k)) = _
  rw [colSum128, broadcastInDim_scalar_apply]
  rfl

/-- The column mean carried as a [1, 128] row, as the variance routine computes it. -/
theorem rowMean128 (h : FVec Ideal S50000x128 .f32) (z : Fin 1) (k : Fin 128) :
    Host.divf (broadcastInDim S1x128 ![1] bcast_S128_S1x128_1
        (Host.reduceAdd h (constant (F := Ideal) S_ .f32 0x00000000#32) reducesTo_S50000x128_S128_d0 h_S_))
      (broadcastInDim S1x128 ![] bcast_S_S1x128 (constant (F := Ideal) S_ .f32 0x47435000#32)) (ix2 z k)
      = Cert.Gcn.mean h k := by
  show Ideal.div (broadcastInDim S1x128 ![1] bcast_S128_S1x128_1
        (Host.reduceAdd h (constant (F := Ideal) S_ .f32 0x00000000#32) reducesTo_S50000x128_S128_d0 h_S_) (ix2 z k))
      (broadcastInDim S1x128 ![] bcast_S_S1x128 (constant (F := Ideal) S_ .f32 0x47435000#32) (ix2 z k)) = _
  rw [vecToRow128, colSum128, broadcastInDim_scalar_apply]
  rfl

/-- The deviation of an entry from its column's mean. -/
theorem dev128_apply (h : FVec Ideal S50000x128 .f32) (r : Fin 50000) (k : Fin 128) :
    RefTerm.dev128 h (ix2 r k) = h (ix2 r k) - Cert.Gcn.mean h k := by
  show h (ix2 r k) - broadcastInDim S50000x128 ![0, 1] bcast_S1x128_S50000x128_0_1
      (Host.divf (broadcastInDim S1x128 ![1] bcast_S128_S1x128_1
          (Host.reduceAdd h (constant (F := Ideal) S_ .f32 0x00000000#32) reducesTo_S50000x128_S128_d0 h_S_))
        (broadcastInDim S1x128 ![] bcast_S_S1x128 (constant (F := Ideal) S_ .f32 0x47435000#32))) (ix2 r k) = _
  rw [rowToMat128, rowMean128]

/-- The column sum of the squared deviations is the vocabulary's. -/
theorem devSum128 (h : FVec Ideal S50000x128 .f32) (k : Fin 128) :
    Cert.Gcn.colSum (mulf (RefTerm.dev128 h) (RefTerm.dev128 h)) k = Cert.Gcn.devSum h k := by
  unfold Cert.Gcn.colSum Cert.Gcn.devSum
  refine congrArg (fun t => Cert.Gcn.zero + t) (Finset.sum_congr rfl fun r _ => ?_)
  show RefTerm.dev128 h (ix2 r k) * RefTerm.dev128 h (ix2 r k) = _
  rw [dev128_apply]

/-- The column variance: the divisor is the row count and is positive, so the selection keeps the quotient. -/
theorem var128_apply (h : FVec Ideal S50000x128 .f32) (k : Fin 128) :
    RefTerm.var128 h (ValueIdx.ix1 k) = Cert.Gcn.varDev h k := by
  show Scalar.select
      (broadcastInDim S128 ![] bcast_S_S128 (cmpf .ogt RefTerm.dof (constant (F := Ideal) S_ .f32 0x00000000#32)) (ix1 k))
      (Ideal.div
        (Host.reduceAdd (mulf (RefTerm.dev128 h) (RefTerm.dev128 h)) (constant (F := Ideal) S_ .f32 0x00000000#32)
          reducesTo_S50000x128_S128_d0 h_S_ (ix1 k))
        (broadcastInDim S128 ![] bcast_S_S128 RefTerm.dof (ix1 k)))
      (broadcastInDim S128 ![] bcast_S_S128 (id (constant (F := Ideal) S_ .f32 0x7FC00000#32)) (ix1 k)) = _
  simp only [broadcastInDim_scalar_apply]
  rw [colSum128, devSum128]
  show Scalar.select (FloatOps.cmpf (F := Ideal) (φ := .f32) .ogt (RefTerm.dof ix0) (Ideal.ofBits .f32 0x00000000#32))
      (Ideal.div (Cert.Gcn.devSum h k) (RefTerm.dof ix0)) _ = _
  rw [dof_ix0, cmp_cnt_zero, select_one]
  rfl

/-- Batch normalisation is the vocabulary's, with the variance as the mean of the squared deviations. -/
theorem bn128_eq (h : FVec Ideal S50000x128 .f32) : RefTerm.bn128 h = Cert.Gcn.bnDev h := by
  funext i
  obtain ⟨r, k, rfl⟩ : ∃ (r : Fin 50000) (k : Fin 128), i = ix2 r k := ⟨i 0, i 1, eq_ix2 i⟩
  show (h (ix2 r k) - broadcastInDim S50000x128 ![0, 1] bcast_S1x128_S50000x128_0_1
        (broadcastInDim S1x128 ![1] bcast_S128_S1x128_1 (RefTerm.mean128 h)) (ix2 r k))
      * broadcastInDim S50000x128 ![0, 1] bcast_S1x128_S50000x128_0_1
        (broadcastInDim S1x128 ![1] bcast_S128_S1x128_1
          (Host.rsqrt (addf (RefTerm.var128 h)
            (broadcastInDim S128 ![] bcast_S_S128 (constant (F := Ideal) S_ .f32 0x3727C5AC#32))))) (ix2 r k)
      = (h (ix2 r k) - Cert.Gcn.mean h k) * Ideal.rsqrt (Cert.Gcn.varDev h k + Cert.Gcn.eps)
  rw [rowToMat128, vecToRow128, rowToMat128, vecToRow128, mean128_apply]
  show _ * Ideal.rsqrt (RefTerm.var128 h (ix1 k)
      + broadcastInDim S128 ![] bcast_S_S128 (constant (F := Ideal) S_ .f32 0x3727C5AC#32) (ix1 k)) = _
  rw [var128_apply, broadcastInDim_scalar_apply]
  rfl

/-- The leaky rectifier is the vocabulary's, entry by entry. -/
theorem leaky128_eq (y : FVec Ideal S50000x128 .f32) : RefTerm.leaky128 y = Cert.Gcn.leaky y := by
  funext i
  show Scalar.select
      (FloatOps.cmpf (F := Ideal) (φ := .f32) .oge (y i)
        (broadcastInDim S50000x128 ![] bcast_S_S50000x128 (constant (F := Ideal) S_ .f32 0x00000000#32) i))
      (y i)
      (broadcastInDim S50000x128 ![] bcast_S_S50000x128 (id (constant (F := Ideal) S_ .f32 0x3C23D70A#32)) i * y i) = _
  rw [broadcastInDim_scalar_apply, broadcastInDim_scalar_apply]
  rfl

end Cert.ReferenceIdeal.RefRead

end
-- ==== Proof.RefRead64.lean ====
/-
  The reference's stages at width 64, read at an index.

  Every stage of the reference is a composition of host operations on arrays.  Read at one index, a pointwise
  operation is the extended reals' operation on the elements there; the broadcast of a scalar reads the scalar; the
  broadcast of a vector v of 64 entries to a [1, 64] row reads v at the column; the broadcast of a [1, 64] row to
  [50000, 64] reads the row at the column; and the sum over axis 0 started from the zero literal is, at column k, the
  zero literal plus the sum over the 50000 rows r of the entry (r, k).  Hence, with h(r, k) an entry of the stage's input:

    * the bias stage is            s(r, k) + b(k);
    * the column mean is           μ(k) = (0 + Σ_r h(r, k)) / 50000, whether it is carried as a vector of 64 entries or
                                   as a [1, 64] row;
    * the variance routine's divisor is 50000 - 0 = 50000, which is greater than 0, so the selection keeps the quotient
                                   v(k) = (0 + Σ_r (h(r, k) - μ(k))²) / 50000 and never reads the not-a-number literal;
    * batch normalisation is       (h(r, k) - μ(k)) · rsqrt(v(k) + ε);
    * the leaky rectifier is       y where y compares at least the zero literal, slope · y elsewhere.

  These are the definitions of the shared vocabulary (addBias, mean, varDev, bnDev, leaky), so each stage equals its counterpart.
-/
import proofs.«123476_j28346784153910_1_alg».proof.Proof.RefReadScalar
import Idealize.ShloMosaic.Lib.Pipeline.Value

noncomputable section

namespace Cert.ReferenceIdeal.RefRead

open Idealize.ShloMosaic Idealize.ShloMosaic.ValueIdx Cert.ReferenceIdeal Cert.ReferenceIdeal.Facts₀
open scoped BigOperators

variable [Cert.ReferenceIdeal.Facts]

/-! ### The two broadcasts and the column sum at an index -/

/-- A vector of 64 entries broadcast to a [1, 64] row reads the vector at the column. -/
theorem vecToRow64 {α : Type} (v : S64.Idx → α) (z : Fin 1) (k : Fin 64) :
    broadcastInDim S1x64 ![1] bcast_S64_S1x64_1 v (ix2 z k) = v (ix1 k) :=
  broadcastInDim_apply _ _ v (ix2 z k) (ix1 k) (fun a => match a with
    | ⟨0, _⟩ => rfl)

/-- A [1, 64] row broadcast to [50000, 64] reads the row at the column. -/
theorem rowToMat64 {α : Type} (w : S1x64.Idx → α) (r : Fin 50000) (k : Fin 64) :
    broadcastInDim S50000x64 ![0, 1] bcast_S1x64_S50000x64_0_1 w (ix2 r k) = w (ix2 (0 : Fin 1) k) :=
  broadcastInDim_apply _ _ w (ix2 r k) (ix2 (0 : Fin 1) k) (fun a => match a with
    | ⟨0, _⟩ => rfl
    | ⟨1, _⟩ => rfl)

/-- Dropping axis 0 of [50000, 64] leaves [64]. -/
theorem red64 : S50000x64.Reduces [0] S64 := by decide

/-- The index over column k with row r inserted is (r, k). -/
theorem lift64 (k : Fin 64) (r : Fin 50000) : red64.lift (ix1 k) r = ix2 r k := by
  funext a
  match a with
  | ⟨0, _⟩ => rfl
  | ⟨1, _⟩ => rfl

/-- The sum over axis 0 from the zero literal, at column k, is the column sum of the vocabulary. -/
theorem colSum64 (g : FVec Ideal S50000x64 .f32) (k : Fin 64) :
    Host.reduceAdd g (constant (F := Ideal) S_ .f32 0x00000000#32) reducesTo_S50000x64_S64_d0 h_S_ (ix1 k)
      = Cert.Gcn.colSum g k := by
  rw [hostReduceAdd_apply, Ideal.hostReduceAdd_single reducesTo_S50000x64_S64_d0 red64]
  show Ideal.ofBits .f32 0x00000000#32 + ∑ r : Fin 50000, g (red64.lift (ix1 k) r)
      = Cert.Gcn.zero + ∑ r : Fin 50000, g (ix2 r k)
  simp only [lift64]
  rfl

/-! ### The stages -/

/-- The bias stage adds b(k) to every entry of column k. -/
theorem bias64_eq (s : FVec Ideal S50000x64 .f32) (b : FVec Ideal S64 .f32) :
    RefTerm.bias64 s b = Cert.Gcn.addBias s (fun k => b (ValueIdx.ix1 k)) := by
  funext i
  obtain ⟨r, k, rfl⟩ : ∃ (r : Fin 50000) (k : Fin 64), i = ix2 r k := ⟨i 0, i 1, eq_ix2 i⟩
  show s (ix2 r k) + broadcastInDim S50000x64 ![0, 1] bcast_S1x64_S50000x64_0_1
      (broadcastInDim S1x64 ![1] bcast_S64_S1x64_1 b) (ix2 r k) = s (ix2 r k) + b (ix1 k)
  rw [rowToMat64, vecToRow64]

/-- The column mean carried as a vector of 64 entries. -/
theorem mean64_apply (h : FVec Ideal S50000x64 .f32) (k : Fin 64) :
    RefTerm.mean64 h (ValueIdx.ix1 k) = Cert.Gcn.mean h k := by
  show Ideal.div (Host.reduceAdd h (constant (F := Ideal) S_ .f32 0x00000000#32) reducesTo_S50000x64_S64_d0 h_S_ (ix1 k))
      (broadcastInDim S64 ![] bcast_S_S64 (constant (F := Ideal) S_ .f32 0x47435000#32) (ix1 k)) = _
  rw [colSum64, broadcastInDim_scalar_apply]
  rfl

/-- The column mean carried as a [1, 64] row, as the variance routine computes it. -/
theorem rowMean64 (h : FVec Ideal S50000x64 .f32) (z : Fin 1) (k : Fin 64) :
    Host.divf (broadcastInDim S1x64 ![1] bcast_S64_S1x64_1
        (Host.reduceAdd h (constant (F := Ideal) S_ .f32 0x00000000#32) reducesTo_S50000x64_S64_d0 h_S_))
      (broadcastInDim S1x64 ![] bcast_S_S1x64 (constant (F := Ideal) S_ .f32 0x47435000#32)) (ix2 z k)
      = Cert.Gcn.mean h k := by
  show Ideal.div (broadcastInDim S1x64 ![1] bcast_S64_S1x64_1
        (Host.reduceAdd h (constant (F := Ideal) S_ .f32 0x00000000#32) reducesTo_S50000x64_S64_d0 h_S_) (ix2 z k))
      (broadcastInDim S1x64 ![] bcast_S_S1x64 (constant (F := Ideal) S_ .f32 0x47435000#32) (ix2 z k)) = _
  rw [vecToRow64, colSum64, broadcastInDim_scalar_apply]
  rfl

/-- The deviation of an entry from its column's mean. -/
theorem dev64_apply (h : FVec Ideal S50000x64 .f32) (r : Fin 50000) (k : Fin 64) :
    RefTerm.dev64 h (ix2 r k) = h (ix2 r k) - Cert.Gcn.mean h k := by
  show h (ix2 r k) - broadcastInDim S50000x64 ![0, 1] bcast_S1x64_S50000x64_0_1
      (Host.divf (broadcastInDim S1x64 ![1] bcast_S64_S1x64_1
          (Host.reduceAdd h (constant (F := Ideal) S_ .f32 0x00000000#32) reducesTo_S50000x64_S64_d0 h_S_))
        (broadcastInDim S1x64 ![] bcast_S_S1x64 (constant (F := Ideal) S_ .f32 0x47435000#32))) (ix2 r k) = _
  rw [rowToMat64, rowMean64]

/-- The column sum of the squared deviations is the vocabulary's. -/
theorem devSum64 (h : FVec Ideal S50000x64 .f32) (k : Fin 64) :
    Cert.Gcn.colSum (mulf (RefTerm.dev64 h) (RefTerm.dev64 h)) k = Cert.Gcn.devSum h k := by
  unfold Cert.Gcn.colSum Cert.Gcn.devSum
  refine congrArg (fun t => Cert.Gcn.zero + t) (Finset.sum_congr rfl fun r _ => ?_)
  show RefTerm.dev64 h (ix2 r k) * RefTerm.dev64 h (ix2 r k) = _
  rw [dev64_apply]

/-- The column variance: the divisor is the row count and is positive, so the selection keeps the quotient. -/
theorem var64_apply (h : FVec Ideal S50000x64 .f32) (k : Fin 64) :
    RefTerm.var64 h (ValueIdx.ix1 k) = Cert.Gcn.varDev h k := by
  show Scalar.select
      (broadcastInDim S64 ![] bcast_S_S64 (cmpf .ogt RefTerm.dof (constant (F := Ideal) S_ .f32 0x00000000#32)) (ix1 k))
      (Ideal.div
        (Host.reduceAdd (mulf (RefTerm.dev64 h) (RefTerm.dev64 h)) (constant (F := Ideal) S_ .f32 0x00000000#32)
          reducesTo_S50000x64_S64_d0 h_S_ (ix1 k))
        (broadcastInDim S64 ![] bcast_S_S64 RefTerm.dof (ix1 k)))
      (broadcastInDim S64 ![] bcast_S_S64 (id (constant (F := Ideal) S_ .f32 0x7FC00000#32)) (ix1 k)) = _
  simp only [broadcastInDim_scalar_apply]
  rw [colSum64, devSum64]
  show Scalar.select (FloatOps.cmpf (F := Ideal) (φ := .f32) .ogt (RefTerm.dof ix0) (Ideal.ofBits .f32 0x00000000#32))
      (Ideal.div (Cert.Gcn.devSum h k) (RefTerm.dof ix0)) _ = _
  rw [dof_ix0, cmp_cnt_zero, select_one]
  rfl

/-- Batch normalisation is the vocabulary's, with the variance as the mean of the squared deviations. -/
theorem bn64_eq (h : FVec Ideal S50000x64 .f32) : RefTerm.bn64 h = Cert.Gcn.bnDev h := by
  funext i
  obtain ⟨r, k, rfl⟩ : ∃ (r : Fin 50000) (k : Fin 64), i = ix2 r k := ⟨i 0, i 1, eq_ix2 i⟩
  show (h (ix2 r k) - broadcastInDim S50000x64 ![0, 1] bcast_S1x64_S50000x64_0_1
        (broadcastInDim S1x64 ![1] bcast_S64_S1x64_1 (RefTerm.mean64 h)) (ix2 r k))
      * broadcastInDim S50000x64 ![0, 1] bcast_S1x64_S50000x64_0_1
        (broadcastInDim S1x64 ![1] bcast_S64_S1x64_1
          (Host.rsqrt (addf (RefTerm.var64 h)
            (broadcastInDim S64 ![] bcast_S_S64 (constant (F := Ideal) S_ .f32 0x3727C5AC#32))))) (ix2 r k)
      = (h (ix2 r k) - Cert.Gcn.mean h k) * Ideal.rsqrt (Cert.Gcn.varDev h k + Cert.Gcn.eps)
  rw [rowToMat64, vecToRow64, rowToMat64, vecToRow64, mean64_apply]
  show _ * Ideal.rsqrt (RefTerm.var64 h (ix1 k)
      + broadcastInDim S64 ![] bcast_S_S64 (constant (F := Ideal) S_ .f32 0x3727C5AC#32) (ix1 k)) = _
  rw [var64_apply, broadcastInDim_scalar_apply]
  rfl

/-- The leaky rectifier is the vocabulary's, entry by entry. -/
theorem leaky64_eq (y : FVec Ideal S50000x64 .f32) : RefTerm.leaky64 y = Cert.Gcn.leaky y := by
  funext i
  show Scalar.select
      (FloatOps.cmpf (F := Ideal) (φ := .f32) .oge (y i)
        (broadcastInDim S50000x64 ![] bcast_S_S50000x64 (constant (F := Ideal) S_ .f32 0x00000000#32) i))
      (y i)
      (broadcastInDim S50000x64 ![] bcast_S_S50000x64 (id (constant (F := Ideal) S_ .f32 0x3C23D70A#32)) i * y i) = _
  rw [broadcastInDim_scalar_apply, broadcastInDim_scalar_apply]
  rfl

end Cert.ReferenceIdeal.RefRead

end
-- ==== Proof.RefRead20.lean ====
/-
  The reference's stages at width 20, read at an index.

  Every stage of the reference is a composition of host operations on arrays.  Read at one index, a pointwise
  operation is the extended reals' operation on the elements there; the broadcast of a scalar reads the scalar; the
  broadcast of a vector v of 20 entries to a [1, 20] row reads v at the column; the broadcast of a [1, 20] row to
  [50000, 20] reads the row at the column; and the sum over axis 0 started from the zero literal is, at column k, the
  zero literal plus the sum over the 50000 rows r of the entry (r, k).  Hence, with h(r, k) an entry of the stage's input:

    * the bias stage is            s(r, k) + b(k);
    * the column mean is           μ(k) = (0 + Σ_r h(r, k)) / 50000, whether it is carried as a vector of 20 entries or
                                   as a [1, 20] row;
    * the variance routine's divisor is 50000 - 0 = 50000, which is greater than 0, so the selection keeps the quotient
                                   v(k) = (0 + Σ_r (h(r, k) - μ(k))²) / 50000 and never reads the not-a-number literal;
    * batch normalisation is       (h(r, k) - μ(k)) · rsqrt(v(k) + ε).

  These are the definitions of the shared vocabulary (addBias, mean, varDev, bnDev), so each stage equals its counterpart.
-/
import proofs.«123476_j28346784153910_1_alg».proof.Proof.RefReadScalar
import Idealize.ShloMosaic.Lib.Pipeline.Value

noncomputable section

namespace Cert.ReferenceIdeal.RefRead

open Idealize.ShloMosaic Idealize.ShloMosaic.ValueIdx Cert.ReferenceIdeal Cert.ReferenceIdeal.Facts₀
open scoped BigOperators

variable [Cert.ReferenceIdeal.Facts]

/-! ### The two broadcasts and the column sum at an index -/

/-- A vector of 20 entries broadcast to a [1, 20] row reads the vector at the column. -/
theorem vecToRow20 {α : Type} (v : S20.Idx → α) (z : Fin 1) (k : Fin 20) :
    broadcastInDim S1x20 ![1] bcast_S20_S1x20_1 v (ix2 z k) = v (ix1 k) :=
  broadcastInDim_apply _ _ v (ix2 z k) (ix1 k) (fun a => match a with
    | ⟨0, _⟩ => rfl)

/-- A [1, 20] row broadcast to [50000, 20] reads the row at the column. -/
theorem rowToMat20 {α : Type} (w : S1x20.Idx → α) (r : Fin 50000) (k : Fin 20) :
    broadcastInDim S50000x20 ![0, 1] bcast_S1x20_S50000x20_0_1 w (ix2 r k) = w (ix2 (0 : Fin 1) k) :=
  broadcastInDim_apply _ _ w (ix2 r k) (ix2 (0 : Fin 1) k) (fun a => match a with
    | ⟨0, _⟩ => rfl
    | ⟨1, _⟩ => rfl)

/-- Dropping axis 0 of [50000, 20] leaves [20]. -/
theorem red20 : S50000x20.Reduces [0] S20 := by decide

/-- The index over column k with row r inserted is (r, k). -/
theorem lift20 (k : Fin 20) (r : Fin 50000) : red20.lift (ix1 k) r = ix2 r k := by
  funext a
  match a with
  | ⟨0, _⟩ => rfl
  | ⟨1, _⟩ => rfl

/-- The sum over axis 0 from the zero literal, at column k, is the column sum of the vocabulary. -/
theorem colSum20 (g : FVec Ideal S50000x20 .f32) (k : Fin 20) :
    Host.reduceAdd g (constant (F := Ideal) S_ .f32 0x00000000#32) reducesTo_S50000x20_S20_d0 h_S_ (ix1 k)
      = Cert.Gcn.colSum g k := by
  rw [hostReduceAdd_apply, Ideal.hostReduceAdd_single reducesTo_S50000x20_S20_d0 red20]
  show Ideal.ofBits .f32 0x00000000#32 + ∑ r : Fin 50000, g (red20.lift (ix1 k) r)
      = Cert.Gcn.zero + ∑ r : Fin 50000, g (ix2 r k)
  simp only [lift20]
  rfl

/-! ### The stages -/

/-- The bias stage adds b(k) to every entry of column k. -/
theorem bias20_eq (s : FVec Ideal S50000x20 .f32) (b : FVec Ideal S20 .f32) :
    RefTerm.bias20 s b = Cert.Gcn.addBias s (fun k => b (ValueIdx.ix1 k)) := by
  funext i
  obtain ⟨r, k, rfl⟩ : ∃ (r : Fin 50000) (k : Fin 20), i = ix2 r k := ⟨i 0, i 1, eq_ix2 i⟩
  show s (ix2 r k) + broadcastInDim S50000x20 ![0, 1] bcast_S1x20_S50000x20_0_1
      (broadcastInDim S1x20 ![1] bcast_S20_S1x20_1 b) (ix2 r k) = s (ix2 r k) + b (ix1 k)
  rw [rowToMat20, vecToRow20]

/-- The column mean carried as a vector of 20 entries. -/
theorem mean20_apply (h : FVec Ideal S50000x20 .f32) (k : Fin 20) :
    RefTerm.mean20 h (ValueIdx.ix1 k) = Cert.Gcn.mean h k := by
  show Ideal.div (Host.reduceAdd h (constant (F := Ideal) S_ .f32 0x00000000#32) reducesTo_S50000x20_S20_d0 h_S_ (ix1 k))
      (broadcastInDim S20 ![] bcast_S_S20 (constant (F := Ideal) S_ .f32 0x47435000#32) (ix1 k)) = _
  rw [colSum20, broadcastInDim_scalar_apply]
  rfl

/-- The column mean carried as a [1, 20] row, as the variance routine computes it. -/
theorem rowMean20 (h : FVec Ideal S50000x20 .f32) (z : Fin 1) (k : Fin 20) :
    Host.divf (broadcastInDim S1x20 ![1] bcast_S20_S1x20_1
        (Host.reduceAdd h (constant (F := Ideal) S_ .f32 0x00000000#32) reducesTo_S50000x20_S20_d0 h_S_))
      (broadcastInDim S1x20 ![] bcast_S_S1x20 (constant (F := Ideal) S_ .f32 0x47435000#32)) (ix2 z k)
      = Cert.Gcn.mean h k := by
  show Ideal.div (broadcastInDim S1x20 ![1] bcast_S20_S1x20_1
        (Host.reduceAdd h (constant (F := Ideal) S_ .f32 0x00000000#32) reducesTo_S50000x20_S20_d0 h_S_) (ix2 z k))
      (broadcastInDim S1x20 ![] bcast_S_S1x20 (constant (F := Ideal) S_ .f32 0x47435000#32) (ix2 z k)) = _
  rw [vecToRow20, colSum20, broadcastInDim_scalar_apply]
  rfl

/-- The deviation of an entry from its column's mean. -/
theorem dev20_apply (h : FVec Ideal S50000x20 .f32) (r : Fin 50000) (k : Fin 20) :
    RefTerm.dev20 h (ix2 r k) = h (ix2 r k) - Cert.Gcn.mean h k := by
  show h (ix2 r k) - broadcastInDim S50000x20 ![0, 1] bcast_S1x20_S50000x20_0_1
      (Host.divf (broadcastInDim S1x20 ![1] bcast_S20_S1x20_1
          (Host.reduceAdd h (constant (F := Ideal) S_ .f32 0x00000000#32) reducesTo_S50000x20_S20_d0 h_S_))
        (broadcastInDim S1x20 ![] bcast_S_S1x20 (constant (F := Ideal) S_ .f32 0x47435000#32))) (ix2 r k) = _
  rw [rowToMat20, rowMean20]

/-- The column sum of the squared deviations is the vocabulary's. -/
theorem devSum20 (h : FVec Ideal S50000x20 .f32) (k : Fin 20) :
    Cert.Gcn.colSum (mulf (RefTerm.dev20 h) (RefTerm.dev20 h)) k = Cert.Gcn.devSum h k := by
  unfold Cert.Gcn.colSum Cert.Gcn.devSum
  refine congrArg (fun t => Cert.Gcn.zero + t) (Finset.sum_congr rfl fun r _ => ?_)
  show RefTerm.dev20 h (ix2 r k) * RefTerm.dev20 h (ix2 r k) = _
  rw [dev20_apply]

/-- The column variance: the divisor is the row count and is positive, so the selection keeps the quotient. -/
theorem var20_apply (h : FVec Ideal S50000x20 .f32) (k : Fin 20) :
    RefTerm.var20 h (ValueIdx.ix1 k) = Cert.Gcn.varDev h k := by
  show Scalar.select
      (broadcastInDim S20 ![] bcast_S_S20 (cmpf .ogt RefTerm.dof (constant (F := Ideal) S_ .f32 0x00000000#32)) (ix1 k))
      (Ideal.div
        (Host.reduceAdd (mulf (RefTerm.dev20 h) (RefTerm.dev20 h)) (constant (F := Ideal) S_ .f32 0x00000000#32)
          reducesTo_S50000x20_S20_d0 h_S_ (ix1 k))
        (broadcastInDim S20 ![] bcast_S_S20 RefTerm.dof (ix1 k)))
      (broadcastInDim S20 ![] bcast_S_S20 (id (constant (F := Ideal) S_ .f32 0x7FC00000#32)) (ix1 k)) = _
  simp only [broadcastInDim_scalar_apply]
  rw [colSum20, devSum20]
  show Scalar.select (FloatOps.cmpf (F := Ideal) (φ := .f32) .ogt (RefTerm.dof ix0) (Ideal.ofBits .f32 0x00000000#32))
      (Ideal.div (Cert.Gcn.devSum h k) (RefTerm.dof ix0)) _ = _
  rw [dof_ix0, cmp_cnt_zero, select_one]
  rfl

/-- Batch normalisation is the vocabulary's, with the variance as the mean of the squared deviations. -/
theorem bn20_eq (h : FVec Ideal S50000x20 .f32) : RefTerm.bn20 h = Cert.Gcn.bnDev h := by
  funext i
  obtain ⟨r, k, rfl⟩ : ∃ (r : Fin 50000) (k : Fin 20), i = ix2 r k := ⟨i 0, i 1, eq_ix2 i⟩
  show (h (ix2 r k) - broadcastInDim S50000x20 ![0, 1] bcast_S1x20_S50000x20_0_1
        (broadcastInDim S1x20 ![1] bcast_S20_S1x20_1 (RefTerm.mean20 h)) (ix2 r k))
      * broadcastInDim S50000x20 ![0, 1] bcast_S1x20_S50000x20_0_1
        (broadcastInDim S1x20 ![1] bcast_S20_S1x20_1
          (Host.rsqrt (addf (RefTerm.var20 h)
            (broadcastInDim S20 ![] bcast_S_S20 (constant (F := Ideal) S_ .f32 0x3727C5AC#32))))) (ix2 r k)
      = (h (ix2 r k) - Cert.Gcn.mean h k) * Ideal.rsqrt (Cert.Gcn.varDev h k + Cert.Gcn.eps)
  rw [rowToMat20, vecToRow20, rowToMat20, vecToRow20, mean20_apply]
  show _ * Ideal.rsqrt (RefTerm.var20 h (ix1 k)
      + broadcastInDim S20 ![] bcast_S_S20 (constant (F := Ideal) S_ .f32 0x3727C5AC#32) (ix1 k)) = _
  rw [var20_apply, broadcastInDim_scalar_apply]
  rfl

end Cert.ReferenceIdeal.RefRead

end
-- ==== Proof.RefReadDot.lean ====
/-
  The reference's three matrix products, read as the plain product of the shared vocabulary.

  Each is a host `dot_general` of an [R, K] array and a [K, C] array contracting the left operand's axis 1 with the
  right operand's axis 0, with no batch axis: its dimension numbers are those of the plain product, so at output index
  (r, c) it is the sum over k of left (r, k) times right (k, c).
-/
import proofs.«123476_j28346784153910_1_alg».proof.Proof.RefTerm
import proofs.«123476_j28346784153910_1_alg».proof.Proof.LibPlainDot

noncomputable section

namespace Cert.ReferenceIdeal.RefRead

open Idealize.ShloMosaic Cert.ReferenceIdeal Cert.ReferenceIdeal.Facts₀

variable [Cert.ReferenceIdeal.Facts]

/-- The first layer's product, [50000, 256] by [256, 128]. -/
theorem dot1_eq (x : FVec Ideal S50000x256 .f32) (W : FVec Ideal S256x128 .f32) :
    Host.dotGeneral dot_S50000x256_S256x128_S50000x128_1_0_0_1_n_n none x W = Cert.Lib.PlainDot.mm x W := by
  funext j
  exact Cert.Lib.PlainDot.dotGeneral_apply (R := 50000) (K := 256) (C := 128) _ rfl none .single x W j

/-- The second layer's product, [50000, 128] by [128, 64]. -/
theorem dot2_eq (x : FVec Ideal S50000x128 .f32) (W : FVec Ideal S128x64 .f32) :
    Host.dotGeneral dot_S50000x128_S128x64_S50000x64_1_0_0_1_n_n none x W = Cert.Lib.PlainDot.mm x W := by
  funext j
  exact Cert.Lib.PlainDot.dotGeneral_apply (R := 50000) (K := 128) (C := 64) _ rfl none .single x W j

/-- The last layer's product, [50000, 64] by [64, 20]. -/
theorem dot3_eq (x : FVec Ideal S50000x64 .f32) (W : FVec Ideal S64x20 .f32) :
    Host.dotGeneral dot_S50000x64_S64x20_S50000x20_1_0_0_1_n_n none x W = Cert.Lib.PlainDot.mm x W := by
  funext j
  exact Cert.Lib.PlainDot.dotGeneral_apply (R := 50000) (K := 64) (C := 20) _ rfl none .single x W j

end Cert.ReferenceIdeal.RefRead

end
-- ==== Proof.SpmmReal.lean ====
/-
  The sparse aggregation keeps real entries real.

  The aggregation adds, into every row of a zero matrix, the products (edge weight) · (source row) of the edges
  that end at that row.  Entry by entry the result is 0 plus a finite sum of products of one edge weight and one
  feature entry: the accumulating scatter is the operand's entry plus the sum of the updates landing there, a
  gathered entry is an entry of the feature matrix whatever the index, and a broadcast entry is an entry of its
  operand.  A product of two reals is real, a finite sum of reals is real, and 0 is real.
-/
import proofs.«123476_j28346784153910_1_alg».proof.Proof.RefTerm
import proofs.«123476_j28346784153910_1_alg».proof.Proof.LibSageMath
import Idealize.ShloMosaic.PureOps.Ideal
import Idealize.ShloMosaic.PureOps.Ideal.Laws

noncomputable section

namespace Cert.ReferenceIdeal.RefRead

open Idealize.ShloMosaic Cert.ReferenceIdeal Cert.ReferenceIdeal.Facts₀

/-- The accumulating scatter is, entry by entry, the operand's entry plus the finite sum of the updates that land
    on it; real operand entries and real updates give real entries. -/
theorem scatterAdd_isReal {s si u : Shape} {n : Nat} (d : ScatterDims s si u) (x : FVec Ideal s .f32)
    (idx : IVec si n) (upd : FVec Ideal u .f32) (hx : ∀ i, SageMath.IsReal (x i))
    (hu : ∀ j, SageMath.IsReal (upd j)) : ∀ i, SageMath.IsReal (Host.scatterAdd d x idx upd i) := by
  intro i
  unfold Host.scatterAdd
  rw [Ideal.hostScatterAdd_def]
  unfold Ideal.hostScatterAdd
  exact (hx i).add (SageMath.IsReal.sum _ _ fun j _ => hu j)

/-- The zero literal broadcast to any shape is 0 everywhere, a real. -/
theorem bcast_zero_isReal {T : Shape} (h : (⟨0, ![]⟩ : Shape).BroadcastsInDim T ![]) (i : T.Idx) :
    SageMath.IsReal (broadcastInDim T ![] h (constant (F := Ideal) (⟨0, ![]⟩ : Shape) .f32 0x00000000#32) i) := by
  unfold broadcastInDim constant
  rw [Ideal.ofBits_def, Ideal.ofBits_zero_f32]
  exact SageMath.isReal_zero

variable [Cert.ReferenceIdeal.Facts]

/-- The sparse aggregation at width 128 keeps real entries real: the aggregated entry is 0 plus a finite sum of
    products of an edge weight and a feature entry. -/
theorem spmm128_isReal (feat : FVec Ideal S50000x128 .f32) (w : FVec Ideal S800000 .f32) (src dst : IVec S800000 32)
    (hf : ∀ i, SageMath.IsReal (feat i)) (hw : ∀ e, SageMath.IsReal (w e)) :
    ∀ i, SageMath.IsReal (RefTerm.spmm128 feat w src dst i) := by
  unfold RefTerm.spmm128
  refine scatterAdd_isReal _ _ _ _ (fun i => ?_) (fun j => ?_)
  · exact bcast_zero_isReal _ i
  · exact (hw _).mul (hf _)

/-- The sparse aggregation at width 64 keeps real entries real: the aggregated entry is 0 plus a finite sum of
    products of an edge weight and a feature entry. -/
theorem spmm64_isReal (feat : FVec Ideal S50000x64 .f32) (w : FVec Ideal S800000 .f32) (src dst : IVec S800000 32)
    (hf : ∀ i, SageMath.IsReal (feat i)) (hw : ∀ e, SageMath.IsReal (w e)) :
    ∀ i, SageMath.IsReal (RefTerm.spmm64 feat w src dst i) := by
  unfold RefTerm.spmm64
  refine scatterAdd_isReal _ _ _ _ (fun i => ?_) (fun j => ?_)
  · exact bcast_zero_isReal _ i
  · exact (hw _).mul (hf _)

end Cert.ReferenceIdeal.RefRead

end
-- ==== Proof.Bridge.lean ====
/-
  The two programs compute one function of real arguments.

  Layer by layer: the kernel's matrix product and the reference's dot_general are one sum of products; both programs
  aggregate along the edges with the same host operations; the kernel's bias row and the reference's doubly broadcast
  bias add the same number to every row; a matrix product of real matrices is real, the aggregation of a real matrix
  with real edge weights is real, so the biased aggregate is a real matrix of 50000 rows and its two batch
  normalisations (variance as mean of squares minus squared mean; variance as mean of squared deviations) agree; the
  normalised matrix is real, and so is its rectification: the next layer starts from a real matrix again.
-/
import proofs.«123476_j28346784153910_1_alg».proof.Proof.KNet
import proofs.«123476_j28346784153910_1_alg».proof.Proof.RefTerm
import proofs.«123476_j28346784153910_1_alg».proof.Proof.Math
import proofs.«123476_j28346784153910_1_alg».proof.Proof.RefRead128
import proofs.«123476_j28346784153910_1_alg».proof.Proof.RefRead64
import proofs.«123476_j28346784153910_1_alg».proof.Proof.RefRead20
import proofs.«123476_j28346784153910_1_alg».proof.Proof.RefReadDot
import proofs.«123476_j28346784153910_1_alg».proof.Proof.SpmmReal
import Idealize.ShloMosaic.Lib.Pipeline.Value

noncomputable section

namespace Cert.Bridge

open Idealize.ShloMosaic Idealize.ShloMosaic.ValueIdx Cert.Gcn SageMath
open Cert.ReferenceIdeal Cert.ReferenceIdeal.Facts₀

variable [hK : Cert.KernelIdeal.Facts] [hR : Cert.ReferenceIdeal.Facts]

/-! ### The pieces the two programs share -/

/-- Both programs aggregate along the edges with the same operations. -/
theorem spmm128_eq (feat : FVec Ideal S50000x128 .f32) (w : FVec Ideal S800000 .f32) (src dst : IVec S800000 32) :
    Cert.KernelIdeal.KNet.spmm128 feat w src dst = RefTerm.spmm128 feat w src dst := rfl
theorem spmm64_eq (feat : FVec Ideal S50000x64 .f32) (w : FVec Ideal S800000 .f32) (src dst : IVec S800000 32) :
    Cert.KernelIdeal.KNet.spmm64 feat w src dst = RefTerm.spmm64 feat w src dst := rfl

/-- A vector reshaped to a one-row matrix, read in that row, is the vector. -/
theorem biasRow128_eq (b : FVec Ideal S128 .f32) : Cert.KernelIdeal.KNet.biasRow128 b = fun k => b (ix1 k) := by
  funext k
  unfold Cert.KernelIdeal.KNet.biasRow128
  exact shapeCast_apply _ _ _ _ (by rw [Shape.rowMajor_val_two, Shape.rowMajor_val_one]; show k.val = 0 * 128 + k.val; omega)
theorem biasRow64_eq (b : FVec Ideal S64 .f32) : Cert.KernelIdeal.KNet.biasRow64 b = fun k => b (ix1 k) := by
  funext k
  unfold Cert.KernelIdeal.KNet.biasRow64
  exact shapeCast_apply _ _ _ _ (by rw [Shape.rowMajor_val_two, Shape.rowMajor_val_one]; show k.val = 0 * 64 + k.val; omega)
theorem biasRow20_eq (b : FVec Ideal S20 .f32) : Cert.KernelIdeal.KNet.biasRow20 b = fun k => b (ix1 k) := by
  funext k
  unfold Cert.KernelIdeal.KNet.biasRow20
  exact shapeCast_apply _ _ _ _ (by rw [Shape.rowMajor_val_two, Shape.rowMajor_val_one]; show k.val = 0 * 20 + k.val; omega)

/-! ### Layer 1: 256 features to 128 -/

/-- The biased aggregate of layer 1 is a real matrix. -/
theorem pre128_isReal (x : FVec Ideal S50000x256 .f32) (W : FVec Ideal S256x128 .f32) (b : FVec Ideal S128 .f32)
    (w : FVec Ideal S800000 .f32) (src dst : IVec S800000 32) (hx : ∀ i, IsReal (x i)) (hW : ∀ i, IsReal (W i))
    (hb : ∀ i, IsReal (b i)) (hw : ∀ i, IsReal (w i)) :
    ∀ i, IsReal (addBias (RefTerm.spmm128 (Cert.Lib.PlainDot.mm x W) w src dst) (fun k => b (ix1 k)) i) :=
  isReal_addBias _ _ (RefRead.spmm128_isReal _ w src dst (isReal_mm x W hx hW) hw) (fun k => hb (ix1 k))

/-- The kernel's layer 1 is the reference's stages composed, on real arguments. -/
theorem layer128_eq (x : FVec Ideal S50000x256 .f32) (W : FVec Ideal S256x128 .f32) (b : FVec Ideal S128 .f32)
    (w : FVec Ideal S800000 .f32) (src dst : IVec S800000 32) (hx : ∀ i, IsReal (x i)) (hW : ∀ i, IsReal (W i))
    (hb : ∀ i, IsReal (b i)) (hw : ∀ i, IsReal (w i)) :
    Cert.KernelIdeal.KNet.layer128 x W b w src dst
      = RefTerm.leaky128 (RefTerm.bn128 (RefTerm.bias128 (RefTerm.spmm128
          (Host.dotGeneral dot_S50000x256_S256x128_S50000x128_1_0_0_1_n_n none x W) w src dst) b)) := by
  rw [RefRead.dot1_eq, RefRead.bias128_eq, RefRead.bn128_eq, RefRead.leaky128_eq]
  unfold Cert.KernelIdeal.KNet.layer128
  rw [spmm128_eq, biasRow128_eq, bnSq_eq_bnDev _ (pre128_isReal x W b w src dst hx hW hb hw) rfl]

/-- The kernel's layer 1 gives a real matrix on real arguments. -/
theorem layer128_isReal (x : FVec Ideal S50000x256 .f32) (W : FVec Ideal S256x128 .f32) (b : FVec Ideal S128 .f32)
    (w : FVec Ideal S800000 .f32) (src dst : IVec S800000 32) (hx : ∀ i, IsReal (x i)) (hW : ∀ i, IsReal (W i))
    (hb : ∀ i, IsReal (b i)) (hw : ∀ i, IsReal (w i)) :
    ∀ i, IsReal (Cert.KernelIdeal.KNet.layer128 x W b w src dst i) := by
  unfold Cert.KernelIdeal.KNet.layer128
  rw [spmm128_eq, biasRow128_eq, bnSq_eq_bnDev _ (pre128_isReal x W b w src dst hx hW hb hw) rfl]
  exact isReal_leaky _ (isReal_bnDev _ (pre128_isReal x W b w src dst hx hW hb hw))

/-! ### Layer 2: 128 features to 64 -/

/-- The biased aggregate of layer 2 is a real matrix. -/
theorem pre64_isReal (x : FVec Ideal S50000x128 .f32) (W : FVec Ideal S128x64 .f32) (b : FVec Ideal S64 .f32)
    (w : FVec Ideal S800000 .f32) (src dst : IVec S800000 32) (hx : ∀ i, IsReal (x i)) (hW : ∀ i, IsReal (W i))
    (hb : ∀ i, IsReal (b i)) (hw : ∀ i, IsReal (w i)) :
    ∀ i, IsReal (addBias (RefTerm.spmm64 (Cert.Lib.PlainDot.mm x W) w src dst) (fun k => b (ix1 k)) i) :=
  isReal_addBias _ _ (RefRead.spmm64_isReal _ w src dst (isReal_mm x W hx hW) hw) (fun k => hb (ix1 k))

/-- The kernel's layer 2 is the reference's stages composed, on real arguments. -/
theorem layer64_eq (x : FVec Ideal S50000x128 .f32) (W : FVec Ideal S128x64 .f32) (b : FVec Ideal S64 .f32)
    (w : FVec Ideal S800000 .f32) (src dst : IVec S800000 32) (hx : ∀ i, IsReal (x i)) (hW : ∀ i, IsReal (W i))
    (hb : ∀ i, IsReal (b i)) (hw : ∀ i, IsReal (w i)) :
    Cert.KernelIdeal.KNet.layer64 x W b w src dst
      = RefTerm.leaky64 (RefTerm.bn64 (RefTerm.bias64 (RefTerm.spmm64
          (Host.dotGeneral dot_S50000x128_S128x64_S50000x64_1_0_0_1_n_n none x W) w src dst) b)) := by
  rw [RefRead.dot2_eq, RefRead.bias64_eq, RefRead.bn64_eq, RefRead.leaky64_eq]
  unfold Cert.KernelIdeal.KNet.layer64
  rw [spmm64_eq, biasRow64_eq, bnSq_eq_bnDev _ (pre64_isReal x W b w src dst hx hW hb hw) rfl]

/-- The kernel's layer 2 gives a real matrix on real arguments. -/
theorem layer64_isReal (x : FVec Ideal S50000x128 .f32) (W : FVec Ideal S128x64 .f32) (b : FVec Ideal S64 .f32)
    (w : FVec Ideal S800000 .f32) (src dst : IVec S800000 32) (hx : ∀ i, IsReal (x i)) (hW : ∀ i, IsReal (W i))
    (hb : ∀ i, IsReal (b i)) (hw : ∀ i, IsReal (w i)) :
    ∀ i, IsReal (Cert.KernelIdeal.KNet.layer64 x W b w src dst i) := by
  unfold Cert.KernelIdeal.KNet.layer64
  rw [spmm64_eq, biasRow64_eq, bnSq_eq_bnDev _ (pre64_isReal x W b w src dst hx hW hb hw) rfl]
  exact isReal_leaky _ (isReal_bnDev _ (pre64_isReal x W b w src dst hx hW hb hw))

/-! ### The last layer: 64 features to 20 -/

/-- The biased product of the last layer is a real matrix. -/
theorem pre20_isReal (x : FVec Ideal S50000x64 .f32) (W : FVec Ideal S64x20 .f32) (b : FVec Ideal S20 .f32)
    (hx : ∀ i, IsReal (x i)) (hW : ∀ i, IsReal (W i)) (hb : ∀ i, IsReal (b i)) :
    ∀ i, IsReal (addBias (Cert.Lib.PlainDot.mm x W) (fun k => b (ix1 k)) i) :=
  isReal_addBias _ _ (isReal_mm x W hx hW) (fun k => hb (ix1 k))

/-- The kernel's last layer is the reference's stages composed, on real arguments. -/
theorem layer20_eq (x : FVec Ideal S50000x64 .f32) (W : FVec Ideal S64x20 .f32) (b : FVec Ideal S20 .f32)
    (hx : ∀ i, IsReal (x i)) (hW : ∀ i, IsReal (W i)) (hb : ∀ i, IsReal (b i)) :
    Cert.KernelIdeal.KNet.layer20 x W b
      = RefTerm.bn20 (RefTerm.bias20 (Host.dotGeneral dot_S50000x64_S64x20_S50000x20_1_0_0_1_n_n none x W) b) := by
  rw [RefRead.dot3_eq, RefRead.bias20_eq, RefRead.bn20_eq]
  unfold Cert.KernelIdeal.KNet.layer20
  rw [biasRow20_eq, bnSq_eq_bnDev _ (pre20_isReal x W b hx hW hb) rfl]

/-! ### The network -/

/-- On real arguments the kernel program's network and the reference's are one function. -/
theorem out_eq (x : FVec Ideal Cert.ReferenceIdeal.S50000x256 .f32) (w : FVec Ideal Cert.ReferenceIdeal.S800000 .f32)
    (W1 : FVec Ideal Cert.ReferenceIdeal.S256x128 .f32) (b1 : FVec Ideal Cert.ReferenceIdeal.S128 .f32)
    (W2 : FVec Ideal Cert.ReferenceIdeal.S128x64 .f32) (b2 : FVec Ideal Cert.ReferenceIdeal.S64 .f32)
    (Wl : FVec Ideal Cert.ReferenceIdeal.S64x20 .f32) (bl : FVec Ideal Cert.ReferenceIdeal.S20 .f32)
    (src dst : IVec Cert.ReferenceIdeal.S800000 32) (hx : ∀ i, SageMath.IsReal (x i)) (hw : ∀ i, SageMath.IsReal (w i))
    (hW1 : ∀ i, SageMath.IsReal (W1 i)) (hb1 : ∀ i, SageMath.IsReal (b1 i)) (hW2 : ∀ i, SageMath.IsReal (W2 i))
    (hb2 : ∀ i, SageMath.IsReal (b2 i)) (hWl : ∀ i, SageMath.IsReal (Wl i)) (hbl : ∀ i, SageMath.IsReal (bl i)) :
    Cert.KernelIdeal.KNet.out x w W1 b1 W2 b2 Wl bl src dst
      = Cert.ReferenceIdeal.RefTerm.out x w W1 b1 W2 b2 Wl bl src dst := by
  have r1 := layer128_isReal x W1 b1 w src dst hx hW1 hb1 hw
  have r2 := layer64_isReal _ W2 b2 w src dst r1 hW2 hb2 hw
  unfold Cert.KernelIdeal.KNet.out RefTerm.out
  rw [layer20_eq _ Wl bl r2 hWl hbl, layer64_eq _ W2 b2 w src dst r1 hW2 hb2 hw,
    layer128_eq x W1 b1 w src dst hx hW1 hb1 hw]

end Cert.Bridge

end
-- ==== Proof.lean ====
/-
  The certificate of a three-layer graph-convolution network: a kernel program of nine regions — per layer a
  tiled matrix product, column statistics accumulated over the row tiles, and a normalise-and-rectify pass, with the
  sparse aggregation along the edges done by host operations between them — against its plain reference.

  The three frames: the two kernel programs' are the launch of their nine regions and the host stretches between them
  over proof data whose arrays are the boundary contents; the reference's is its run with the result dropped.  The
  idealisation rewrote nothing, so `preserves` asks nothing.  The value claim: at the ideal values the kernel program's
  result buffer ends at the network written in the certificate's vocabulary (the boundary contents read region by region
  and stretch by stretch), the reference's at its operations' composed term; under the precondition every float argument
  is a real array, so every layer's biased aggregate is a real matrix of 50000 rows, where the kernel's variance (mean of
  squares minus squared mean) and the reference's (mean of squared deviations) are one number: the two results are one
  function of the arguments.
-/
import proofs.«123476_j28346784153910_1_alg».proof.Defs
import proofs.«123476_j28346784153910_1_alg».proof.Proof.Gen.Kernel
import proofs.«123476_j28346784153910_1_alg».proof.Proof.Gen.KernelIdeal
import proofs.«123476_j28346784153910_1_alg».proof.Proof.Gen.ReferenceIdeal
import proofs.«123476_j28346784153910_1_alg».proof.Proof.Gen.Pre_finite_inputs
import proofs.«123476_j28346784153910_1_alg».proof.Proof.KernelFrameP
import proofs.«123476_j28346784153910_1_alg».proof.Proof.KernelIdealFrameP
import proofs.«123476_j28346784153910_1_alg».proof.Proof.KernelRun
import proofs.«123476_j28346784153910_1_alg».proof.Proof.ChainL1
import proofs.«123476_j28346784153910_1_alg».proof.Proof.ChainL2
import proofs.«123476_j28346784153910_1_alg».proof.Proof.ChainL3
import proofs.«123476_j28346784153910_1_alg».proof.Proof.RefRun
import proofs.«123476_j28346784153910_1_alg».proof.Proof.FinitePre
import proofs.«123476_j28346784153910_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ
/-- The idealised kernel program runs and leaves its arguments as launched. -/
theorem frame_kernelIdeal : Cert.frame_KernelIdeal := fun m ρ _ => Cert.KernelIdeal.Gen.frame m ρ
/-- The reference runs and leaves its arguments as launched: its run, the result dropped. -/
theorem frame_referenceIdeal : Cert.frame_ReferenceIdeal := fun m ρ _ =>
  (θ_run (Cert.ReferenceIdeal.defs (F := Ideal)) _ _).mono (fun _ h c => (h c).2) (Cert.ReferenceIdeal.RefRun.run m ρ)

/-- The kernel program's result buffer after its run: the network of the launch memory's arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W15 m ρ c (Proc.devRef .tc Cert.KernelIdeal.main_v55)
      = Cert.KernelIdeal.KNet.out
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  unfold Cert.KernelIdeal.KNet.out
  rw [Cert.KernelIdeal.Chain.W15_v55, Cert.KernelIdeal.Chain.W10_v45, Cert.KernelIdeal.Chain.W5_v22]

/-- At the ideal values the two programs, run from memories agreeing on the arguments, end with equal results. -/
theorem algebraic : Cert.algebraic_KernelIdeal_ReferenceIdeal := by
  intro m ρ m' ρ' hpre hagree
  refine ⟨fun c => Cert.KernelIdeal.Gen.W15 m ρ c (Proc.devRef .tc Cert.KernelIdeal.main_v55),
    Cert.KernelIdeal.Gen.run (F := Ideal) m ρ, ?_⟩
  refine (θ_run (Cert.ReferenceIdeal.defs (F := Ideal)) _ _).mono (fun r h c => ⟨(h c).1.trans ?_, (h c).2⟩)
    (Cert.ReferenceIdeal.RefRun.run m' ρ')
  obtain ⟨h0, h1, h2, h3, h4, h5, h6, h7⟩ := Cert.FinitePre.real_of_pre m hpre c
  obtain ⟨e0, e1, e2, e3, e4, e5, e6, e7, e8, e9⟩ := hagree c
  show _ = Cert.KernelIdeal.Gen.W15 m ρ c (Proc.devRef .tc Cert.KernelIdeal.main_v55)
  rw [e0, e1, e2, e3, e4, e5, e6, e7, e8, e9, kernel_result m ρ c]
  exact (Cert.Bridge.out_eq _ _ _ _ _ _ _ _ _ _ h0 h1 h2 h3 h4 h5 h6 h7).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
